-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x1024 : Shape := ⟨3, ![8, 64, 1024]⟩
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x64x1024 : S_.BroadcastsInDim S8x64x1024 (![] : Fin 0 → Fin S8x64x1024.rank)
  reducesTo_S8x64x1024_S_d0_1_2 : S8x64x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x64x1024 .f32) (main_arg1 : FVec F S8x4096x1024 .f32) (main_arg2 : FVec F S8x4096x1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S8x64x1024 .f32 := Host.absf main_arg0
  let main_cst : FVec F S_ .f32 := constant S_ .f32 0x7F800000#32
  let main_v1 : FVec F S8x64x1024 .f32 := broadcastInDim S8x64x1024 ![] bcast_S_S8x64x1024 main_cst
  let main_v2 : IVec S8x64x1024 1 := cmpf .olt main_v0 main_v1
  let main_c : IVec S_ 1 := constantI S_ 1 1#1
  let main_v3 : IVec S_ 1 := (fun x v => Host.reduce IntOp.andi x v reducesTo_S8x64x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8x64x1024 : Shape := ⟨3, ![8, 64, 1024]⟩
abbrev S8x4096x1024 : Shape := ⟨3, ![8, 4096, 1024]⟩
abbrev S1024x1024 : Shape := ⟨2, ![1024, 1024]⟩
abbrev S1024 : Shape := ⟨1, ![1024]⟩
abbrev S512x1024 : Shape := ⟨2, ![512, 1024]⟩
abbrev S32768x1024 : Shape := ⟨2, ![32768, 1024]⟩
abbrev S1x1024 : Shape := ⟨2, ![1, 1024]⟩
abbrev S8x16x64x4096 : Shape := ⟨4, ![8, 16, 64, 4096]⟩
abbrev S1x64x128 : Shape := ⟨3, ![1, 64, 128]⟩
abbrev S1x4096x128 : Shape := ⟨3, ![1, 4096, 128]⟩
abbrev S1x2x64x4096 : Shape := ⟨4, ![1, 2, 64, 4096]⟩
abbrev S1x64x64 : Shape := ⟨3, ![1, 64, 64]⟩
abbrev S64x64 : Shape := ⟨2, ![64, 64]⟩
abbrev S1x4096x64 : Shape := ⟨3, ![1, 4096, 64]⟩
abbrev S4096x64 : Shape := ⟨2, ![4096, 64]⟩
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩
abbrev S1x1x64x4096 : Shape := ⟨4, ![1, 1, 64, 4096]⟩

abbrev nBuf : Space → Nat
  | .hbm => 31
  | .vmem => 27
  | .smem => 0
  | _ => 0

abbrev bufTy : (tb : Table) → Fin (tcTables nBuf tb) → BufTy
  | .hbm, ⟨0, _⟩ => ⟨S8x64x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S32768x1024, .f32⟩
  | .hbm, ⟨10, _⟩ => ⟨S32768x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S512x1024, .bf16⟩
  | .hbm, ⟨21, _⟩ => ⟨S32768x1024, .bf16⟩
  | .hbm, ⟨22, _⟩ => ⟨S32768x1024, .bf16⟩
  | .hbm, ⟨23, _⟩ => ⟨S8x64x1024, .bf16⟩
  | .hbm, ⟨24, _⟩ => ⟨S8x4096x1024, .bf16⟩
  | .hbm, ⟨25, _⟩ => ⟨S8x4096x1024, .bf16⟩
  | .hbm, ⟨26, _⟩ => ⟨S8x64x1024, .bf16⟩
  | .hbm, ⟨27, _⟩ => ⟨S8x16x64x4096, .f32⟩
  | .hbm, ⟨28, _⟩ => ⟨S512x1024, .bf16⟩
  | .hbm, ⟨29, _⟩ => ⟨S512x1024, .f32⟩
  | .hbm, ⟨30, _⟩ => ⟨S8x64x1024, .f32⟩
  | .local _ .vmem, ⟨0, _⟩ => ⟨S512x1024, .f32⟩
  | .local _ .vmem, ⟨1, _⟩ => ⟨S1024x1024, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1x64x128, .bf16⟩
  | .local _ .vmem, ⟨14, _⟩ => ⟨S1x64x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x64x128, .bf16⟩
  | .local _ .vmem, ⟨20, _⟩ => ⟨S1x64x128, .bf16⟩
  | .local _ .vmem, ⟨21, _⟩ => ⟨S1x2x64x4096, .f32⟩
  | .local _ .vmem, ⟨22, _⟩ => ⟨S1x2x64x4096, .f32⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc3_sem3_1 : DmaSem sig := 20
abbrev cc3_sem4_0 : DmaSem sig := 21
abbrev cc3_sem4_1 : DmaSem sig := 22
abbrev cc4_sem0_0 : DmaSem sig := 23
abbrev cc4_sem1_0 : DmaSem sig := 24
abbrev cc4_sem2_0 : DmaSem sig := 25
abbrev cc4_sem3_0 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x64x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4096x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x4096x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x64x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x2x64x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  shapeCasts_S8x64x1024_S512x1024 : S8x64x1024.ShapeCasts S512x1024
  shapeCasts_S8x4096x1024_S32768x1024 : S8x4096x1024.ShapeCasts S32768x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S512x1024_S8x64x1024 : S512x1024.ShapeCasts S8x64x1024
  shapeCasts_S32768x1024_S8x4096x1024 : S32768x1024.ShapeCasts S8x4096x1024
  inb_S1x64x128_S1x64x64_0_0_0 : ∀ a, (![0, 0, 0] : Fin 3 → Nat) a + S1x64x64.size a ≤ S1x64x128.size a
  h_S1x64x64 : 0 < S1x64x64.numel
  shapeCasts_S1x64x64_S64x64 : S1x64x64.ShapeCasts S64x64
  inb_S1x4096x128_S1x4096x64_0_0_0 : ∀ a, (![0, 0, 0] : Fin 3 → Nat) a + S1x4096x64.size a ≤ S1x4096x128.size a
  h_S1x4096x64 : 0 < S1x4096x64.numel
  shapeCasts_S1x4096x64_S4096x64 : S1x4096x64.ShapeCasts S4096x64
  reduces_S64x4096_S4096 : S64x4096.Reduces [0] S4096
  shapeCasts_S4096_S1x4096 : S4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  broadcasts_S64x1_S64x64 : S64x1.Broadcasts S64x64
  shapeCasts_S64x64_S1x64x64 : S64x64.ShapeCasts S1x64x64
  packedbf16_S1x64x128_S1x64x64_0_0_0 : (Rect.unit (s := S1x64x128) ![0, 0, 0] S1x64x64.size inb_S1x64x128_S1x64x64_0_0_0).PackedRows (EltTy.packing .bf16)
  inb_S1x2x64x4096_S1x1x64x4096_0_0_0_0 : ∀ a, (![0, 0, 0, 0] : Fin 4 → Nat) a + S1x1x64x4096.size a ≤ S1x2x64x4096.size a
  h_S1x1x64x4096 : 0 < S1x1x64x4096.numel
  shapeCasts_S1x1x64x4096_S64x4096 : S1x1x64x4096.ShapeCasts S64x4096
  shapeCasts_S64x4096_S1x1x64x4096 : S64x4096.ShapeCasts S1x1x64x4096
  inb_S1x64x128_S1x64x64_0_0_64 : ∀ a, (![0, 0, 64] : Fin 3 → Nat) a + S1x64x64.size a ≤ S1x64x128.size a
  inb_S1x4096x128_S1x4096x64_0_0_64 : ∀ a, (![0, 0, 64] : Fin 3 → Nat) a + S1x4096x64.size a ≤ S1x4096x128.size a
  packedbf16_S1x64x128_S1x64x64_0_0_64 : (Rect.unit (s := S1x64x128) ![0, 0, 64] S1x64x64.size inb_S1x64x128_S1x64x64_0_0_64).PackedRows (EltTy.packing .bf16)
  inb_S1x2x64x4096_S1x1x64x4096_0_1_0_0 : ∀ a, (![0, 1, 0, 0] : Fin 4 → Nat) a + S1x1x64x4096.size a ≤ S1x2x64x4096.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  dot_S64x64_S4096x64_S64x4096_1_1_0_0_n_n_wf : DotDims.WF S64x64 S4096x64 S64x4096 [1] [1] [0] [0] [] []
  dot_S64x4096_S4096x64_S64x64_1_0_0_1_n_n_wf : DotDims.WF S64x4096 S4096x64 S64x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S32768x1024.size a
  hwx1_0 : ∀ i : grid1.Coords, EltTy.bits .f32 = 32 ∨ (Rect.block (s := S32768x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S32768x1024.size a
  hwx1_2 : ∀ i : grid1.Coords, EltTy.bits .bf16 = 32 ∨ (Rect.block (s := S32768x1024) S512x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S32768x1024.size a
  hwx2_0 : ∀ i : grid2.Coords, EltTy.bits .f32 = 32 ∨ (Rect.block (s := S32768x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S32768x1024.size a
  hwx2_2 : ∀ i : grid2.Coords, EltTy.bits .bf16 = 32 ∨ (Rect.block (s := S32768x1024) S512x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x64x128.size a ≤ S8x64x1024.size a
  hwx3_0 : ∀ i : grid3.Coords, EltTy.bits .bf16 = 32 ∨ (Rect.block (s := S8x64x1024) S1x64x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096x128.size a ≤ S8x4096x1024.size a
  hwx3_1 : ∀ i : grid3.Coords, EltTy.bits .bf16 = 32 ∨ (Rect.block (s := S8x4096x1024) S1x4096x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x4096x128.size a ≤ S8x4096x1024.size a
  hwx3_2 : ∀ i : grid3.Coords, EltTy.bits .bf16 = 32 ∨ (Rect.block (s := S8x4096x1024) S1x4096x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x128.size a ≤ S8x64x1024.size a
  hwx3_3 : ∀ i : grid3.Coords, EltTy.bits .bf16 = 32 ∨ (Rect.block (s := S8x64x1024) S1x64x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x64x4096.size a ≤ S8x16x64x4096.size a
  hwx3_4 : ∀ i : grid3.Coords, EltTy.bits .f32 = 32 ∨ (Rect.block (s := S8x16x64x4096) S1x2x64x4096.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S512x1024.size a
  hwx4_0 : ∀ i : grid4.Coords, EltTy.bits .bf16 = 32 ∨ (Rect.block (s := S512x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S512x1024.size a
  hwx4_3 : ∀ i : grid4.Coords, EltTy.bits .f32 = 32 ∨ (Rect.block (s := S512x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf

abbrev win0_0 : Pipeline.Window sig grid0 :=
  Pipeline.Window.ofSpec (Memref.whole main_v0) S512x1024.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x1024.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S1x64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18_0) S1x64x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18_1) S1x2x64x4096.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v19) S512x1024.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S512x1024.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8x64x1024 : Shape := ⟨3, ![8, 64, 1024]⟩
abbrev S8x4096x1024 : Shape := ⟨3, ![8, 4096, 1024]⟩
abbrev S1024x1024 : Shape := ⟨2, ![1024, 1024]⟩
abbrev S1024 : Shape := ⟨1, ![1024]⟩
abbrev S8x64x16x64 : Shape := ⟨4, ![8, 64, 16, 64]⟩
abbrev S8x16x64x64 : Shape := ⟨4, ![8, 16, 64, 64]⟩
abbrev S8x4096x16x64 : Shape := ⟨4, ![8, 4096, 16, 64]⟩
abbrev S8x16x4096x64 : Shape := ⟨4, ![8, 16, 4096, 64]⟩
abbrev S8x16x64x4096 : Shape := ⟨4, ![8, 16, 64, 4096]⟩
abbrev S_ : Shape := ⟨0, ![]⟩
abbrev S8x16x4096 : Shape := ⟨3, ![8, 16, 4096]⟩
abbrev S8x16x1x4096 : Shape := ⟨4, ![8, 16, 1, 4096]⟩
abbrev S8x16x64 : Shape := ⟨3, ![8, 16, 64]⟩
abbrev S8x16x64x1 : Shape := ⟨4, ![8, 16, 64, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8x64x1024, .f32⟩
  | .hbm, ⟨9, _⟩ => ⟨S8x64x16x64, .f32⟩
  | .hbm, ⟨10, _⟩ => ⟨S8x16x64x64, .f32⟩
  | .hbm, ⟨11, _⟩ => ⟨S8x4096x1024, .f32⟩
  | .hbm, ⟨12, _⟩ => ⟨S8x4096x16x64, .f32⟩
  | .hbm, ⟨13, _⟩ => ⟨S8x16x4096x64, .f32⟩
  | .hbm, ⟨14, _⟩ => ⟨S8x4096x1024, .f32⟩
  | .hbm, ⟨15, _⟩ => ⟨S8x4096x16x64, .f32⟩
  | .hbm, ⟨16, _⟩ => ⟨S8x16x4096x64, .f32⟩
  | .hbm, ⟨17, _⟩ => ⟨S8x16x64x4096, .f32⟩
  | .hbm, ⟨18, _⟩ => ⟨S_, .f32⟩
  | .hbm, ⟨19, _⟩ => ⟨S8x16x64x4096, .f32⟩
  | .hbm, ⟨20, _⟩ => ⟨S8x16x64x4096, .f32⟩
  | .hbm, ⟨21, _⟩ => ⟨S_, .f32⟩
  | .hbm, ⟨22, _⟩ => ⟨S8x16x4096, .f32⟩
  | .hbm, ⟨23, _⟩ => ⟨S_, .f32⟩
  | .hbm, ⟨24, _⟩ => ⟨S8x16x4096, .f32⟩
  | .hbm, ⟨25, _⟩ => ⟨S8x16x4096, .f32⟩
  | .hbm, ⟨26, _⟩ => ⟨S8x16x1x4096, .f32⟩
  | .hbm, ⟨27, _⟩ => ⟨S8x16x64x4096, .f32⟩
  | .hbm, ⟨28, _⟩ => ⟨S8x16x64x4096, .f32⟩
  | .hbm, ⟨29, _⟩ => ⟨S8x16x64x4096, .f32⟩
  | .hbm, ⟨30, _⟩ => ⟨S_, .f32⟩
  | .hbm, ⟨31, _⟩ => ⟨S8x16x4096, .f32⟩
  | .hbm, ⟨32, _⟩ => ⟨S8x16x1x4096, .f32⟩
  | .hbm, ⟨33, _⟩ => ⟨S8x16x64x4096, .f32⟩
  | .hbm, ⟨34, _⟩ => ⟨S8x16x64x4096, .f32⟩
  | .hbm, ⟨35, _⟩ => ⟨S_, .f32⟩
  | .hbm, ⟨36, _⟩ => ⟨S8x16x64, .f32⟩
  | .hbm, ⟨37, _⟩ => ⟨S8x16x64x1, .f32⟩
  | .hbm, ⟨38, _⟩ => ⟨S_, .f32⟩
  | .hbm, ⟨39, _⟩ => ⟨S8x16x64x1, .f32⟩
  | .hbm, ⟨40, _⟩ => ⟨S8x16x64x1, .f32⟩
  | .hbm, ⟨41, _⟩ => ⟨S8x16x64x4096, .f32⟩
  | .hbm, ⟨42, _⟩ => ⟨S8x16x64x4096, .f32⟩
  | .hbm, ⟨43, _⟩ => ⟨S8x16x64x64, .f32⟩
  | .hbm, ⟨44, _⟩ => ⟨S8x64x16x64, .f32⟩
  | .hbm, ⟨45, _⟩ => ⟨S8x64x1024, .f32⟩
  | .hbm, ⟨46, _⟩ => ⟨S8x64x1024, .f32⟩
  | .hbm, ⟨47, _⟩ => ⟨S1x1x1024, .f32⟩
  | .hbm, ⟨48, _⟩ => ⟨S8x64x1024, .f32⟩
  | .hbm, ⟨49, _⟩ => ⟨S8x64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  shapeCasts_S8x64x1024_S8x64x16x64 : S8x64x1024.ShapeCasts S8x64x16x64
  transposes_S8x64x16x64_S8x16x64x64_0_2_1_3 : S8x64x16x64.Transposes [0, 2, 1, 3] S8x16x64x64
  shapeCasts_S8x4096x1024_S8x4096x16x64 : S8x4096x1024.ShapeCasts S8x4096x16x64
  transposes_S8x4096x16x64_S8x16x4096x64_0_2_1_3 : S8x4096x16x64.Transposes [0, 2, 1, 3] S8x16x4096x64
  bcast_S_S8x16x64x4096 : S_.BroadcastsInDim S8x16x64x4096 (![] : Fin 0 → Fin S8x16x64x4096.rank)
  reducesTo_S8x16x64x4096_S8x16x4096_d2 : S8x16x64x4096.ReducesTo [2] S8x16x4096
  h_S_ : 0 < S_.numel
  bcast_S_S8x16x4096 : S_.BroadcastsInDim S8x16x4096 (![] : Fin 0 → Fin S8x16x4096.rank)
  bcast_S8x16x4096_S8x16x1x4096_0_1_3 : S8x16x4096.BroadcastsInDim S8x16x1x4096 (![0, 1, 3] : Fin 3 → Fin S8x16x1x4096.rank)
  bcast_S8x16x1x4096_S8x16x64x4096_0_1_2_3 : S8x16x1x4096.BroadcastsInDim S8x16x64x4096 (![0, 1, 2, 3] : Fin 4 → Fin S8x16x64x4096.rank)
  reducesTo_S8x16x64x4096_S8x16x64_d3 : S8x16x64x4096.ReducesTo [3] S8x16x64
  bcast_S8x16x64_S8x16x64x1_0_1_2 : S8x16x64.BroadcastsInDim S8x16x64x1 (![0, 1, 2] : Fin 3 → Fin S8x16x64x1.rank)
  bcast_S_S8x16x64x1 : S_.BroadcastsInDim S8x16x64x1 (![] : Fin 0 → Fin S8x16x64x1.rank)
  bcast_S8x16x64x1_S8x16x64x4096_0_1_2_3 : S8x16x64x1.BroadcastsInDim S8x16x64x4096 (![0, 1, 2, 3] : Fin 4 → Fin S8x16x64x4096.rank)
  transposes_S8x16x64x64_S8x64x16x64_0_2_1_3 : S8x16x64x64.Transposes [0, 2, 1, 3] S8x64x16x64
  shapeCasts_S8x64x16x64_S8x64x1024 : S8x64x16x64.ShapeCasts S8x64x1024
  bcast_S1024_S1x1x1024_2 : S1024.BroadcastsInDim S1x1x1024 (![2] : Fin 1 → Fin S1x1x1024.rank)
  bcast_S1x1x1024_S8x64x1024_0_1_2 : S1x1x1024.BroadcastsInDim S8x64x1024 (![0, 1, 2] : Fin 3 → Fin S8x64x1024.rank)
  dot_S8x64x1024_S1024x1024_S8x64x1024_2_1_01_0_n_n_wf : DotDims.WF S8x64x1024 S1024x1024 S8x64x1024 [2] [1] [0, 1] [0] [] []
  dot_S8x4096x1024_S1024x1024_S8x4096x1024_2_1_01_0_n_n_wf : DotDims.WF S8x4096x1024 S1024x1024 S8x4096x1024 [2] [1] [0, 1] [0] [] []
  dot_S8x16x64x64_S8x16x4096x64_S8x16x64x4096_3_3_2_2_01_01_wf : DotDims.WF S8x16x64x64 S8x16x4096x64 S8x16x64x4096 [3] [3] [2] [2] [0, 1] [0, 1]
  dot_S8x16x64x4096_S8x16x4096x64_S8x16x64x64_3_2_2_3_01_01_wf : DotDims.WF S8x16x64x4096 S8x16x4096x64 S8x16x64x64 [3] [2] [2] [3] [0, 1] [0, 1]

variable [Facts₀]

def dot_S8x64x1024_S1024x1024_S8x64x1024_2_1_01_0_n_n : DotDims S8x64x1024 S1024x1024 S8x64x1024 where
  lhsContracting := [2]
  rhsContracting := [1]
  lhsNonContracting := [0, 1]
  rhsNonContracting := [0]
  lhsBatch := []
  rhsBatch := []
  wf := dot_S8x64x1024_S1024x1024_S8x64x1024_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x16x64x64_S8x16x4096x64_S8x16x64x4096_3_3_2_2_01_01 : DotDims S8x16x64x64 S8x16x4096x64 S8x16x64x4096 where
  lhsContracting := [3]
  rhsContracting := [3]
  lhsNonContracting := [2]
  rhsNonContracting := [2]
  lhsBatch := [0, 1]
  rhsBatch := [0, 1]
  wf := dot_S8x16x64x64_S8x16x4096x64_S8x16x64x4096_3_3_2_2_01_01_wf
def dot_S8x16x64x4096_S8x16x4096x64_S8x16x64x64_3_2_2_3_01_01 : DotDims S8x16x64x4096 S8x16x4096x64 S8x16x64x64 where
  lhsContracting := [3]
  rhsContracting := [2]
  lhsNonContracting := [2]
  rhsNonContracting := [3]
  lhsBatch := [0, 1]
  rhsBatch := [0, 1]
  wf := dot_S8x16x64x4096_S8x16x4096x64_S8x16x64x64_3_2_2_3_01_01_wf

class Facts : Prop extends Facts₀ where

variable [Facts]
-- ==== Proof.KernelRun.lean ====
/-
  The idealized kernel's run with its two results named.

  The program is five launches among four stretches of host operations.  Every weakly fair execution from a memory
  with zero counters terminates without a fault, and the final memory holds, at every buffer that is not scoped to a
  launch, the contents obtained by folding the stretches and the launches' write-backs over the launch memory.  The
  statement below reads that fold at the two result buffers (the output and the attention weights) and at the eight
  arguments, which end as launched.  What the fold holds at the two results is worked out in the modules that follow.
-/
import proofs.«139100_j42949672960449_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the output buffer and the attention-weights buffer end at
    the fold's contents `W9`, and the eight argument arrays end as launched. -/
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_v18_1) = W9 m ρ c (Proc.devRef .tc main_v18_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v21 (by decide)),
       h c _ (mem_uc main_v18_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Results

end
-- ==== Proof.Spec.lean ====
/-
  Competitive (slot) attention over the extended reals, stated once by coordinates.

  The arguments are a query array [8, 64, 1024], key and value arrays [8, 4096, 1024], four weight matrices
  [1024, 1024] and a bias [1024].  A linear layer sends a row `x` to `e ↦ ∑ d, x d * w e d`.  The 1024 columns
  are sixteen heads of 64: column `64 h + c` is coordinate `c` of head `h`.  For a batch `b` and a head `h`
  the score of slot `k` against key `l` is an eighth of the inner product of the two projected rows restricted to
  the head.  The scores are normalised over the SLOTS by a softmax (the column maximum is subtracted before the
  exponential), and the result is normalised again over the KEYS by the row sum plus a small constant.  The context
  of a slot is the renormalised weights against the projected values; it is written here in the two arrangements
  that occur: the quotient by the row sum taken AFTER the sum over the keys (`ctxAfter`), and taken on every weight
  BEFORE it (`ctxBefore`).  They agree when every entry is a real number and the row sum is not zero.  The output is the
  last linear layer of the context, plus the bias.
-/
import Mathlib
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.SlotAttn

/-- Column `64 h + c` of the model axis: coordinate `c` of head `h`. -/
def headCol (h : Fin 16) (c : Fin 64) : Fin 1024 := ⟨64 * h.val + c.val, by omega⟩

/-- The head of a column and its coordinate inside the head. -/
def colHead (d : Fin 1024) : Fin 16 := ⟨d.val / 64, by omega⟩
def colCoord (d : Fin 1024) : Fin 64 := ⟨d.val % 64, Nat.mod_lt _ (by decide)⟩

theorem headCol_colHead_colCoord (d : Fin 1024) : headCol (colHead d) (colCoord d) = d := by
  apply Fin.ext; simp only [headCol, colHead, colCoord]; omega

theorem colHead_headCol (h : Fin 16) (c : Fin 64) : colHead (headCol h c) = h := by
  apply Fin.ext; simp only [headCol, colHead]; omega

theorem colCoord_headCol (h : Fin 16) (c : Fin 64) : colCoord (headCol h c) = c := by
  apply Fin.ext; simp only [headCol, colCoord]; omega

/-- The three literals of the computation, as the extended reals their words denote: one eighth, minus infinity, and the
    small constant added to a row sum. -/
def eighth : EReal := Ideal.ofBits .f32 0x3E000000#32
def negInf : EReal := Ideal.ofBits .f32 0xFF800000#32
def tiny : EReal := Ideal.ofBits .f32 0x322BCC77#32

/-- A linear layer on the 64 slot rows of each batch: `x[b, k, :] · w[e, :]`. -/
def linSlots (x : (⟨3, ![8, 64, 1024]⟩ : Shape).Idx → EReal) (w : (⟨2, ![1024, 1024]⟩ : Shape).Idx → EReal)
    (b : Fin 8) (k : Fin 64) (e : Fin 1024) : EReal :=
  ∑ d : Fin 1024, x (ix3 b k d) * w (ix2 e d)

/-- A linear layer on the 4096 key rows of each batch: `x[b, l, :] · w[e, :]`. -/
def linKeys (x : (⟨3, ![8, 4096, 1024]⟩ : Shape).Idx → EReal) (w : (⟨2, ![1024, 1024]⟩ : Shape).Idx → EReal)
    (b : Fin 8) (l : Fin 4096) (e : Fin 1024) : EReal :=
  ∑ d : Fin 1024, x (ix3 b l d) * w (ix2 e d)

section Scores

variable (qp : Fin 8 → Fin 64 → Fin 1024 → EReal) (kp vp : Fin 8 → Fin 4096 → Fin 1024 → EReal)

/-- The scaled score of slot `k` against key `l` in head `h`. -/
def score (b : Fin 8) (h : Fin 16) (k : Fin 64) (l : Fin 4096) : EReal :=
  (∑ c : Fin 64, qp b k (headCol h c) * kp b l (headCol h c)) * eighth

/-- The largest score of a key over the slots (the fold of `max` from minus infinity). -/
def colMax (b : Fin 8) (h : Fin 16) (l : Fin 4096) : EReal :=
  (Finset.univ : Finset (Fin 64)).fold max negInf (fun k => score qp kp b h k l)

/-- The exponential of a score less its column's maximum. -/
def expo (b : Fin 8) (h : Fin 16) (k : Fin 64) (l : Fin 4096) : EReal :=
  Ideal.exp (score qp kp b h k l - colMax qp kp b h l)

/-- A key's sum of exponentials over the slots. -/
def colSum (b : Fin 8) (h : Fin 16) (l : Fin 4096) : EReal :=
  ∑ k : Fin 64, expo qp kp b h k l

/-- The softmax over the slots. -/
def soft (b : Fin 8) (h : Fin 16) (k : Fin 64) (l : Fin 4096) : EReal :=
  Ideal.div (expo qp kp b h k l) (colSum qp kp b h l)

/-- A slot's sum of softmax weights over the keys, plus the small constant. -/
def rowSum (b : Fin 8) (h : Fin 16) (k : Fin 64) : EReal :=
  (∑ l : Fin 4096, soft qp kp b h k l) + tiny

/-- The attention weights: the softmax renormalised over the keys. This is the second result. -/
def weights (b : Fin 8) (h : Fin 16) (k : Fin 64) (l : Fin 4096) : EReal :=
  Ideal.div (soft qp kp b h k l) (rowSum qp kp b h k)

/-- The context with the quotient by the row sum taken after the sum over the keys. -/
def ctxAfter (b : Fin 8) (k : Fin 64) (d : Fin 1024) : EReal :=
  Ideal.div (∑ l : Fin 4096, soft qp kp b (colHead d) k l * vp b l d) (rowSum qp kp b (colHead d) k)

/-- The context with every weight divided by the row sum before the sum over the keys. -/
def ctxBefore (b : Fin 8) (k : Fin 64) (d : Fin 1024) : EReal :=
  ∑ l : Fin 4096, weights qp kp b (colHead d) k l * vp b l d

end Scores

/-- The last linear layer with its bias: `ctx[b, k, :] · wo[e, :] + bo[e]`. This is the first result. -/
def outLayer (ctx : Fin 8 → Fin 64 → Fin 1024 → EReal) (wo : (⟨2, ![1024, 1024]⟩ : Shape).Idx → EReal)
    (bo : (⟨1, ![1024]⟩ : Shape).Idx → EReal) (b : Fin 8) (k : Fin 64) (e : Fin 1024) : EReal :=
  (∑ d : Fin 1024, ctx b k d * wo (ix2 e d)) + bo (ix1 e)

section Whole

variable (q : (⟨3, ![8, 64, 1024]⟩ : Shape).Idx → EReal) (ky va : (⟨3, ![8, 4096, 1024]⟩ : Shape).Idx → EReal)
  (wq wk wv wo : (⟨2, ![1024, 1024]⟩ : Shape).Idx → EReal) (bo : (⟨1, ![1024]⟩ : Shape).Idx → EReal)

/-- The attention weights of the argument arrays. -/
def attnOf (b : Fin 8) (h : Fin 16) (k : Fin 64) (l : Fin 4096) : EReal :=
  weights (linSlots q wq) (linKeys ky wk) b h k l

/-- The output with the quotient taken after the sum over the keys. -/
def outAfter (b : Fin 8) (k : Fin 64) (e : Fin 1024) : EReal :=
  outLayer (ctxAfter (linSlots q wq) (linKeys ky wk) (linKeys va wv)) wo bo b k e

/-- The output with every weight divided before the sum over the keys. -/
def outBefore (b : Fin 8) (k : Fin 64) (e : Fin 1024) : EReal :=
  outLayer (ctxBefore (linSlots q wq) (linKeys ky wk) (linKeys va wv)) wo bo b k e

end Whole

end Cert.SlotAttn

end
-- ==== Proof.LibReadBack.lean ====
/- Reading a straight line of host operations back, one operation at a time.

   Let ops be a line of operations and W the list of the buffers they write, operation by operation (Writes ops W: the k-th
   operation writes exactly the k-th buffer of W). Write R for the contents after the whole line from contents V.
   * A buffer that W does not list keeps its contents: R r = V r (after_keep).
   * Splitting the line at position k, R = (the rest from k on) after (the first k operations) (after_take_drop); so a buffer
     not written from position k on holds in R what it held after the first k operations (after_eq_take), and a buffer not
     written after position k holds in R what operation k left there (after_eq_result).
   * Hence, when every buffer is written at most once and every operand is written before it is read — a program in
     single-assignment form —, the final contents satisfy the program's own equations: if operation k is y = f(x), x is not
     written from k on and y is not written after k, then R y = f (R x) (readback_unary; likewise for the other builders).
   The side conditions are memberships in a literal list of references, decided by computation. -/
import Idealize.ShloMosaic.Lib.StableHlo.Run
import Idealize.ShloMosaic.Lib.Pipeline.Frame

noncomputable section

namespace Cert.ReadBack

open Idealize.ShloMosaic Idealize.ShloMosaic.StableHlo

variable {τ : Topo} {sig : RefSig} {Val : EltTy → Type}

/-- The k-th operation of ops writes exactly the k-th buffer of W. -/
abbrev Writes (ops : List (HloOp τ sig Val)) (W : List (Ref sig .tc)) : Prop :=
  List.Forall₂ (fun op r => op.writes = {Proc.devRef (τ := τ) .tc r}) ops W

theorem Writes.append {o₁ o₂ : List (HloOp τ sig Val)} {w₁ w₂ : List (Ref sig .tc)}
    (h₁ : Writes o₁ w₁) (h₂ : Writes o₂ w₂) : Writes (o₁ ++ o₂) (w₁ ++ w₂) := by
  induction h₁ with
  | nil => exact h₂
  | cons h _ ih => exact List.Forall₂.cons h ih

/-- A buffer the line does not write keeps its contents. -/
theorem after_keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op w ops W hw _ ih =>
    intro V r hr
    have hne : r ≠ w := fun e => hr (List.mem_cons.mpr (Or.inl e))
    rw [after_cons, ih _ (fun hm => hr (List.mem_cons_of_mem _ hm)),
      op.result_of_not_mem V (by rw [hw, Finset.mem_singleton]; exact devRef_ne_of_ne hne)]

/-- The line run from V is its part from position k on, run from what the first k operations leave. -/
theorem after_take_drop (ops : List (HloOp τ sig Val)) (k : Nat) (V : Valuation τ sig Val) :
    after ops V = after (ops.drop k) (after (ops.take k) V) := by
  conv_lhs => rw [← List.take_append_drop k ops]
  exact after_append _ _ _

/-- A buffer not written from position k on holds at the end what it held after the first k operations. -/
theorem after_eq_take {ops : List (HloOp τ sig Val)} {W : List (Ref sig .tc)} (h : Writes ops W)
    (V : Valuation τ sig Val) (k : Nat) {r : Ref sig .tc} (hr : r ∉ W.drop k) :
    after ops V (Proc.devRef .tc r) = after (ops.take k) V (Proc.devRef .tc r) := by
  rw [after_take_drop ops k V]
  exact after_keep (List.forall₂_drop k h) _ hr

/-- A buffer not written after position k holds at the end what operation k left there. -/
theorem after_eq_result {ops : List (HloOp τ sig Val)} {W : List (Ref sig .tc)} (h : Writes ops W)
    (V : Valuation τ sig Val) (k : Nat) {op : HloOp τ sig Val} (hop : ops[k]? = some op)
    {r : Ref sig .tc} (hr : r ∉ W.drop (k + 1)) :
    after ops V (Proc.devRef .tc r) = op.result (after (ops.take k) V) (Proc.devRef .tc r) := by
  obtain ⟨hk, rfl⟩ := List.getElem?_eq_some_iff.mp hop
  rw [after_take_drop ops k V, List.drop_eq_getElem_cons hk, after_cons]
  exact after_keep (List.forall₂_drop (k + 1) h) _ hr

/-! ## The program's equations hold of the final contents -/

section Builders

variable {ops : List (HloOp τ sig Val)} {W : List (Ref sig .tc)} (h : Writes ops W) (V : Valuation τ sig Val) (k : Nat)
variable {x a b c y : Ref sig .tc}

include h

/-- Operation k is the constant y = v, y not written afterwards: the final y is v. -/
theorem readback_nullary {v : y.ty.Contents Val} {hy}
    (hop : ops[k]? = some (nullary (τ := τ) y v hy)) (hy' : y ∉ W.drop (k + 1)) :
    after ops V (Proc.devRef .tc y) = v := by
  rw [after_eq_result h V k hop hy', nullary_result]

/-- Operation k is y = f x, x not written from k on, y not written afterwards: the final y is f of the final x. -/
theorem readback_unary {f : x.ty.Contents Val → y.ty.Contents Val} {hx hy}
    (hop : ops[k]? = some (unary (τ := τ) x y f hx hy)) (hx' : x ∉ W.drop k) (hy' : y ∉ W.drop (k + 1)) :
    after ops V (Proc.devRef .tc y) = f (after ops V (Proc.devRef .tc x)) := by
  rw [after_eq_result h V k hop hy', unary_result, after_eq_take h V k hx']

/-- Operation k is y = f a b. -/
theorem readback_binary {f : a.ty.Contents Val → b.ty.Contents Val → y.ty.Contents Val} {ha hb hy}
    (hop : ops[k]? = some (binary (τ := τ) a b y f ha hb hy)) (ha' : a ∉ W.drop k) (hb' : b ∉ W.drop k)
    (hy' : y ∉ W.drop (k + 1)) :
    after ops V (Proc.devRef .tc y) = f (after ops V (Proc.devRef .tc a)) (after ops V (Proc.devRef .tc b)) := by
  rw [after_eq_result h V k hop hy', binary_result, after_eq_take h V k ha', after_eq_take h V k hb']

/-- Operation k is y = f c a b. -/
theorem readback_ternary {f : c.ty.Contents Val → a.ty.Contents Val → b.ty.Contents Val → y.ty.Contents Val} {hc ha hb hy}
    (hop : ops[k]? = some (ternary (τ := τ) c a b y f hc ha hb hy)) (hc' : c ∉ W.drop k) (ha' : a ∉ W.drop k)
    (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [after_eq_result h V k hop hy', ternary_result, after_eq_take h V k hc', after_eq_take h V k ha',
    after_eq_take h V k hb']

/-- Operation k is the reshape y = x. -/
theorem readback_reshape {he : x.ty.elt = y.ty.elt} {hn : x.ty.shape.ShapeCasts y.ty.shape} {hx hy}
    (hop : ops[k]? = some (reshape (τ := τ) (Val := Val) x y he hn hx hy)) (hx' : x ∉ W.drop k)
    (hy' : y ∉ W.drop (k + 1)) :
    after ops V (Proc.devRef .tc y) = fun i => he ▸ shapeCast y.ty.shape (after ops V (Proc.devRef .tc x)) hn i := by
  rw [after_eq_result h V k hop hy', reshape_result, after_eq_take h V k hx']

/-- Operation k is y = f of a family xs of operands. -/
theorem readback_nary {n : Nat} {xs : Fin n → Ref sig .tc} {f : ((j : Fin n) → (xs j).ty.Contents Val) → y.ty.Contents Val}
    {hxs hy} (hop : ops[k]? = some (nary (τ := τ) xs y f hxs hy)) (hxs' : ∀ j, xs j ∉ W.drop k)
    (hy' : y ∉ W.drop (k + 1)) :
    after ops V (Proc.devRef .tc y) = f (fun j => after ops V (Proc.devRef .tc (xs j))) := by
  rw [after_eq_result h V k hop hy', nary_result]
  congr 1
  funext j
  exact (after_eq_take h V k (hxs' j)).symm

end Builders

end Cert.ReadBack

end
-- ==== Proof.HostReads.lean ====
/-
  What the four stretches of host operations between the launches do to the buffers, read entry by entry.

  Each stretch is a straight line of operations, each writing one buffer that no other operation of the stretch writes.
  So a buffer the stretch does not write holds afterwards what it held before, and a buffer it writes holds the
  operation's function of its operand as it was before the stretch. The operations are of three kinds.
  * A reshape between [a, b, c] and [a·b, c]. A reshape keeps the row-major position of every entry, and the position
    of (i, k, e) in [a, b, c] is (i·b + k)·c + e, that of (r, e) in [a·b, c] is r·c + e: the entries correspond when
    r = b·i + k. A reshape of [c] to [1, c] reads entry e at (0, e).
  * A transpose of a square matrix: entry (d, e) of the result is entry (e, d) of the operand.
  * A narrowing of the float format, which over the extended reals is the identity.
  All statements are about an arbitrary assignment X of contents to the buffers.
-/
import proofs.«139100_j42949672960449_2_alg».proof.Proof.Gen.KernelIdeal.Launch
import proofs.«139100_j42949672960449_2_alg».proof.Proof.LibReadBack
import Idealize.ShloMosaic.Lib.StableHlo.Run
import Idealize.ShloMosaic.Lib.ValueIdx
import Idealize.ShloMosaic.Lib.Pipeline.Value
import Idealize.ShloMosaic.Lib.ValueLayout

noncomputable section

namespace Cert.SlotAttn.HostReads

open Cert.KernelIdeal Cert.KernelIdeal.Gen Idealize.ShloMosaic Idealize.ShloMosaic.StableHlo Idealize.ShloMosaic.ValueIdx

/-! ## Two reshapes read at an index -/

section Casts
variable {α : Type}

/-- Merging the two leading axes: an [a, b, c] array recast as [n, c] (n = a·b) reads, at row r = b·i + k, the operand at (i, k):
    the two indices have the same row-major position (i·b + k)·c + e = r·c + e. -/
theorem shapeCast_merge_apply {a b c n : ℕ} (x : (⟨3, ![a, b, c]⟩ : Shape).Idx → α)
    (h : (⟨3, ![a, b, c]⟩ : Shape).ShapeCasts ⟨2, ![n, c]⟩) (r : Fin n) (i : Fin a) (k : Fin b) (e : Fin c)
    (hr : r.val = b * i.val + k.val) :
    shapeCast ⟨2, ![n, c]⟩ x h (ix2 r e) = x (ix3 i k e) :=
  shapeCast_apply x h _ _ (by
    rw [Shape.rowMajor_val_three, Shape.rowMajor_val_two]
    show (i.val * b + k.val) * c + e.val = r.val * c + e.val
    rw [hr, Nat.mul_comm b])

/-- Splitting the leading axis: an [n, c] array recast as [a, b, c] reads, at (i, k), the operand's row r = b·i + k. -/
theorem shapeCast_split_apply {a b c n : ℕ} (x : (⟨2, ![n, c]⟩ : Shape).Idx → α)
    (h : (⟨2, ![n, c]⟩ : Shape).ShapeCasts ⟨3, ![a, b, c]⟩) (r : Fin n) (i : Fin a) (k : Fin b) (e : Fin c)
    (hr : r.val = b * i.val + k.val) :
    shapeCast ⟨3, ![a, b, c]⟩ x h (ix3 i k e) = x (ix2 r e) :=
  shapeCast_apply x h _ _ (by
    rw [Shape.rowMajor_val_three, Shape.rowMajor_val_two]
    show r.val * c + e.val = (i.val * b + k.val) * c + e.val
    rw [hr, Nat.mul_comm b])

end Casts

variable (X : Valuation τ sig (Elt Ideal))

/-! ## The last stretch: one reshape -/

/-- The buffers hostOps5 writes, operation by operation. -/
theorem hostOps5_writes : Cert.ReadBack.Writes (hostOps5 (F := Ideal)) [main_v21] := by
  repeat first | exact List.Forall₂.nil | refine List.Forall₂.cons rfl ?_

/-- A buffer outside that list holds after hostOps5 what it held before. -/
theorem hostOps5_keep {q : Ref sig .tc} (hq : q ∉ [main_v21]) :
    StableHlo.after (hostOps5 (F := Ideal)) X (Proc.devRef .tc q) = X (Proc.devRef .tc q) :=
  Cert.ReadBack.after_keep hostOps5_writes X hq

theorem hostOps5_v18_1 : StableHlo.after (hostOps5 (F := Ideal)) X (Proc.devRef .tc main_v18_1) = X (Proc.devRef .tc main_v18_1) :=
  hostOps5_keep X (by decide)

/-- main_v21 is main_v20 with its leading axis split in two: row (b, k) of the result is row r = 64·b + k of the operand. -/
theorem hostOps5_v21 (r : Fin 512) (b : Fin 8) (k : Fin 64) (e : Fin 1024) (hr : r.val = 64 * b.val + k.val) :
    (StableHlo.after (hostOps5 (F := Ideal)) X (Proc.devRef .tc main_v21) : S8x64x1024.Idx → EReal) (ix3 b k e)
      = (X (Proc.devRef .tc main_v20) : S512x1024.Idx → EReal) (ix2 r e) := by
  have e1 : (StableHlo.after (hostOps5 (F := Ideal)) X (Proc.devRef .tc main_v21) : S8x64x1024.Idx → EReal)
      = shapeCast S8x64x1024 (X (Proc.devRef .tc main_v20) : S512x1024.Idx → EReal) shapeCasts_S512x1024_S8x64x1024 := by
    after_results; rfl
  rw [e1]
  exact shapeCast_split_apply _ _ r b k e hr

/-- The same with the operand's row written out: r = 64·b + k. -/
theorem hostOps5_v21_eq (b : Fin 8) (k : Fin 64) (e : Fin 1024) :
    (StableHlo.after (hostOps5 (F := Ideal)) X (Proc.devRef .tc main_v21) : S8x64x1024.Idx → EReal) (ix3 b k e)
      = (X (Proc.devRef .tc main_v20) : S512x1024.Idx → EReal) (ix2 (⟨64 * b.val + k.val, by omega⟩ : Fin 512) e) :=
  hostOps5_v21 X _ b k e rfl

/-! ## The stretch before it: one reshape -/

/-- The buffers hostOps4 writes, operation by operation. -/
theorem hostOps4_writes : Cert.ReadBack.Writes (hostOps4 (F := Ideal)) [main_v19] := by
  repeat first | exact List.Forall₂.nil | refine List.Forall₂.cons rfl ?_

/-- A buffer outside that list holds after hostOps4 what it held before. -/
theorem hostOps4_keep {q : Ref sig .tc} (hq : q ∉ [main_v19]) :
    StableHlo.after (hostOps4 (F := Ideal)) X (Proc.devRef .tc q) = X (Proc.devRef .tc q) :=
  Cert.ReadBack.after_keep hostOps4_writes X hq

theorem hostOps4_v10 : StableHlo.after (hostOps4 (F := Ideal)) X (Proc.devRef .tc main_v10) = X (Proc.devRef .tc main_v10) :=
  hostOps4_keep X (by decide)

theorem hostOps4_v11 : StableHlo.after (hostOps4 (F := Ideal)) X (Proc.devRef .tc main_v11) = X (Proc.devRef .tc main_v11) :=
  hostOps4_keep X (by decide)

theorem hostOps4_v18_1 : StableHlo.after (hostOps4 (F := Ideal)) X (Proc.devRef .tc main_v18_1) = X (Proc.devRef .tc main_v18_1) :=
  hostOps4_keep X (by decide)

/-- main_v19 is main_v18_0 with its two leading axes merged: row r = 64·b + k of the result is row (b, k) of the operand. -/
theorem hostOps4_v19 (r : Fin 512) (b : Fin 8) (k : Fin 64) (e : Fin 1024) (hr : r.val = 64 * b.val + k.val) :
    (StableHlo.after (hostOps4 (F := Ideal)) X (Proc.devRef .tc main_v19) : S512x1024.Idx → EReal) (ix2 r e)
      = (X (Proc.devRef .tc main_v18_0) : S8x64x1024.Idx → EReal) (ix3 b k e) := by
  have e1 : (StableHlo.after (hostOps4 (F := Ideal)) X (Proc.devRef .tc main_v19) : S512x1024.Idx → EReal)
      = shapeCast S512x1024 (X (Proc.devRef .tc main_v18_0) : S8x64x1024.Idx → EReal) shapeCasts_S8x64x1024_S512x1024 := by
    after_results; rfl
  rw [e1]
  exact shapeCast_merge_apply _ _ r b k e hr

/-- The same with the operand's coordinates written out: b = r / 64, k = r % 64. -/
theorem hostOps4_v19_eq (r : Fin 512) (e : Fin 1024) :
    (StableHlo.after (hostOps4 (F := Ideal)) X (Proc.devRef .tc main_v19) : S512x1024.Idx → EReal) (ix2 r e)
      = (X (Proc.devRef .tc main_v18_0) : S8x64x1024.Idx → EReal)
          (ix3 (⟨r.val / 64, by omega⟩ : Fin 8) (⟨r.val % 64, by omega⟩ : Fin 64) e) :=
  hostOps4_v19 X r _ _ e (Nat.div_add_mod r.val 64).symm

/-! ## The stretch after the three projections: three reshapes -/

/-- The buffers hostOps3 writes, operation by operation. -/
theorem hostOps3_writes : Cert.ReadBack.Writes (hostOps3 (F := Ideal)) [main_v15, main_v16, main_v17] := by
  repeat first | exact List.Forall₂.nil | refine List.Forall₂.cons rfl ?_

/-- A buffer outside that list holds after hostOps3 what it held before. -/
theorem hostOps3_keep {q : Ref sig .tc} (hq : q ∉ [main_v15, main_v16, main_v17]) :
    StableHlo.after (hostOps3 (F := Ideal)) X (Proc.devRef .tc q) = X (Proc.devRef .tc q) :=
  Cert.ReadBack.after_keep hostOps3_writes X hq

theorem hostOps3_v10 : StableHlo.after (hostOps3 (F := Ideal)) X (Proc.devRef .tc main_v10) = X (Proc.devRef .tc main_v10) :=
  hostOps3_keep X (by decide)

theorem hostOps3_v11 : StableHlo.after (hostOps3 (F := Ideal)) X (Proc.devRef .tc main_v11) = X (Proc.devRef .tc main_v11) :=
  hostOps3_keep X (by decide)

/-- main_v15 is main_v12 with its leading axis split in two: row (b, k) of the result is row r = 64·b + k of the operand. -/
theorem hostOps3_v15 (r : Fin 512) (b : Fin 8) (k : Fin 64) (e : Fin 1024) (hr : r.val = 64 * b.val + k.val) :
    (StableHlo.after (hostOps3 (F := Ideal)) X (Proc.devRef .tc main_v15) : S8x64x1024.Idx → EReal) (ix3 b k e)
      = (X (Proc.devRef .tc main_v12) : S512x1024.Idx → EReal) (ix2 r e) := by
  have e1 : (StableHlo.after (hostOps3 (F := Ideal)) X (Proc.devRef .tc main_v15) : S8x64x1024.Idx → EReal)
      = shapeCast S8x64x1024 (X (Proc.devRef .tc main_v12) : S512x1024.Idx → EReal) shapeCasts_S512x1024_S8x64x1024 := by
    after_results; rfl
  rw [e1]
  exact shapeCast_split_apply _ _ r b k e hr

/-- The same with the operand's row written out: r = 64·b + k. -/
theorem hostOps3_v15_eq (b : Fin 8) (k : Fin 64) (e : Fin 1024) :
    (StableHlo.after (hostOps3 (F := Ideal)) X (Proc.devRef .tc main_v15) : S8x64x1024.Idx → EReal) (ix3 b k e)
      = (X (Proc.devRef .tc main_v12) : S512x1024.Idx → EReal) (ix2 (⟨64 * b.val + k.val, by omega⟩ : Fin 512) e) :=
  hostOps3_v15 X _ b k e rfl

/-- main_v16 is main_v13 with its leading axis split in two: row (b, k) of the result is row r = 4096·b + k of the operand. -/
theorem hostOps3_v16 (r : Fin 32768) (b : Fin 8) (k : Fin 4096) (e : Fin 1024) (hr : r.val = 4096 * b.val + k.val) :
    (StableHlo.after (hostOps3 (F := Ideal)) X (Proc.devRef .tc main_v16) : S8x4096x1024.Idx → EReal) (ix3 b k e)
      = (X (Proc.devRef .tc main_v13) : S32768x1024.Idx → EReal) (ix2 r e) := by
  have e1 : (StableHlo.after (hostOps3 (F := Ideal)) X (Proc.devRef .tc main_v16) : S8x4096x1024.Idx → EReal)
      = shapeCast S8x4096x1024 (X (Proc.devRef .tc main_v13) : S32768x1024.Idx → EReal) shapeCasts_S32768x1024_S8x4096x1024 := by
    after_results; rfl
  rw [e1]
  exact shapeCast_split_apply _ _ r b k e hr

/-- The same with the operand's row written out: r = 4096·b + k. -/
theorem hostOps3_v16_eq (b : Fin 8) (k : Fin 4096) (e : Fin 1024) :
    (StableHlo.after (hostOps3 (F := Ideal)) X (Proc.devRef .tc main_v16) : S8x4096x1024.Idx → EReal) (ix3 b k e)
      = (X (Proc.devRef .tc main_v13) : S32768x1024.Idx → EReal) (ix2 (⟨4096 * b.val + k.val, by omega⟩ : Fin 32768) e) :=
  hostOps3_v16 X _ b k e rfl

/-- main_v17 is main_v14 with its leading axis split in two: row (b, k) of the result is row r = 4096·b + k of the operand. -/
theorem hostOps3_v17 (r : Fin 32768) (b : Fin 8) (k : Fin 4096) (e : Fin 1024) (hr : r.val = 4096 * b.val + k.val) :
    (StableHlo.after (hostOps3 (F := Ideal)) X (Proc.devRef .tc main_v17) : S8x4096x1024.Idx → EReal) (ix3 b k e)
      = (X (Proc.devRef .tc main_v14) : S32768x1024.Idx → EReal) (ix2 r e) := by
  have e1 : (StableHlo.after (hostOps3 (F := Ideal)) X (Proc.devRef .tc main_v17) : S8x4096x1024.Idx → EReal)
      = shapeCast S8x4096x1024 (X (Proc.devRef .tc main_v14) : S32768x1024.Idx → EReal) shapeCasts_S32768x1024_S8x4096x1024 := by
    after_results; rfl
  rw [e1]
  exact shapeCast_split_apply _ _ r b k e hr

/-- The same with the operand's row written out: r = 4096·b + k. -/
theorem hostOps3_v17_eq (b : Fin 8) (k : Fin 4096) (e : Fin 1024) :
    (StableHlo.after (hostOps3 (F := Ideal)) X (Proc.devRef .tc main_v17) : S8x4096x1024.Idx → EReal) (ix3 b k e)
      = (X (Proc.devRef .tc main_v14) : S32768x1024.Idx → EReal) (ix2 (⟨4096 * b.val + k.val, by omega⟩ : Fin 32768) e) :=
  hostOps3_v17 X _ b k e rfl

/-! ## The first stretch: the arguments reshaped, the four weight matrices transposed and narrowed -/

/-- The buffers hostOps0 writes, operation by operation. -/
theorem hostOps0_writes : Cert.ReadBack.Writes (hostOps0 (F := Ideal)) [main_v0, main_v1, main_v2, main_v3, main_v4, main_v5, main_v6, main_v7, main_v8, main_v9, main_v10, main_v11] := by
  repeat first | exact List.Forall₂.nil | refine List.Forall₂.cons rfl ?_

/-- A buffer outside that list holds after hostOps0 what it held before. -/
theorem hostOps0_keep {q : Ref sig .tc} (hq : q ∉ [main_v0, main_v1, main_v2, main_v3, main_v4, main_v5, main_v6, main_v7, main_v8, main_v9, main_v10, main_v11]) :
    StableHlo.after (hostOps0 (F := Ideal)) X (Proc.devRef .tc q) = X (Proc.devRef .tc q) :=
  Cert.ReadBack.after_keep hostOps0_writes X hq

/-- main_v0 is main_arg0 with its two leading axes merged: row r = 64·b + k of the result is row (b, k) of the operand. -/
theorem hostOps0_v0 (r : Fin 512) (b : Fin 8) (k : Fin 64) (e : Fin 1024) (hr : r.val = 64 * b.val + k.val) :
    (StableHlo.after (hostOps0 (F := Ideal)) X (Proc.devRef .tc main_v0) : S512x1024.Idx → EReal) (ix2 r e)
      = (X (Proc.devRef .tc main_arg0) : S8x64x1024.Idx → EReal) (ix3 b k e) := by
  have e1 : (StableHlo.after (hostOps0 (F := Ideal)) X (Proc.devRef .tc main_v0) : S512x1024.Idx → EReal)
      = shapeCast S512x1024 (X (Proc.devRef .tc main_arg0) : S8x64x1024.Idx → EReal) shapeCasts_S8x64x1024_S512x1024 := by
    after_results; rfl
  rw [e1]
  exact shapeCast_merge_apply _ _ r b k e hr

/-- The same with the operand's coordinates written out: b = r / 64, k = r % 64. -/
theorem hostOps0_v0_eq (r : Fin 512) (e : Fin 1024) :
    (StableHlo.after (hostOps0 (F := Ideal)) X (Proc.devRef .tc main_v0) : S512x1024.Idx → EReal) (ix2 r e)
      = (X (Proc.devRef .tc main_arg0) : S8x64x1024.Idx → EReal)
          (ix3 (⟨r.val / 64, by omega⟩ : Fin 8) (⟨r.val % 64, by omega⟩ : Fin 64) e) :=
  hostOps0_v0 X r _ _ e (Nat.div_add_mod r.val 64).symm

/-- main_v1 is main_arg1 with its two leading axes merged: row r = 4096·b + k of the result is row (b, k) of the operand. -/
theorem hostOps0_v1 (r : Fin 32768) (b : Fin 8) (k : Fin 4096) (e : Fin 1024) (hr : r.val = 4096 * b.val + k.val) :
    (StableHlo.after (hostOps0 (F := Ideal)) X (Proc.devRef .tc main_v1) : S32768x1024.Idx → EReal) (ix2 r e)
      = (X (Proc.devRef .tc main_arg1) : S8x4096x1024.Idx → EReal) (ix3 b k e) := by
  have e1 : (StableHlo.after (hostOps0 (F := Ideal)) X (Proc.devRef .tc main_v1) : S32768x1024.Idx → EReal)
      = shapeCast S32768x1024 (X (Proc.devRef .tc main_arg1) : S8x4096x1024.Idx → EReal) shapeCasts_S8x4096x1024_S32768x1024 := by
    after_results; rfl
  rw [e1]
  exact shapeCast_merge_apply _ _ r b k e hr

/-- The same with the operand's coordinates written out: b = r / 4096, k = r % 4096. -/
theorem hostOps0_v1_eq (r : Fin 32768) (e : Fin 1024) :
    (StableHlo.after (hostOps0 (F := Ideal)) X (Proc.devRef .tc main_v1) : S32768x1024.Idx → EReal) (ix2 r e)
      = (X (Proc.devRef .tc main_arg1) : S8x4096x1024.Idx → EReal)
          (ix3 (⟨r.val / 4096, by omega⟩ : Fin 8) (⟨r.val % 4096, by omega⟩ : Fin 4096) e) :=
  hostOps0_v1 X r _ _ e (Nat.div_add_mod r.val 4096).symm

/-- main_v2 is main_arg2 with its two leading axes merged: row r = 4096·b + k of the result is row (b, k) of the operand. -/
theorem hostOps0_v2 (r : Fin 32768) (b : Fin 8) (k : Fin 4096) (e : Fin 1024) (hr : r.val = 4096 * b.val + k.val) :
    (StableHlo.after (hostOps0 (F := Ideal)) X (Proc.devRef .tc main_v2) : S32768x1024.Idx → EReal) (ix2 r e)
      = (X (Proc.devRef .tc main_arg2) : S8x4096x1024.Idx → EReal) (ix3 b k e) := by
  have e1 : (StableHlo.after (hostOps0 (F := Ideal)) X (Proc.devRef .tc main_v2) : S32768x1024.Idx → EReal)
      = shapeCast S32768x1024 (X (Proc.devRef .tc main_arg2) : S8x4096x1024.Idx → EReal) shapeCasts_S8x4096x1024_S32768x1024 := by
    after_results; rfl
  rw [e1]
  exact shapeCast_merge_apply _ _ r b k e hr

/-- The same with the operand's coordinates written out: b = r / 4096, k = r % 4096. -/
theorem hostOps0_v2_eq (r : Fin 32768) (e : Fin 1024) :
    (StableHlo.after (hostOps0 (F := Ideal)) X (Proc.devRef .tc main_v2) : S32768x1024.Idx → EReal) (ix2 r e)
      = (X (Proc.devRef .tc main_arg2) : S8x4096x1024.Idx → EReal)
          (ix3 (⟨r.val / 4096, by omega⟩ : Fin 8) (⟨r.val % 4096, by omega⟩ : Fin 4096) e) :=
  hostOps0_v2 X r _ _ e (Nat.div_add_mod r.val 4096).symm

/-- main_v4 is main_arg3 transposed and then narrowed to bf16; over the extended reals narrowing changes nothing, so entry
    (d, e) of the result is entry (e, d) of the operand. -/
theorem hostOps0_v4 (d e : Fin 1024) :
    (StableHlo.after (hostOps0 (F := Ideal)) X (Proc.devRef .tc main_v4) : S1024x1024.Idx → EReal) (ix2 d e)
      = (X (Proc.devRef .tc main_arg3) : S1024x1024.Idx → EReal) (ix2 e d) := by
  have e1 : (StableHlo.after (hostOps0 (F := Ideal)) X (Proc.devRef .tc main_v4) : S1024x1024.Idx → EReal)
      = truncf .bf16 (transpose S1024x1024 [1, 0] (X (Proc.devRef .tc main_arg3) : S1024x1024.Idx → EReal)
          transposes_S1024x1024_S1024x1024_1_0 : FVec Ideal S1024x1024 .f32) bitsLt_bf16_f32 := by
    after_results
  rw [e1, truncf_apply]
  exact transpose_ix2_apply _ _ d e

/-- main_v6 is main_arg4 transposed and then narrowed to bf16; over the extended reals narrowing changes nothing, so entry
    (d, e) of the result is entry (e, d) of the operand. -/
theorem hostOps0_v6 (d e : Fin 1024) :
    (StableHlo.after (hostOps0 (F := Ideal)) X (Proc.devRef .tc main_v6) : S1024x1024.Idx → EReal) (ix2 d e)
      = (X (Proc.devRef .tc main_arg4) : S1024x1024.Idx → EReal) (ix2 e d) := by
  have e1 : (StableHlo.after (hostOps0 (F := Ideal)) X (Proc.devRef .tc main_v6) : S1024x1024.Idx → EReal)
      = truncf .bf16 (transpose S1024x1024 [1, 0] (X (Proc.devRef .tc main_arg4) : S1024x1024.Idx → EReal)
          transposes_S1024x1024_S1024x1024_1_0 : FVec Ideal S1024x1024 .f32) bitsLt_bf16_f32 := by
    after_results
  rw [e1, truncf_apply]
  exact transpose_ix2_apply _ _ d e

/-- main_v8 is main_arg5 transposed and then narrowed to bf16; over the extended reals narrowing changes nothing, so entry
    (d, e) of the result is entry (e, d) of the operand. -/
theorem hostOps0_v8 (d e : Fin 1024) :
    (StableHlo.after (hostOps0 (F := Ideal)) X (Proc.devRef .tc main_v8) : S1024x1024.Idx → EReal) (ix2 d e)
      = (X (Proc.devRef .tc main_arg5) : S1024x1024.Idx → EReal) (ix2 e d) := by
  have e1 : (StableHlo.after (hostOps0 (F := Ideal)) X (Proc.devRef .tc main_v8) : S1024x1024.Idx → EReal)
      = truncf .bf16 (transpose S1024x1024 [1, 0] (X (Proc.devRef .tc main_arg5) : S1024x1024.Idx → EReal)
          transposes_S1024x1024_S1024x1024_1_0 : FVec Ideal S1024x1024 .f32) bitsLt_bf16_f32 := by
    after_results
  rw [e1, truncf_apply]
  exact transpose_ix2_apply _ _ d e

/-- main_v10 is main_arg6 transposed and then narrowed to bf16; over the extended reals narrowing changes nothing, so entry
    (d, e) of the result is entry (e, d) of the operand. -/
theorem hostOps0_v10 (d e : Fin 1024) :
    (StableHlo.after (hostOps0 (F := Ideal)) X (Proc.devRef .tc main_v10) : S1024x1024.Idx → EReal) (ix2 d e)
      = (X (Proc.devRef .tc main_arg6) : S1024x1024.Idx → EReal) (ix2 e d) := by
  have e1 : (StableHlo.after (hostOps0 (F := Ideal)) X (Proc.devRef .tc main_v10) : S1024x1024.Idx → EReal)
      = truncf .bf16 (transpose S1024x1024 [1, 0] (X (Proc.devRef .tc main_arg6) : S1024x1024.Idx → EReal)
          transposes_S1024x1024_S1024x1024_1_0 : FVec Ideal S1024x1024 .f32) bitsLt_bf16_f32 := by
    after_results
  rw [e1, truncf_apply]
  exact transpose_ix2_apply _ _ d e

/-- main_v11 is the vector main_arg7 as a one-row matrix: its entry (u, e), u the one row, is entry e of the vector. -/
theorem hostOps0_v11 (u : Fin 1) (e : Fin 1024) :
    (StableHlo.after (hostOps0 (F := Ideal)) X (Proc.devRef .tc main_v11) : S1x1024.Idx → EReal) (ix2 u e)
      = (X (Proc.devRef .tc main_arg7) : S1024.Idx → EReal) (ix1 e) := by
  have e1 : (StableHlo.after (hostOps0 (F := Ideal)) X (Proc.devRef .tc main_v11) : S1x1024.Idx → EReal)
      = shapeCast S1x1024 (X (Proc.devRef .tc main_arg7) : S1024.Idx → EReal) shapeCasts_S1024_S1x1024 := by
    after_results; rfl
  rw [e1]
  exact shapeCast_a_1a_apply _ _ u e

end Cert.SlotAttn.HostReads

end
-- ==== Proof.KernelPayloads.lean ====
/-
  The attention body's arithmetic, read one entry at a time at the exact (extended-real) values.

  One half of the body takes a block of 64 slot rows and two blocks of 4096 key and value rows, each 64 wide (one head).
  It forms the 64 × 4096 array of inner products of slot rows with key rows, scales it by an eighth, and normalises it
  twice: over the slots by a softmax (each column's maximum is subtracted before the exponential, and the exponentials
  are divided by their column sum), and over the keys by the row sum plus a small constant. It stores the twice-normalised
  array, and the product of the once-normalised array with the value block divided by the same row sums.

  Every operation involved either acts entry by entry, or moves entries without changing them (a change of shape that only
  adds or drops unit axes, a row or a column repeated), or folds one axis (a maximum, a sum, a contraction). The lemmas below
  read each kind at explicit coordinates; composed, they say that when the loaded blocks are the columns of head `h` of
  the projected rows of batch `b`, the stored entries are the specification's `soft`, `rowSum`, `weights` and `ctxAfter`.
  The second half of the body is the same term on other blocks.
-/
import proofs.«139100_j42949672960449_2_alg».proof.Proof.Gen.KernelIdeal.Skeleton
import proofs.«139100_j42949672960449_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx Idealize.SL.Sem
open Cert.KernelIdeal Cert.KernelIdeal.Gen

namespace Cert.SlotAttn.Payloads

/-! ## Unit axes added by a shape cast, and a column spread over many -/

section Layout
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` viewed as `[1, 1, a, b]` reads, at `(u, w, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add, Nat.mul_one, Nat.add_zero])

end Layout

/-! ## The two contractions of the attention body read at an index -/

section Contractions
variable {φ₁ φ₂ : FTy}

/-- Scores: the left operand keeps the output row. -/
theorem lhs_qk_0 (i : S64x4096.Idx) (q : dot_S64x64_S4096x64_S64x4096_1_1_0_0_n_n.contr.Idx) : (dot_S64x64_S4096x64_S64x4096_1_1_0_0_n_n.lhsIdx i q 0).val = (i 0).val := by
  unfold DotDims.lhsIdx
  rw [dif_neg (show ¬(0 : Fin S64x64.rank) ∈ dot_S64x64_S4096x64_S64x4096_1_1_0_0_n_n.lhsBatch by decide),
    dif_pos (show (0 : Fin S64x64.rank) ∈ dot_S64x64_S4096x64_S64x4096_1_1_0_0_n_n.lhsNonContracting by decide)]
  rfl
/-- Scores: the left operand's column is the contraction coordinate. -/
theorem lhs_qk_1 (i : S64x4096.Idx) (q : dot_S64x64_S4096x64_S64x4096_1_1_0_0_n_n.contr.Idx) : (dot_S64x64_S4096x64_S64x4096_1_1_0_0_n_n.lhsIdx i q 1).val = (q ⟨0, by decide⟩).val :=
  dot_S64x64_S4096x64_S64x4096_1_1_0_0_n_n.lhsIdx_val_of_single rfl i q
/-- Scores: the right operand's row is the output column. -/
theorem rhs_qk_0 (i : S64x4096.Idx) (q : dot_S64x64_S4096x64_S64x4096_1_1_0_0_n_n.contr.Idx) : (dot_S64x64_S4096x64_S64x4096_1_1_0_0_n_n.rhsIdx i q 0).val = (i 1).val := by
  unfold DotDims.rhsIdx
  rw [dif_neg (show ¬(0 : Fin S4096x64.rank) ∈ dot_S64x64_S4096x64_S64x4096_1_1_0_0_n_n.rhsBatch by decide),
    dif_pos (show (0 : Fin S4096x64.rank) ∈ dot_S64x64_S4096x64_S64x4096_1_1_0_0_n_n.rhsNonContracting by decide)]
  rfl
/-- Scores: the right operand's column is the contraction coordinate. -/
theorem rhs_qk_1 (i : S64x4096.Idx) (q : dot_S64x64_S4096x64_S64x4096_1_1_0_0_n_n.contr.Idx) : (dot_S64x64_S4096x64_S64x4096_1_1_0_0_n_n.rhsIdx i q 1).val = (q ⟨0, by decide⟩).val :=
  dot_S64x64_S4096x64_S64x4096_1_1_0_0_n_n.rhsIdx_val_of_single rfl i q

/-- Rows against rows, `[64, 64] · [4096, 64]ᵀ`: entry `(k, l)` is `∑ c, q (k, c) * y (l, c)`. -/
theorem matmul_qk_apply (q : FVec Ideal S64x64 φ₁) (y : FVec Ideal S4096x64 φ₂) (k : Fin 64) (l : Fin 4096) :
    matmul (F := Ideal) dot_S64x64_S4096x64_S64x4096_1_1_0_0_n_n none q y (constant (F := Ideal) S64x4096 .f32 0x00000000#32) (ix2 k l)
      = ∑ c : Fin 64, q (ix2 k c) * y (ix2 l c) := by
  refine (Ideal.matmul_constant_zero_apply dot_S64x64_S4096x64_S64x4096_1_1_0_0_n_n none q y (ix2 k l)).trans ?_
  rw [← Equiv.sum_comp (contrEquiv1 dot_S64x64_S4096x64_S64x4096_1_1_0_0_n_n 64 rfl rfl).symm]
  refine Finset.sum_congr rfl fun c _ => ?_
  have hc := contrEquiv1_symm_val dot_S64x64_S4096x64_S64x4096_1_1_0_0_n_n 64 rfl rfl c
  have el : dot_S64x64_S4096x64_S64x4096_1_1_0_0_n_n.lhsIdx (ix2 k l) ((contrEquiv1 dot_S64x64_S4096x64_S64x4096_1_1_0_0_n_n 64 rfl rfl).symm c) = ix2 k c :=
    funext fun ax => Fin.ext (by
      match ax with
      | ⟨0, _⟩ => exact lhs_qk_0 _ _
      | ⟨1, _⟩ => exact (lhs_qk_1 _ _).trans hc)
  have er : dot_S64x64_S4096x64_S64x4096_1_1_0_0_n_n.rhsIdx (ix2 k l) ((contrEquiv1 dot_S64x64_S4096x64_S64x4096_1_1_0_0_n_n 64 rfl rfl).symm c) = ix2 l c :=
    funext fun ax => Fin.ext (by
      match ax with
      | ⟨0, _⟩ => exact rhs_qk_0 _ _
      | ⟨1, _⟩ => exact (rhs_qk_1 _ _).trans hc)
  rw [el, er]

/-- Context: the left operand keeps the output row. -/
theorem lhs_pv_0 (i : S64x64.Idx) (q : dot_S64x4096_S4096x64_S64x64_1_0_0_1_n_n.contr.Idx) : (dot_S64x4096_S4096x64_S64x64_1_0_0_1_n_n.lhsIdx i q 0).val = (i 0).val := by
  unfold DotDims.lhsIdx
  rw [dif_neg (show ¬(0 : Fin S64x4096.rank) ∈ dot_S64x4096_S4096x64_S64x64_1_0_0_1_n_n.lhsBatch by decide),
    dif_pos (show (0 : Fin S64x4096.rank) ∈ dot_S64x4096_S4096x64_S64x64_1_0_0_1_n_n.lhsNonContracting by decide)]
  rfl
/-- Context: the left operand's column is the contraction coordinate. -/
theorem lhs_pv_1 (i : S64x64.Idx) (q : dot_S64x4096_S4096x64_S64x64_1_0_0_1_n_n.contr.Idx) : (dot_S64x4096_S4096x64_S64x64_1_0_0_1_n_n.lhsIdx i q 1).val = (q ⟨0, by decide⟩).val :=
  dot_S64x4096_S4096x64_S64x64_1_0_0_1_n_n.lhsIdx_val_of_single rfl i q
/-- Context: the right operand's row is the contraction coordinate. -/
theorem rhs_pv_0 (i : S64x64.Idx) (q : dot_S64x4096_S4096x64_S64x64_1_0_0_1_n_n.contr.Idx) : (dot_S64x4096_S4096x64_S64x64_1_0_0_1_n_n.rhsIdx i q 0).val = (q ⟨0, by decide⟩).val :=
  dot_S64x4096_S4096x64_S64x64_1_0_0_1_n_n.rhsIdx_val_of_single rfl i q
/-- Context: the right operand's column is the output column. -/
theorem rhs_pv_1 (i : S64x64.Idx) (q : dot_S64x4096_S4096x64_S64x64_1_0_0_1_n_n.contr.Idx) : (dot_S64x4096_S4096x64_S64x64_1_0_0_1_n_n.rhsIdx i q 1).val = (i 1).val := by
  unfold DotDims.rhsIdx
  rw [dif_neg (show ¬(1 : Fin S4096x64.rank) ∈ dot_S64x4096_S4096x64_S64x64_1_0_0_1_n_n.rhsBatch by decide),
    dif_pos (show (1 : Fin S4096x64.rank) ∈ dot_S64x4096_S4096x64_S64x64_1_0_0_1_n_n.rhsNonContracting by decide)]
  rfl

/-- Rows against columns, `[64, 4096] · [4096, 64]`: entry `(k, c)` is `∑ l, p (k, l) * y (l, c)`. -/
theorem matmul_pv_apply (p : FVec Ideal S64x4096 φ₁) (y : FVec Ideal S4096x64 φ₂) (k : Fin 64) (c : Fin 64) :
    matmul (F := Ideal) dot_S64x4096_S4096x64_S64x64_1_0_0_1_n_n none p y (constant (F := Ideal) S64x64 .f32 0x00000000#32) (ix2 k c)
      = ∑ l : Fin 4096, p (ix2 k l) * y (ix2 l c) := by
  refine (Ideal.matmul_constant_zero_apply dot_S64x4096_S4096x64_S64x64_1_0_0_1_n_n none p y (ix2 k c)).trans ?_
  rw [← Equiv.sum_comp (contrEquiv1 dot_S64x4096_S4096x64_S64x64_1_0_0_1_n_n 4096 rfl rfl).symm]
  refine Finset.sum_congr rfl fun l _ => ?_
  have hl := contrEquiv1_symm_val dot_S64x4096_S4096x64_S64x64_1_0_0_1_n_n 4096 rfl rfl l
  have el : dot_S64x4096_S4096x64_S64x64_1_0_0_1_n_n.lhsIdx (ix2 k c) ((contrEquiv1 dot_S64x4096_S4096x64_S64x64_1_0_0_1_n_n 4096 rfl rfl).symm l) = ix2 k l :=
    funext fun ax => Fin.ext (by
      match ax with
      | ⟨0, _⟩ => exact lhs_pv_0 _ _
      | ⟨1, _⟩ => exact (lhs_pv_1 _ _).trans hl)
  have er : dot_S64x4096_S4096x64_S64x64_1_0_0_1_n_n.rhsIdx (ix2 k c) ((contrEquiv1 dot_S64x4096_S4096x64_S64x64_1_0_0_1_n_n 4096 rfl rfl).symm l) = ix2 l c :=
    funext fun ax => Fin.ext (by
      match ax with
      | ⟨0, _⟩ => exact (rhs_pv_0 _ _).trans hl
      | ⟨1, _⟩ => exact rhs_pv_1 _ _)
  rw [el, er]

end Contractions
/-! ## The three lane reductions read at an index -/

section Reductions

/-- The maximum over the slots (axis 0) of a `[64, 4096]` array, at key `l`: the fold of `max` from the
    accumulator's value over the slot coordinate. -/
theorem colMax_apply (src : FVec Ideal S64x4096 .f32) (l : Fin 4096) :
    multiReduction (F := Ideal) .maximumf [0] S4096 src 0xFF800000#32 reduces_S64x4096_S4096 (.inl rfl) rfl (ix1 l)
      = (Finset.univ : Finset (Fin 64)).fold max (Ideal.ofBits .f32 0xFF800000#32) (fun k => src (ix2 k l)) := by
  refine (Ideal.multiReduction_maximumf_single src 0xFF800000#32 reduces_S64x4096_S4096 (.inl rfl) rfl (ix1 l)).trans ?_
  have hf : (src ∘ reduces_S64x4096_S4096.lift (ix1 l)) = fun k : Fin 64 => src (ix2 k l) :=
    funext fun k => congrArg src (funext fun ax => Fin.ext (by
      match ax with
      | ⟨0, _⟩ => rfl
      | ⟨1, _⟩ => rfl))
  rw [hf]
  rfl

/-- The sum over the slots (axis 0) of a `[64, 4096]` array, at key `l`. -/
theorem colSum_apply (src : FVec Ideal S64x4096 .f32) (l : Fin 4096) :
    multiReduction (F := Ideal) .add [0] S4096 src 0x00000000#32 reduces_S64x4096_S4096 (.inl rfl) rfl (ix1 l)
      = ∑ k : Fin 64, src (ix2 k l) := by
  refine (Ideal.multiReduction_add_single src 0x00000000#32 reduces_S64x4096_S4096 (.inl rfl) rfl (ix1 l)).trans ?_
  refine Finset.sum_congr rfl fun k _ => congrArg src (funext fun ax => Fin.ext ?_)
  match ax with
  | ⟨0, _⟩ => rfl
  | ⟨1, _⟩ => rfl

/-- The sum over the keys (axis 1) of a `[64, 4096]` array, at slot `k`. -/
theorem rowSum_apply (src : FVec Ideal S64x4096 .f32) (k : Fin 64) :
    multiReduction (F := Ideal) .add [1] S64 src 0x00000000#32 reduces_S64x4096_S64 (.inl rfl) rfl (ix1 k)
      = ∑ l : Fin 4096, src (ix2 k l) := by
  refine (Ideal.multiReduction_add_single src 0x00000000#32 reduces_S64x4096_S64 (.inl rfl) rfl (ix1 k)).trans ?_
  refine Finset.sum_congr rfl fun l _ => congrArg src (funext fun ax => Fin.ext ?_)
  match ax with
  | ⟨0, _⟩ => rfl
  | ⟨1, _⟩ => rfl

end Reductions
/-! ## The attention body in pieces

The stored values of one half of the body are compositions of five generic pieces: the scaled scores of the
two loaded blocks, the softmax over the slots of a score array, the row sums (plus the small constant) of a weight array,
the quotient of a weight array by a column, and the context of a weight array, a column and the loaded values. Each piece
is read at an index, and each stored value is its composition by unfolding. -/

section Pieces

/-- The scaled scores of a loaded slot block against a loaded key block. -/
def scores (v0 : Vec Ideal S1x64x64 .bf16) (v2 : Vec Ideal S1x4096x64 .bf16) : FVec Ideal S64x4096 .f32 :=
  mulf (matmul (F := Ideal) (φ₁ := .bf16) (φ₂ := .bf16) dot_S64x64_S4096x64_S64x4096_1_1_0_0_n_n none
      (shapeCast S64x64 v0 shapeCasts_S1x64x64_S64x64) (shapeCast S4096x64 v2 shapeCasts_S1x4096x64_S4096x64)
      (constant (F := Ideal) S64x4096 .f32 0x00000000#32))
    (broadcast S64x4096 (Scalar.ofBits (F := Ideal) .f32 0x3E000000#32))

/-- At `(k, l)` the scores are an eighth of the inner product of row `k` of the slot block and row `l` of the key block. -/
theorem scores_apply (v0 : Vec Ideal S1x64x64 .bf16) (v2 : Vec Ideal S1x4096x64 .bf16) (k : Fin 64) (l : Fin 4096) :
    scores v0 v2 (ix2 k l)
      = (∑ c : Fin 64, v0 (ix3 (0 : Fin 1) k c) * v2 (ix3 (0 : Fin 1) l c)) * Ideal.ofBits .f32 0x3E000000#32 := by
  show matmul (F := Ideal) (φ₁ := .bf16) (φ₂ := .bf16) dot_S64x64_S4096x64_S64x4096_1_1_0_0_n_n none
      (shapeCast S64x64 v0 shapeCasts_S1x64x64_S64x64) (shapeCast S4096x64 v2 shapeCasts_S1x4096x64_S4096x64)
      (constant (F := Ideal) S64x4096 .f32 0x00000000#32) (ix2 k l) * Ideal.ofBits .f32 0x3E000000#32 = _
  rw [matmul_qk_apply]
  refine congrArg (· * Ideal.ofBits .f32 0x3E000000#32) (Finset.sum_congr rfl fun c _ => ?_)
  rw [shapeCast_1ab_ab_apply, shapeCast_1ab_ab_apply]

/-- The column maxima of a score array, laid back over the slots. -/
def colMaxVec (s : FVec Ideal S64x4096 .f32) : FVec Ideal S64x4096 .f32 :=
  broadcastTo S64x4096 (shapeCast S1x4096
    (multiReduction (F := Ideal) .maximumf [0] S4096 s 0xFF800000#32 reduces_S64x4096_S4096 (.inl rfl) rfl)
    shapeCasts_S4096_S1x4096) broadcasts_S1x4096_S64x4096

theorem colMaxVec_apply (s : FVec Ideal S64x4096 .f32) (k : Fin 64) (l : Fin 4096) :
    colMaxVec s (ix2 k l)
      = (Finset.univ : Finset (Fin 64)).fold max (Ideal.ofBits .f32 0xFF800000#32) (fun k' => s (ix2 k' l)) :=
  (broadcastTo_1b_ab_apply _ _ k l).trans ((shapeCast_a_1a_apply _ _ 0 l).trans (colMax_apply s l))

/-- The exponentials of the scores less their column maxima. -/
def expVec (s : FVec Ideal S64x4096 .f32) : FVec Ideal S64x4096 .f32 := exp (subf s (colMaxVec s))

/-- The column sums of an array, laid back over the slots. -/
def colSumVec (e : FVec Ideal S64x4096 .f32) : FVec Ideal S64x4096 .f32 :=
  broadcastTo S64x4096 (shapeCast S1x4096
    (multiReduction (F := Ideal) .add [0] S4096 e 0x00000000#32 reduces_S64x4096_S4096 (.inl rfl) rfl)
    shapeCasts_S4096_S1x4096) broadcasts_S1x4096_S64x4096

theorem colSumVec_apply (e : FVec Ideal S64x4096 .f32) (k : Fin 64) (l : Fin 4096) :
    colSumVec e (ix2 k l) = ∑ k' : Fin 64, e (ix2 k' l) :=
  (broadcastTo_1b_ab_apply _ _ k l).trans ((shapeCast_a_1a_apply _ _ 0 l).trans (colSum_apply e l))

/-- The softmax over the slots of a score array. -/
def softVec (s : FVec Ideal S64x4096 .f32) : FVec Ideal S64x4096 .f32 := divf (expVec s) (colSumVec (expVec s))

/-- The softmax at `(k, l)`, for a score array whose entries are `S k l`. -/
theorem softVec_apply (s : FVec Ideal S64x4096 .f32) (S : Fin 64 → Fin 4096 → EReal) (hs : ∀ k l, s (ix2 k l) = S k l)
    (k : Fin 64) (l : Fin 4096) :
    softVec s (ix2 k l)
      = Ideal.div (Ideal.exp (S k l - (Finset.univ : Finset (Fin 64)).fold max (Ideal.ofBits .f32 0xFF800000#32) (fun k' => S k' l)))
          (∑ k' : Fin 64, Ideal.exp (S k' l
            - (Finset.univ : Finset (Fin 64)).fold max (Ideal.ofBits .f32 0xFF800000#32) (fun k'' => S k'' l))) := by
  have hm : ∀ k l, colMaxVec s (ix2 k l)
      = (Finset.univ : Finset (Fin 64)).fold max (Ideal.ofBits .f32 0xFF800000#32) (fun k' => S k' l) := fun k l =>
    (colMaxVec_apply s k l).trans
      (congrArg ((Finset.univ : Finset (Fin 64)).fold max (Ideal.ofBits .f32 0xFF800000#32)) (funext fun k' => hs k' l))
  have he : ∀ k l, expVec s (ix2 k l)
      = Ideal.exp (S k l - (Finset.univ : Finset (Fin 64)).fold max (Ideal.ofBits .f32 0xFF800000#32) (fun k' => S k' l)) :=
    fun k l => by
      show Ideal.exp (s (ix2 k l) - colMaxVec s (ix2 k l)) = _
      rw [hs, hm]
  show Ideal.div (expVec s (ix2 k l)) (colSumVec (expVec s) (ix2 k l)) = _
  rw [he, colSumVec_apply]
  exact congrArg (Ideal.div _) (Finset.sum_congr rfl fun k' _ => he k' l)

/-- The row sums of a weight array plus the small constant, as a column. -/
def rowSumVec (p : FVec Ideal S64x4096 .f32) : FVec Ideal S64x1 .f32 :=
  addf (shapeCast S64x1
      (multiReduction (F := Ideal) .add [1] S64 p 0x00000000#32 reduces_S64x4096_S64 (.inl rfl) rfl) shapeCasts_S64_S64x1)
    (broadcast S64x1 (Scalar.ofBits (F := Ideal) .f32 0x322BCC77#32))

theorem rowSumVec_apply (p : FVec Ideal S64x4096 .f32) (k : Fin 64) (u : Fin 1) :
    rowSumVec p (ix2 k u) = (∑ l : Fin 4096, p (ix2 k l)) + Ideal.ofBits .f32 0x322BCC77#32 := by
  show shapeCast S64x1
      (multiReduction (F := Ideal) .add [1] S64 p 0x00000000#32 reduces_S64x4096_S64 (.inl rfl) rfl) shapeCasts_S64_S64x1 (ix2 k u)
      + Ideal.ofBits .f32 0x322BCC77#32 = _
  rw [shapeCast_a_a1_apply, rowSum_apply]

/-- A weight array divided by a column. -/
def quotVec (p : FVec Ideal S64x4096 .f32) (r : FVec Ideal S64x1 .f32) : FVec Ideal S64x4096 .f32 :=
  divf p (broadcastTo S64x4096 r broadcasts_S64x1_S64x4096)

theorem quotVec_apply (p : FVec Ideal S64x4096 .f32) (r : FVec Ideal S64x1 .f32) (k : Fin 64) (l : Fin 4096) :
    quotVec p r (ix2 k l) = Ideal.div (p (ix2 k l)) (r (ix2 k (0 : Fin 1))) := by
  show Ideal.div (p (ix2 k l)) (broadcastTo S64x4096 r broadcasts_S64x1_S64x4096 (ix2 k l)) = _
  rw [broadcastTo_a1_ab_apply]

/-- The context block: a weight array against the loaded values, divided by a column. -/
def ctxVec (p : FVec Ideal S64x4096 .f32) (r : FVec Ideal S64x1 .f32) (v4 : Vec Ideal S1x4096x64 .bf16) :
    FVec Ideal S1x64x64 .bf16 :=
  shapeCast S1x64x64 (truncf .bf16 (divf
      (matmul (F := Ideal) (φ₁ := .bf16) (φ₂ := .bf16) dot_S64x4096_S4096x64_S64x64_1_0_0_1_n_n none (truncf .bf16 p bitsLt_bf16_f32)
        (shapeCast S4096x64 v4 shapeCasts_S1x4096x64_S4096x64) (constant (F := Ideal) S64x64 .f32 0x00000000#32))
      (broadcastTo S64x64 r broadcasts_S64x1_S64x64)) bitsLt_bf16_f32) shapeCasts_S64x64_S1x64x64

theorem ctxVec_apply (p : FVec Ideal S64x4096 .f32) (r : FVec Ideal S64x1 .f32) (v4 : Vec Ideal S1x4096x64 .bf16)
    (k : Fin 64) (c : Fin 64) :
    ctxVec p r v4 (ix3 (0 : Fin 1) k c)
      = Ideal.div (∑ l : Fin 4096, p (ix2 k l) * v4 (ix3 (0 : Fin 1) l c)) (r (ix2 k (0 : Fin 1))) := by
  unfold ctxVec
  rw [shapeCast_ab_1ab_apply]
  show Ideal.div (matmul (F := Ideal) (φ₁ := .bf16) (φ₂ := .bf16) dot_S64x4096_S4096x64_S64x64_1_0_0_1_n_n none (truncf .bf16 p bitsLt_bf16_f32)
        (shapeCast S4096x64 v4 shapeCasts_S1x4096x64_S4096x64) (constant (F := Ideal) S64x64 .f32 0x00000000#32) (ix2 k c))
      (broadcastTo S64x64 r broadcasts_S64x1_S64x64 (ix2 k c)) = _
  rw [matmul_pv_apply, broadcastTo_a1_ab_apply]
  refine congrArg (fun t => Ideal.div t (r (ix2 k (0 : Fin 1)))) (Finset.sum_congr rfl fun l _ => ?_)
  rw [shapeCast_1ab_ab_apply]
  rfl

end Pieces
/-! ## The stored values of the attention body -/

section Stored

variable (qp : Fin 8 → Fin 64 → Fin 1024 → EReal) (kp vp : Fin 8 → Fin 4096 → Fin 1024 → EReal) (b : Fin 8) (h : Fin 16)
  (v0 : Vec Ideal S1x64x64 .bf16) (v2 v4 : Vec Ideal S1x4096x64 .bf16)

/-- Each stored value of the first half is a composition of the pieces, and the second half's terms are the first half's. -/
theorem k3_pay2_eq : k3_pay2 (F := Ideal) v0 v2 = softVec (scores v0 v2) := rfl
theorem k3_pay3_eq : k3_pay3 (F := Ideal) v0 v2 = rowSumVec (k3_pay2 (F := Ideal) v0 v2) := rfl
theorem k3_pay4_eq : k3_pay4 (F := Ideal) v0 v2 = quotVec (k3_pay2 (F := Ideal) v0 v2) (k3_pay3 (F := Ideal) v0 v2) := rfl
theorem k3_pay5_eq :
    k3_pay5 (F := Ideal) v0 v2 v4 = ctxVec (k3_pay2 (F := Ideal) v0 v2) (k3_pay3 (F := Ideal) v0 v2) v4 := rfl
theorem k3_pay7_eq : k3_pay7 (F := Ideal) v0 v2 = k3_pay2 (F := Ideal) v0 v2 := rfl
theorem k3_pay8_eq : k3_pay8 (F := Ideal) v0 v2 = k3_pay3 (F := Ideal) v0 v2 := rfl
theorem k3_pay9_eq : k3_pay9 (F := Ideal) v0 v2 = k3_pay4 (F := Ideal) v0 v2 := rfl
theorem k3_pay10_eq : k3_pay10 (F := Ideal) v0 v2 v4 = k3_pay5 (F := Ideal) v0 v2 v4 := rfl

/-- With the loaded blocks the head's columns of the projected rows, the scores are the specification's. -/
theorem scores_eq_score
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) (l : Fin 4096) :
    scores v0 v2 (ix2 k l) = Cert.SlotAttn.score qp kp b h k l := by
  refine (scores_apply v0 v2 k l).trans ?_
  exact congrArg (· * Ideal.ofBits .f32 0x3E000000#32) (Finset.sum_congr rfl fun c _ => by rw [hq, hk])

/-- The softmax over the slots. -/
theorem k3_pay2_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) (l : Fin 4096) :
    k3_pay2 (F := Ideal) v0 v2 (ix2 k l) = Cert.SlotAttn.soft qp kp b h k l :=
  (congrFun (k3_pay2_eq v0 v2) _).trans
    (softVec_apply (scores v0 v2) (Cert.SlotAttn.score qp kp b h) (scores_eq_score qp kp b h v0 v2 hq hk) k l)

/-- The row sums over the keys, plus the small constant. -/
theorem k3_pay3_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) :
    k3_pay3 (F := Ideal) v0 v2 (ix2 k (0 : Fin 1)) = Cert.SlotAttn.rowSum qp kp b h k := by
  refine (congrFun (k3_pay3_eq v0 v2) _).trans ((rowSumVec_apply _ k 0).trans ?_)
  exact congrArg (· + Ideal.ofBits .f32 0x322BCC77#32)
    (Finset.sum_congr rfl fun l _ => k3_pay2_apply qp kp b h v0 v2 hq hk k l)

/-- The weights: the softmax renormalised over the keys. -/
theorem k3_pay4_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) (l : Fin 4096) :
    k3_pay4 (F := Ideal) v0 v2 (ix2 k l) = Cert.SlotAttn.weights qp kp b h k l := by
  refine (congrFun (k3_pay4_eq v0 v2) _).trans ((quotVec_apply _ _ k l).trans ?_)
  rw [k3_pay2_apply qp kp b h v0 v2 hq hk, k3_pay3_apply qp kp b h v0 v2 hq hk]
  rfl

/-- The context, its quotient by the row sum taken after the sum over the keys. -/
theorem k3_pay5_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (hv : ∀ (l : Fin 4096) (c : Fin 64), v4 (ix3 (0 : Fin 1) l c) = vp b l (Cert.SlotAttn.headCol h c))
    (k : Fin 64) (c : Fin 64) :
    k3_pay5 (F := Ideal) v0 v2 v4 (ix3 (0 : Fin 1) k c)
      = Cert.SlotAttn.ctxAfter qp kp vp b k (Cert.SlotAttn.headCol h c) := by
  refine (congrFun (k3_pay5_eq v0 v2 v4) _).trans ((ctxVec_apply _ _ v4 k c).trans ?_)
  unfold Cert.SlotAttn.ctxAfter
  rw [Cert.SlotAttn.colHead_headCol, k3_pay3_apply qp kp b h v0 v2 hq hk]
  refine congrArg (fun t => Ideal.div t (Cert.SlotAttn.rowSum qp kp b h k)) (Finset.sum_congr rfl fun l _ => ?_)
  rw [k3_pay2_apply qp kp b h v0 v2 hq hk, hv]

/-- The second half of the body stores the same four values of its own blocks. -/
theorem k3_pay7_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) (l : Fin 4096) :
    k3_pay7 (F := Ideal) v0 v2 (ix2 k l) = Cert.SlotAttn.soft qp kp b h k l :=
  (congrFun (k3_pay7_eq v0 v2) _).trans (k3_pay2_apply qp kp b h v0 v2 hq hk k l)

theorem k3_pay8_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) :
    k3_pay8 (F := Ideal) v0 v2 (ix2 k (0 : Fin 1)) = Cert.SlotAttn.rowSum qp kp b h k :=
  (congrFun (k3_pay8_eq v0 v2) _).trans (k3_pay3_apply qp kp b h v0 v2 hq hk k)

theorem k3_pay9_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (k : Fin 64) (l : Fin 4096) :
    k3_pay9 (F := Ideal) v0 v2 (ix2 k l) = Cert.SlotAttn.weights qp kp b h k l :=
  (congrFun (k3_pay9_eq v0 v2) _).trans (k3_pay4_apply qp kp b h v0 v2 hq hk k l)

theorem k3_pay10_apply
    (hq : ∀ (k : Fin 64) (c : Fin 64), v0 (ix3 (0 : Fin 1) k c) = qp b k (Cert.SlotAttn.headCol h c))
    (hk : ∀ (l : Fin 4096) (c : Fin 64), v2 (ix3 (0 : Fin 1) l c) = kp b l (Cert.SlotAttn.headCol h c))
    (hv : ∀ (l : Fin 4096) (c : Fin 64), v4 (ix3 (0 : Fin 1) l c) = vp b l (Cert.SlotAttn.headCol h c))
    (k : Fin 64) (c : Fin 64) :
    k3_pay10 (F := Ideal) v0 v2 v4 (ix3 (0 : Fin 1) k c)
      = Cert.SlotAttn.ctxAfter qp kp vp b k (Cert.SlotAttn.headCol h c) :=
  (congrFun (k3_pay10_eq v0 v2 v4) _).trans (k3_pay5_apply qp kp vp b h v0 v2 v4 hq hk hv k c)

end Stored

/-- The two stores of the weights only add two unit axes. -/
theorem k3_pay6_apply (x : FVec Ideal S64x4096 .f32) (k : Fin 64) (l : Fin 4096) :
    k3_pay6 (F := Ideal) x (ix4 (0 : Fin 1) (0 : Fin 1) k l) = x (ix2 k l) :=
  shapeCast_ab_11ab_apply x shapeCasts_S64x4096_S1x1x64x4096 0 0 k l

theorem k3_pay1_apply (x : FVec Ideal S64x4096 .f32) (k : Fin 64) (l : Fin 4096) :
    k3_pay1 (F := Ideal) x (ix4 (0 : Fin 1) (0 : Fin 1) k l) = x (ix2 k l) :=
  shapeCast_ab_11ab_apply x shapeCasts_S64x4096_S1x1x64x4096 0 0 k l

end Cert.SlotAttn.Payloads

end
-- ==== Proof.AttnRegion.lean ====
/-
  The attention launch, read as two whole arrays.

  The launch runs over an 8 by 8 grid: a point is a batch `b` and a slab `g` of 128 columns of the model axis, that is
  the two heads `2 g` and `2 g + 1`.  At a point the body sees the [64, 128] slab of the batch's projected query rows
  and the [4096, 128] slabs of its projected key and value rows; it computes, head by head, the softmax over the slots
  of the scaled scores, the row sums, the renormalised weights and the context (the softmax against the values, divided
  by the row sum), and stores the two heads' contexts side by side in a [64, 128] block and the two heads' weights in a
  [2, 64, 4096] block.  Each stored piece is the restriction to its rectangle of ONE function of the block index, so the
  block a point leaves is that function; and that function is the restriction to the point's block of ONE function of the
  whole array's index: the context with the quotient taken after the sum over the keys, and the attention weights, of
  the projected arrays as the launch finds them.  The blocks of the 64 points tile both arrays (entry (b, k, d) of the
  context is in the block of batch b and slab d / 128; entry (b, h, k, l) of the weights in that of batch b and slab
  h / 2), so after the launch each array holds its function everywhere.
-/
import proofs.«139100_j42949672960449_2_alg».proof.Proof.Gen.KernelIdeal.Frame
import proofs.«139100_j42949672960449_2_alg».proof.Proof.Spec
import proofs.«139100_j42949672960449_2_alg».proof.Proof.KernelPayloads
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Cert.KernelIdeal Cert.KernelIdeal.Gen

namespace Cert.SlotAttn.AttnRegion

open Cert.SlotAttn

/-- Column `j` of the 128-column slab `g` of the model axis. A slab is two heads: `2 g` and `2 g + 1`. -/
def slabCol (g : Fin 8) (j : Fin 128) : Fin 1024 := ⟨128 * g.val + j.val, by omega⟩

def loHead (g : Fin 8) : Fin 16 := ⟨2 * g.val, by omega⟩
def hiHead (g : Fin 8) : Fin 16 := ⟨2 * g.val + 1, by omega⟩

theorem slabCol_lo (g : Fin 8) (c : Fin 64) : slabCol g ⟨c.val, by omega⟩ = headCol (loHead g) c := by
  apply Fin.ext; simp only [slabCol, headCol, loHead]; omega

theorem slabCol_hi (g : Fin 8) (c : Fin 64) : slabCol g ⟨64 + c.val, by omega⟩ = headCol (hiHead g) c := by
  apply Fin.ext; simp only [slabCol, headCol, hiHead]; omega

section Block

variable (qp : Fin 8 → Fin 64 → Fin 1024 → EReal) (kp vp : Fin 8 → Fin 4096 → Fin 1024 → EReal) (b : Fin 8) (g : Fin 8)

/-- The context block of batch `b` and slab `g`: slot `k`, slab column `j`. -/
def ctxBlock : Vec Ideal S1x64x128 .bf16 := fun y =>
  ctxAfter qp kp vp b ⟨(y 1).val, (y 1).isLt⟩ (slabCol g ⟨(y 2).val, (y 2).isLt⟩)

theorem ctxBlock_apply (y : S1x64x128.Idx) (k : Fin 64) (j : Fin 128) (h1 : (y 1).val = k.val) (h2 : (y 2).val = j.val) :
    ctxBlock qp kp vp b g y = ctxAfter qp kp vp b k (slabCol g j) := by
  have e1 : (⟨(y 1).val, (y 1).isLt⟩ : Fin 64) = k := Fin.ext h1
  have e2 : (⟨(y 2).val, (y 2).isLt⟩ : Fin 128) = j := Fin.ext h2
  unfold ctxBlock; rw [e1, e2]

/-- The attention-weights block of batch `b` and slab `g`: head `2 g + a` for `a` in {0, 1}, slot `k`, key `l`. -/
def wtsBlock : Vec Ideal S1x2x64x4096 .f32 := fun y =>
  weights qp kp b ⟨2 * g.val + (y 1).val, by have h : (y 1).val < 2 := (y 1).isLt; omega⟩ ⟨(y 2).val, (y 2).isLt⟩ ⟨(y 3).val, (y 3).isLt⟩

theorem wtsBlock_apply (y : S1x2x64x4096.Idx) (h : Fin 16) (k : Fin 64) (l : Fin 4096) (h1 : 2 * g.val + (y 1).val = h.val)
    (h2 : (y 2).val = k.val) (h3 : (y 3).val = l.val) : wtsBlock qp kp b g y = weights qp kp b h k l := by
  have e1 : (⟨2 * g.val + (y 1).val, by have h : (y 1).val < 2 := (y 1).isLt; omega⟩ : Fin 16) = h := Fin.ext h1
  have e2 : (⟨(y 2).val, (y 2).isLt⟩ : Fin 64) = k := Fin.ext h2
  have e3 : (⟨(y 3).val, (y 3).isLt⟩ : Fin 4096) = l := Fin.ext h3
  unfold wtsBlock; rw [e1, e2, e3]

variable (x0 : Vec Ideal S1x64x128 .bf16) (x1 x2 : Vec Ideal S1x4096x128 .bf16)
  (hq : ∀ (k : Fin 64) (j : Fin 128), x0 (ix3 (0 : Fin 1) k j) = qp b k (slabCol g j))
  (hk : ∀ (l : Fin 4096) (j : Fin 128), x1 (ix3 (0 : Fin 1) l j) = kp b l (slabCol g j))
  (hv : ∀ (l : Fin 4096) (j : Fin 128), x2 (ix3 (0 : Fin 1) l j) = vp b l (slabCol g j))

include hq in
theorem q_lo (k : Fin 64) (c : Fin 64) : View.ld x0 r3_0 (ix3 (0 : Fin 1) k c) = qp b k (headCol (loHead g) c) := by
  rw [← slabCol_lo g c, ← hq k ⟨c.val, by omega⟩]
  show x0 (r3_0.idx (ix3 (0 : Fin 1) k c)) = _
  congr 1; funext a; apply Fin.ext
  match a with
  | ⟨0, _⟩ => rfl
  | ⟨1, _⟩ => show 0 + 1 * k.val = k.val; omega
  | ⟨2, _⟩ => show 0 + 1 * c.val = c.val; omega

include hq in
theorem q_hi (k : Fin 64) (c : Fin 64) : View.ld x0 r3_3 (ix3 (0 : Fin 1) k c) = qp b k (headCol (hiHead g) c) := by
  rw [← slabCol_hi g c, ← hq k ⟨64 + c.val, by omega⟩]
  show x0 (r3_3.idx (ix3 (0 : Fin 1) k c)) = _
  congr 1; funext a; apply Fin.ext
  match a with
  | ⟨0, _⟩ => rfl
  | ⟨1, _⟩ => show 0 + 1 * k.val = k.val; omega
  | ⟨2, _⟩ => show 64 + 1 * c.val = 64 + c.val; omega

include hk in
theorem k_lo (l : Fin 4096) (c : Fin 64) : View.ld x1 r3_1 (ix3 (0 : Fin 1) l c) = kp b l (headCol (loHead g) c) := by
  rw [← slabCol_lo g c, ← hk l ⟨c.val, by omega⟩]
  show x1 (r3_1.idx (ix3 (0 : Fin 1) l c)) = _
  congr 1; funext a; apply Fin.ext
  match a with
  | ⟨0, _⟩ => rfl
  | ⟨1, _⟩ => show 0 + 1 * l.val = l.val; omega
  | ⟨2, _⟩ => show 0 + 1 * c.val = c.val; omega

include hk in
theorem k_hi (l : Fin 4096) (c : Fin 64) : View.ld x1 r3_4 (ix3 (0 : Fin 1) l c) = kp b l (headCol (hiHead g) c) := by
  rw [← slabCol_hi g c, ← hk l ⟨64 + c.val, by omega⟩]
  show x1 (r3_4.idx (ix3 (0 : Fin 1) l c)) = _
  congr 1; funext a; apply Fin.ext
  match a with
  | ⟨0, _⟩ => rfl
  | ⟨1, _⟩ => show 0 + 1 * l.val = l.val; omega
  | ⟨2, _⟩ => show 64 + 1 * c.val = 64 + c.val; omega

include hv in
theorem v_lo (l : Fin 4096) (c : Fin 64) : View.ld x2 r3_1 (ix3 (0 : Fin 1) l c) = vp b l (headCol (loHead g) c) := by
  rw [← slabCol_lo g c, ← hv l ⟨c.val, by omega⟩]
  show x2 (r3_1.idx (ix3 (0 : Fin 1) l c)) = _
  congr 1; funext a; apply Fin.ext
  match a with
  | ⟨0, _⟩ => rfl
  | ⟨1, _⟩ => show 0 + 1 * l.val = l.val; omega
  | ⟨2, _⟩ => show 0 + 1 * c.val = c.val; omega

include hv in
theorem v_hi (l : Fin 4096) (c : Fin 64) : View.ld x2 r3_4 (ix3 (0 : Fin 1) l c) = vp b l (headCol (hiHead g) c) := by
  rw [← slabCol_hi g c, ← hv l ⟨64 + c.val, by omega⟩]
  show x2 (r3_4.idx (ix3 (0 : Fin 1) l c)) = _
  congr 1; funext a; apply Fin.ext
  match a with
  | ⟨0, _⟩ => rfl
  | ⟨1, _⟩ => show 0 + 1 * l.val = l.val; omega
  | ⟨2, _⟩ => show 64 + 1 * c.val = 64 + c.val; omega

include hq hk hv in
/-- The store of the second head's context is the block's function under its rectangle. -/
theorem ctx_hi_piece (x : S1x64x64.Idx) :
    k3_pay10 (F := Ideal) (View.ld x0 r3_3) (View.ld x1 r3_4) (View.ld x2 r3_4) x = ctxBlock qp kp vp b g (r3_3.emb x) := by
  obtain ⟨z, k, c, rfl⟩ : ∃ (z : Fin 1) (k : Fin 64) (c : Fin 64), x = ix3 z k c := ⟨x 0, x 1, x 2, eq_ix3 x⟩
  obtain rfl : z = 0 := Subsingleton.elim _ _
  rw [Payloads.k3_pay10_apply qp kp vp b (hiHead g) _ _ _ (q_hi qp b g x0 hq) (k_hi kp b g x1 hk) (v_hi vp b g x2 hv) k c,
    ctxBlock_apply qp kp vp b g _ k ⟨64 + c.val, by omega⟩ (by show 0 + 1 * k.val = k.val; omega) (by show 64 + 1 * c.val = 64 + c.val; omega),
    slabCol_hi]

include hq hk hv in
/-- The store of the first head's context is the block's function under its rectangle. -/
theorem ctx_lo_piece (x : S1x64x64.Idx) :
    k3_pay5 (F := Ideal) (View.ld x0 r3_0) (View.ld x1 r3_1) (View.ld x2 r3_1) x = ctxBlock qp kp vp b g (r3_0.emb x) := by
  obtain ⟨z, k, c, rfl⟩ : ∃ (z : Fin 1) (k : Fin 64) (c : Fin 64), x = ix3 z k c := ⟨x 0, x 1, x 2, eq_ix3 x⟩
  obtain rfl : z = 0 := Subsingleton.elim _ _
  rw [Payloads.k3_pay5_apply qp kp vp b (loHead g) _ _ _ (q_lo qp b g x0 hq) (k_lo kp b g x1 hk) (v_lo vp b g x2 hv) k c,
    ctxBlock_apply qp kp vp b g _ k ⟨c.val, by omega⟩ (by show 0 + 1 * k.val = k.val; omega) (by show 0 + 1 * c.val = c.val; omega),
    slabCol_lo]

include hq hk hv in
/-- What a grid point leaves in the context window's buffer: the context block of its batch and slab. -/
theorem out_block : out3_3 (F := Ideal) x0 x1 x2 = ctxBlock qp kp vp b g := by
  funext y
  unfold out3_3
  refine View.canon_apply_of_pieces (Val := Elt Ideal) (ctxBlock qp kp vp b g) _ ?_ y (cover3_3 _ _ y)
  intro p hp
  simp only [List.mem_cons, List.not_mem_nil, or_false] at hp
  rcases hp with rfl | rfl
  · exact ctx_hi_piece qp kp vp b g x0 x1 x2 hq hk hv
  · exact ctx_lo_piece qp kp vp b g x0 x1 x2 hq hk hv

include hq hk in
theorem wts_hi_piece (x : S1x1x64x4096.Idx) :
    k3_pay1 (F := Ideal) (k3_pay9 (F := Ideal) (View.ld x0 r3_3) (View.ld x1 r3_4)) x = wtsBlock qp kp b g (r3_5.emb x) := by
  obtain ⟨z, z', k, l, rfl⟩ : ∃ (z z' : Fin 1) (k : Fin 64) (l : Fin 4096), x = ix4 z z' k l := ⟨x 0, x 1, x 2, x 3, eq_ix4 x⟩
  obtain rfl : z = 0 := Subsingleton.elim _ _
  obtain rfl : z' = 0 := Subsingleton.elim _ _
  rw [Payloads.k3_pay1_apply, Payloads.k3_pay9_apply qp kp b (hiHead g) _ _ (q_hi qp b g x0 hq) (k_hi kp b g x1 hk) k l,
    wtsBlock_apply qp kp b g _ (hiHead g) k l (by show 2 * g.val + (1 + 1 * 0) = 2 * g.val + 1; omega)
      (by show 0 + 1 * k.val = k.val; omega) (by show 0 + 1 * l.val = l.val; omega)]

include hq hk in
theorem wts_lo_piece (x : S1x1x64x4096.Idx) :
    k3_pay6 (F := Ideal) (k3_pay4 (F := Ideal) (View.ld x0 r3_0) (View.ld x1 r3_1)) x = wtsBlock qp kp b g (r3_2.emb x) := by
  obtain ⟨z, z', k, l, rfl⟩ : ∃ (z z' : Fin 1) (k : Fin 64) (l : Fin 4096), x = ix4 z z' k l := ⟨x 0, x 1, x 2, x 3, eq_ix4 x⟩
  obtain rfl : z = 0 := Subsingleton.elim _ _
  obtain rfl : z' = 0 := Subsingleton.elim _ _
  rw [Payloads.k3_pay6_apply, Payloads.k3_pay4_apply qp kp b (loHead g) _ _ (q_lo qp b g x0 hq) (k_lo kp b g x1 hk) k l,
    wtsBlock_apply qp kp b g _ (loHead g) k l (by show 2 * g.val + (0 + 1 * 0) = 2 * g.val; omega)
      (by show 0 + 1 * k.val = k.val; omega) (by show 0 + 1 * l.val = l.val; omega)]

include hq hk in
/-- What a grid point leaves in the weights window's buffer: the weights block of its batch and slab. -/
theorem wts_block : out3_4 (F := Ideal) x0 x1 x2 = wtsBlock qp kp b g := by
  funext y
  unfold out3_4
  refine View.canon_apply_of_pieces (Val := Elt Ideal) (wtsBlock qp kp b g) _ ?_ y (cover3_4 _ _ y)
  intro p hp
  simp only [List.mem_cons, List.not_mem_nil, or_false] at hp
  rcases hp with rfl | rfl
  · exact wts_hi_piece qp kp b g x0 x1 hq hk
  · exact wts_lo_piece qp kp b g x0 x1 hq hk

end Block

end Cert.SlotAttn.AttnRegion

namespace Cert.SlotAttn.AttnRegion

open Cert.SlotAttn
open Idealize.ShloMosaic.Pipeline (Dat Cfg Window)

section Array

variable (V : (c : Dev nD) → (b : Ref sig .tc) → Buf (Elt Ideal) ((c : Thread nD τ).loc b)) (c : Dev nD)

/-- The projected query, key and value arrays as the launch finds them, by coordinates. -/
def qpOf : Fin 8 → Fin 64 → Fin 1024 → EReal := fun b k d => (V c main_v15 : S8x64x1024.Idx → EReal) (ix3 b k d)
def kpOf : Fin 8 → Fin 4096 → Fin 1024 → EReal := fun b l d => (V c main_v16 : S8x4096x1024.Idx → EReal) (ix3 b l d)
def vpOf : Fin 8 → Fin 4096 → Fin 1024 → EReal := fun b l d => (V c main_v17 : S8x4096x1024.Idx → EReal) (ix3 b l d)

/-- The whole context array and the whole attention-weights array of those. -/
def ctxArr : S8x64x1024.Idx → EReal := fun i =>
  ctxAfter (qpOf V c) (kpOf V c) (vpOf V c) ⟨(i 0).val, (i 0).isLt⟩ ⟨(i 1).val, (i 1).isLt⟩ ⟨(i 2).val, (i 2).isLt⟩
def wtsArr : S8x16x64x4096.Idx → EReal := fun i =>
  weights (qpOf V c) (kpOf V c) ⟨(i 0).val, (i 0).isLt⟩ ⟨(i 1).val, (i 1).isLt⟩ ⟨(i 2).val, (i 2).isLt⟩ ⟨(i 3).val, (i 3).isLt⟩

theorem ctxArr_apply (i : S8x64x1024.Idx) (b : Fin 8) (k : Fin 64) (d : Fin 1024) (h0 : (i 0).val = b.val) (h1 : (i 1).val = k.val)
    (h2 : (i 2).val = d.val) : ctxArr V c i = ctxAfter (qpOf V c) (kpOf V c) (vpOf V c) b k d := by
  have e0 : (⟨(i 0).val, (i 0).isLt⟩ : Fin 8) = b := Fin.ext h0
  have e1 : (⟨(i 1).val, (i 1).isLt⟩ : Fin 64) = k := Fin.ext h1
  have e2 : (⟨(i 2).val, (i 2).isLt⟩ : Fin 1024) = d := Fin.ext h2
  unfold ctxArr; rw [e0, e1, e2]

theorem wtsArr_apply (i : S8x16x64x4096.Idx) (b : Fin 8) (h : Fin 16) (k : Fin 64) (l : Fin 4096) (h0 : (i 0).val = b.val)
    (h1 : (i 1).val = h.val) (h2 : (i 2).val = k.val) (h3 : (i 3).val = l.val) : wtsArr V c i = weights (qpOf V c) (kpOf V c) b h k l := by
  have e0 : (⟨(i 0).val, (i 0).isLt⟩ : Fin 8) = b := Fin.ext h0
  have e1 : (⟨(i 1).val, (i 1).isLt⟩ : Fin 16) = h := Fin.ext h1
  have e2 : (⟨(i 2).val, (i 2).isLt⟩ : Fin 64) = k := Fin.ext h2
  have e3 : (⟨(i 3).val, (i 3).isLt⟩ : Fin 4096) = l := Fin.ext h3
  unfold wtsArr; rw [e0, e1, e2, e3]

/-- The five windows' block indices over the 8 by 8 grid, decided once: the three inputs and the context output sit at
    (batch, 0, slab), the weights output at (batch, slab, 0, 0), batch and slab below 8. -/
theorem index_facts : ∀ t : Fin cfg3.N,
    win3_0.index t (0 : Fin 3) = win3_3.index t (0 : Fin 3) ∧ win3_0.index t (1 : Fin 3) = 0 ∧ win3_0.index t (2 : Fin 3) = win3_3.index t (2 : Fin 3)
    ∧ win3_1.index t (0 : Fin 3) = win3_3.index t (0 : Fin 3) ∧ win3_1.index t (1 : Fin 3) = 0 ∧ win3_1.index t (2 : Fin 3) = win3_3.index t (2 : Fin 3)
    ∧ win3_2.index t (0 : Fin 3) = win3_3.index t (0 : Fin 3) ∧ win3_2.index t (1 : Fin 3) = 0 ∧ win3_2.index t (2 : Fin 3) = win3_3.index t (2 : Fin 3)
    ∧ win3_3.index t (1 : Fin 3) = 0 ∧ win3_3.index t (0 : Fin 3) < 8 ∧ win3_3.index t (2 : Fin 3) < 8
    ∧ win3_4.index t (0 : Fin 4) = win3_3.index t (0 : Fin 3) ∧ win3_4.index t (1 : Fin 4) = win3_3.index t (2 : Fin 3)
    ∧ win3_4.index t (2 : Fin 4) = 0 ∧ win3_4.index t (3 : Fin 4) = 0 :=
  (by decide +kernel : ∀ t : Fin grid3.N, _)

/-- Every (batch, slab) pair is some grid point's. -/
theorem index_onto : ∀ (b g : Fin 8), ∃ t : Fin cfg3.N, win3_3.index t (0 : Fin 3) = b.val ∧ win3_3.index t (2 : Fin 3) = g.val :=
  (by decide +kernel : ∀ (b g : Fin 8), ∃ t : Fin grid3.N, win3_3.index t (0 : Fin 3) = b.val ∧ win3_3.index t (2 : Fin 3) = g.val)

/-- A grid point's batch and slab. -/
def batchOf (t : Fin cfg3.N) : Fin 8 := ⟨win3_3.index t (0 : Fin 3), (index_facts t).2.2.2.2.2.2.2.2.2.2.1⟩
def slabOf (t : Fin cfg3.N) : Fin 8 := ⟨win3_3.index t (2 : Fin 3), (index_facts t).2.2.2.2.2.2.2.2.2.2.2.1⟩

theorem hz3 : (![0, 0, 0] : Fin 3 → Nat) = fun _ => 0 := funext fun a => by fin_cases a <;> rfl

/-- The query window's block at a grid point is the slab of its batch's rows. -/
theorem q_blk (t : Fin cfg3.N) (k : Fin 64) (j : Fin 128) :
    iblk3 V c 0 t (ix3 (0 : Fin 1) k j) = qpOf V c (batchOf t) k (slabCol (slabOf t) j) := by
  obtain ⟨a0, a1, a2, -⟩ := index_facts t
  show (V c main_v15 : S8x64x1024.Idx → EReal) (((cfg3.win 0).blk t).view.emb (ix3 (0 : Fin 1) k j))
    = (V c main_v15 : S8x64x1024.Idx → EReal) (ix3 (batchOf t) k (slabCol (slabOf t) j))
  congr 1; funext a; apply Fin.ext
  match a with
  | ⟨0, _⟩ => show win3_0.index t (0 : Fin 3) * 1 + 1 * 0 = win3_3.index t (0 : Fin 3); omega
  | ⟨1, _⟩ => show win3_0.index t (1 : Fin 3) * 64 + 1 * k.val = k.val; omega
  | ⟨2, _⟩ => show win3_0.index t (2 : Fin 3) * 128 + 1 * j.val = 128 * win3_3.index t (2 : Fin 3) + j.val; omega

theorem k_blk (t : Fin cfg3.N) (l : Fin 4096) (j : Fin 128) :
    iblk3 V c 1 t (ix3 (0 : Fin 1) l j) = kpOf V c (batchOf t) l (slabCol (slabOf t) j) := by
  obtain ⟨-, -, -, b0, b1, b2, -⟩ := index_facts t
  show (V c main_v16 : S8x4096x1024.Idx → EReal) (((cfg3.win 1).blk t).view.emb (ix3 (0 : Fin 1) l j))
    = (V c main_v16 : S8x4096x1024.Idx → EReal) (ix3 (batchOf t) l (slabCol (slabOf t) j))
  congr 1; funext a; apply Fin.ext
  match a with
  | ⟨0, _⟩ => show win3_1.index t (0 : Fin 3) * 1 + 1 * 0 = win3_3.index t (0 : Fin 3); omega
  | ⟨1, _⟩ => show win3_1.index t (1 : Fin 3) * 4096 + 1 * l.val = l.val; omega
  | ⟨2, _⟩ => show win3_1.index t (2 : Fin 3) * 128 + 1 * j.val = 128 * win3_3.index t (2 : Fin 3) + j.val; omega

theorem v_blk (t : Fin cfg3.N) (l : Fin 4096) (j : Fin 128) :
    iblk3 V c 2 t (ix3 (0 : Fin 1) l j) = vpOf V c (batchOf t) l (slabCol (slabOf t) j) := by
  obtain ⟨-, -, -, -, -, -, c0, c1, c2, -⟩ := index_facts t
  show (V c main_v17 : S8x4096x1024.Idx → EReal) (((cfg3.win 2).blk t).view.emb (ix3 (0 : Fin 1) l j))
    = (V c main_v17 : S8x4096x1024.Idx → EReal) (ix3 (batchOf t) l (slabCol (slabOf t) j))
  congr 1; funext a; apply Fin.ext
  match a with
  | ⟨0, _⟩ => show win3_2.index t (0 : Fin 3) * 1 + 1 * 0 = win3_3.index t (0 : Fin 3); omega
  | ⟨1, _⟩ => show win3_2.index t (1 : Fin 3) * 4096 + 1 * l.val = l.val; omega
  | ⟨2, _⟩ => show win3_2.index t (2 : Fin 3) * 128 + 1 * j.val = 128 * win3_3.index t (2 : Fin 3) + j.val; omega

/-- What grid point `t` writes back through the context window is block `t` of the whole context array. -/
theorem flushed_ctx (t : Fin cfg3.N) :
    (dat3 V c).flushed 3 t = ((cfg3.win 3).blk t).view.read (Elt Ideal) (ctxArr V c) := by
  show (cfg3.win 3).cut (grid3.coords t) ((dat3 V c).after 3 t) = _
  rw [after3_3]
  obtain ⟨-, -, -, -, -, -, -, -, -, d1, d0, d2, -⟩ := index_facts t
  rw [out_block (qpOf V c) (kpOf V c) (vpOf V c) (batchOf t) (slabOf t) (iblk3 V c 0 t) (iblk3 V c 1 t) (iblk3 V c 2 t)
    (q_blk V c t) (k_blk V c t) (v_blk V c t)]
  funext y
  show ctxBlock (qpOf V c) (kpOf V c) (vpOf V c) (batchOf t) (slabOf t) y = ctxArr V c (((cfg3.win 3).blk t).view.emb y)
  refine (ctxArr_apply V c _ (batchOf t) ⟨(y 1).val, (y 1).isLt⟩ (slabCol (slabOf t) ⟨(y 2).val, (y 2).isLt⟩) ?_ ?_ ?_).symm
  · show win3_3.index t (0 : Fin 3) * 1 + 1 * (y 0).val = win3_3.index t (0 : Fin 3)
    have : (y 0).val < 1 := (y 0).isLt
    omega
  · show win3_3.index t (1 : Fin 3) * 64 + 1 * (y 1).val = (y 1).val; omega
  · show win3_3.index t (2 : Fin 3) * 128 + 1 * (y 2).val = 128 * win3_3.index t (2 : Fin 3) + (y 2).val; omega

/-- What grid point `t` writes back through the weights window is block `t` of the whole weights array. -/
theorem flushed_wts (t : Fin cfg3.N) :
    (dat3 V c).flushed 4 t = ((cfg3.win 4).blk t).view.read (Elt Ideal) (wtsArr V c) := by
  show (cfg3.win 4).cut (grid3.coords t) ((dat3 V c).after 4 t) = _
  rw [after3_4]
  obtain ⟨-, -, -, -, -, -, -, -, -, d1, d0, d2, e0, e1, e2, e3⟩ := index_facts t
  rw [wts_block (qpOf V c) (kpOf V c) (batchOf t) (slabOf t) (iblk3 V c 0 t) (iblk3 V c 1 t) (iblk3 V c 2 t)
    (q_blk V c t) (k_blk V c t)]
  funext y
  show wtsBlock (qpOf V c) (kpOf V c) (batchOf t) (slabOf t) y = wtsArr V c (((cfg3.win 4).blk t).view.emb y)
  have hy1 : (y 1).val < 2 := (y 1).isLt
  refine (wtsArr_apply V c _ (batchOf t) ⟨2 * (slabOf t).val + (y 1).val, by have := (slabOf t).isLt; omega⟩
    ⟨(y 2).val, (y 2).isLt⟩ ⟨(y 3).val, (y 3).isLt⟩ ?_ ?_ ?_ ?_).symm
  · show win3_4.index t (0 : Fin 4) * 1 + 1 * (y 0).val = win3_3.index t (0 : Fin 3)
    have : (y 0).val < 1 := (y 0).isLt
    omega
  · show win3_4.index t (1 : Fin 4) * 2 + 1 * (y 1).val = 2 * win3_3.index t (2 : Fin 3) + (y 1).val; omega
  · show win3_4.index t (2 : Fin 4) * 64 + 1 * (y 2).val = (y 2).val; omega
  · show win3_4.index t (3 : Fin 4) * 4096 + 1 * (y 3).val = (y 3).val; omega

/-- An index of the context array is in a point's block iff each coordinate is in the block's range on its axis. -/
theorem mem_blk_ctx (t : Fin cfg3.N) (i : S8x64x1024.Idx) :
    i ∈ ((cfg3.win 3).blk t).view.set ↔ ∀ a : Fin 3, win3_3.index t a * S1x64x128.size a ≤ (i a).val
      ∧ (i a).val < win3_3.index t a * S1x64x128.size a + S1x64x128.size a := by
  show i ∈ ((View.whole main_v18_0).slice (win3_3.rect t)).set ↔ _
  rw [View.set_slice_whole, Rect.mem_set_unit]
  exact Iff.rfl

theorem mem_blk_wts (t : Fin cfg3.N) (i : S8x16x64x4096.Idx) :
    i ∈ ((cfg3.win 4).blk t).view.set ↔ ∀ a : Fin 4, win3_4.index t a * S1x2x64x4096.size a ≤ (i a).val
      ∧ (i a).val < win3_4.index t a * S1x2x64x4096.size a + S1x2x64x4096.size a := by
  show i ∈ ((View.whole main_v18_1).slice (win3_4.rect t)).set ↔ _
  rw [View.set_slice_whole, Rect.mem_set_unit]
  exact Iff.rfl

/-- Every entry of the context array is in the block of the point of its batch and of its column's slab. -/
theorem cover_ctx (i : S8x64x1024.Idx) :
    ∃ t : Fin cfg3.N, (cfg3.win 3).flush t = true ∧ i ∈ ((cfg3.win 3).blk t).view.set := by
  have hi0 : (i 0).val < 8 := (i 0).isLt
  have hi1 : (i 1).val < 64 := (i 1).isLt
  have hi2 : (i 2).val < 1024 := (i 2).isLt
  obtain ⟨t, hb, hg⟩ := index_onto ⟨(i 0).val, hi0⟩ ⟨(i 2).val / 128, by omega⟩
  obtain ⟨-, -, -, -, -, -, -, -, -, d1, -⟩ := index_facts t
  refine ⟨t, flush3_3 t, ?_⟩
  rw [mem_blk_ctx]
  intro a
  match a with
  | ⟨0, _⟩ => show win3_3.index t (0 : Fin 3) * 1 ≤ (i 0).val ∧ (i 0).val < win3_3.index t (0 : Fin 3) * 1 + 1; simp only at hb; omega
  | ⟨1, _⟩ => show win3_3.index t (1 : Fin 3) * 64 ≤ (i 1).val ∧ (i 1).val < win3_3.index t (1 : Fin 3) * 64 + 64; omega
  | ⟨2, _⟩ => show win3_3.index t (2 : Fin 3) * 128 ≤ (i 2).val ∧ (i 2).val < win3_3.index t (2 : Fin 3) * 128 + 128; simp only at hg; omega

/-- Every entry of the weights array is in the block of the point of its batch and of its head's slab. -/
theorem cover_wts (i : S8x16x64x4096.Idx) :
    ∃ t : Fin cfg3.N, (cfg3.win 4).flush t = true ∧ i ∈ ((cfg3.win 4).blk t).view.set := by
  have hi0 : (i 0).val < 8 := (i 0).isLt
  have hi1 : (i 1).val < 16 := (i 1).isLt
  have hi2 : (i 2).val < 64 := (i 2).isLt
  have hi3 : (i 3).val < 4096 := (i 3).isLt
  obtain ⟨t, hb, hg⟩ := index_onto ⟨(i 0).val, hi0⟩ ⟨(i 1).val / 2, by omega⟩
  obtain ⟨-, -, -, -, -, -, -, -, -, -, -, -, e0, e1, e2, e3⟩ := index_facts t
  refine ⟨t, flush3_4 t, ?_⟩
  rw [mem_blk_wts]
  intro a
  match a with
  | ⟨0, _⟩ => show win3_4.index t (0 : Fin 4) * 1 ≤ (i 0).val ∧ (i 0).val < win3_4.index t (0 : Fin 4) * 1 + 1; simp only at hb; omega
  | ⟨1, _⟩ => show win3_4.index t (1 : Fin 4) * 2 ≤ (i 1).val ∧ (i 1).val < win3_4.index t (1 : Fin 4) * 2 + 2; simp only at hg; omega
  | ⟨2, _⟩ => show win3_4.index t (2 : Fin 4) * 64 ≤ (i 2).val ∧ (i 2).val < win3_4.index t (2 : Fin 4) * 64 + 64; omega
  | ⟨3, _⟩ => show win3_4.index t (3 : Fin 4) * 4096 ≤ (i 3).val ∧ (i 3).val < win3_4.index t (3 : Fin 4) * 4096 + 4096; omega

/-- THE CONTEXT ARRAY after the launch, whatever the launch found. -/
theorem final_ctx : (dat3 V c).arrAt 3 cfg3.N = ctxArr V c :=
  (dat3 V c).arrAt_eq_of_cover 3 (ctxArr V c) (fun t _ => flushed_ctx V c t) (cover_ctx)

/-- THE ATTENTION-WEIGHTS ARRAY after the launch, whatever the launch found. -/
theorem final_wts : (dat3 V c).arrAt 4 cfg3.N = wtsArr V c :=
  (dat3 V c).arrAt_eq_of_cover 4 (wtsArr V c) (fun t _ => flushed_wts V c t) (cover_wts)

end Array

end Cert.SlotAttn.AttnRegion

end
-- ==== Proof.ProjRegions.lean ====
/-
  The four projection launches of the kernel, read as matrix products.

  Each projection multiplies an array of rows by a square weight matrix: entry (r, e) of the result is the sum over
  `d` of the row entry (r, d) times the weight entry (d, e); the last projection also adds a bias row to every row.
  At the ideal values the narrowing of a block to a shorter float format and a cast to the same shape are the
  identity, and a block product into a zero accumulator is the plain sum of products, so the body of a launch at one
  grid point computes exactly a block of rows of that product.

  The first part reads the body's result at an index. The second part follows a launch over its grid: at every point
  the row window holds the block of 512 rows the output window is about to write, the weight window holds the whole
  matrix, and the blocks of the output window tile the array (row `r` lies in the block of index `r / 512`); hence
  after the last point the output array is the product, whatever the arrays held when the launch began.
-/
import proofs.«139100_j42949672960449_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx
open Idealize.ShloMosaic.Pipeline (Dat Cfg Window)

namespace Cert.SlotAttn.ProjRegions

/-! ## The block product at an index -/

/-- The dimension numbers of the block product: the left operand's column axis against the right operand's row axis. -/
abbrev DD : DotDims S512x1024 S1024x1024 S512x1024 := dot_S512x1024_S1024x1024_S512x1024_1_0_0_1_n_n

/-- The left operand's row is the output's row. -/
theorem lhs_row (j : S512x1024.Idx) (q : DD.contr.Idx) : (DD.lhsIdx j q 0).val = (j 0).val := by
  unfold DotDims.lhsIdx
  rw [dif_neg (show ¬(0 : Fin S512x1024.rank) ∈ DD.lhsBatch by decide),
    dif_pos (show (0 : Fin S512x1024.rank) ∈ DD.lhsNonContracting by decide)]
  rfl

/-- The left operand's column is the contraction coordinate. -/
theorem lhs_col (j : S512x1024.Idx) (q : DD.contr.Idx) : (DD.lhsIdx j q 1).val = (q ⟨0, by decide⟩).val :=
  DD.lhsIdx_val_of_single rfl j q

/-- The right operand's row is the contraction coordinate. -/
theorem rhs_row (j : S512x1024.Idx) (q : DD.contr.Idx) : (DD.rhsIdx j q 0).val = (q ⟨0, by decide⟩).val :=
  DD.rhsIdx_val_of_single rfl j q

/-- The right operand's column is the output's column. -/
theorem rhs_col (j : S512x1024.Idx) (q : DD.contr.Idx) : (DD.rhsIdx j q 1).val = (j 1).val := by
  unfold DotDims.rhsIdx
  rw [dif_neg (show ¬(1 : Fin S1024x1024.rank) ∈ DD.rhsBatch by decide),
    dif_pos (show (1 : Fin S1024x1024.rank) ∈ DD.rhsNonContracting by decide)]
  rfl

/-- The sum over the one-axis contraction index of a [512,1024] by [1024,1024] block product, at row `r` and column `e`,
    is the sum over `d` of the left entry (r, d) times the right entry (d, e). -/
theorem contr_sum {φ₁ φ₂ : FTy} (a : FVec Ideal S512x1024 φ₁) (w : FVec Ideal S1024x1024 φ₂) (r : Fin 512) (e : Fin 1024) :
    ∑ k : DD.contr.Idx, a (DD.lhsIdx (ix2 r e) k) * w (DD.rhsIdx (ix2 r e) k)
      = ∑ d : Fin 1024, a (ix2 r d) * w (ix2 d e) := by
  rw [← Equiv.sum_comp (contrEquiv1 DD 1024 rfl rfl).symm]
  refine Finset.sum_congr rfl fun k _ => ?_
  have hk := contrEquiv1_symm_val DD 1024 rfl rfl k
  have el : DD.lhsIdx (ix2 r e) ((contrEquiv1 DD 1024 rfl rfl).symm k) = ix2 r k := funext fun x => Fin.ext (by
    match x with
    | ⟨0, _⟩ => exact lhs_row _ _
    | ⟨1, _⟩ => exact (lhs_col _ _).trans hk)
  have er : DD.rhsIdx (ix2 r e) ((contrEquiv1 DD 1024 rfl rfl).symm k) = ix2 k e := funext fun x => Fin.ext (by
    match x with
    | ⟨0, _⟩ => exact (rhs_row _ _).trans hk
    | ⟨1, _⟩ => exact rhs_col _ _)
  rw [el, er]

/-! ## The four projection payloads at an index -/

/-- The payload of a projection without bias: the casts to the same shape and the narrowings are the identity at the
    ideal values, and the block product into the zero splat is the sum of products. -/
theorem k0_pay1_apply (v0 : Vec Ideal S512x1024 .f32) (v3 : Vec Ideal S1024x1024 .bf16) (r : Fin 512) (e : Fin 1024) :
    k0_pay1 (F := Ideal) v0 v3 (ix2 r e) = ∑ d : Fin 1024, v0 (ix2 r d) * v3 (ix2 d e) := by
  unfold k0_pay1
  simp only [shapeCast_self, matmul]
  rw [truncf_apply, Ideal.matmul_constant_zero_apply]
  exact contr_sum _ _ r e

theorem k1_pay1_apply (v0 : Vec Ideal S512x1024 .f32) (v3 : Vec Ideal S1024x1024 .bf16) (r : Fin 512) (e : Fin 1024) :
    k1_pay1 (F := Ideal) v0 v3 (ix2 r e) = ∑ d : Fin 1024, v0 (ix2 r d) * v3 (ix2 d e) :=
  k0_pay1_apply v0 v3 r e

theorem k2_pay1_apply (v0 : Vec Ideal S512x1024 .f32) (v3 : Vec Ideal S1024x1024 .bf16) (r : Fin 512) (e : Fin 1024) :
    k2_pay1 (F := Ideal) v0 v3 (ix2 r e) = ∑ d : Fin 1024, v0 (ix2 r d) * v3 (ix2 d e) :=
  k0_pay1_apply v0 v3 r e

/-- The payload of the projection with bias: the same sum of products, plus the bias row broadcast down the rows. -/
theorem k4_pay1_apply (v0 : Vec Ideal S512x1024 .bf16) (v2 : Vec Ideal S1024x1024 .bf16) (v5 : Vec Ideal S1x1024 .f32)
    (r : Fin 512) (e : Fin 1024) :
    k4_pay1 (F := Ideal) v0 v2 v5 (ix2 r e) = (∑ d : Fin 1024, v0 (ix2 r d) * v2 (ix2 d e)) + v5 (ix2 0 e) := by
  unfold k4_pay1
  simp only [shapeCast_self, matmul]
  rw [addf_apply, Ideal.matmul_constant_zero_apply, contr_sum,
    broadcastTo_apply v5 broadcasts_S1x1024_S512x1024 (ix2 r e) (ix2 0 e) (by
      intro a
      match a with
      | ⟨0, _⟩ => rfl
      | ⟨1, _⟩ => rfl)]

/-! ## The launches' output arrays -/

/-- Every row of an array of `n` rows against every column of a square matrix: entry (r, e) is `∑ d, a (r, d) * w (d, e)`. -/
def rowsByCols {n : Nat} (a : (⟨2, ![n, 1024]⟩ : Shape).Idx → EReal) (w : (⟨2, ![1024, 1024]⟩ : Shape).Idx → EReal) :
    (⟨2, ![n, 1024]⟩ : Shape).Idx → EReal :=
  fun i => ∑ d : Fin 1024, a (ix2 (i 0) d) * w (ix2 d (i 1))

theorem rowsByCols_apply {n : Nat} (a : (⟨2, ![n, 1024]⟩ : Shape).Idx → EReal) (w : (⟨2, ![1024, 1024]⟩ : Shape).Idx → EReal)
    (r : Fin n) (e : Fin 1024) : rowsByCols a w (ix2 r e) = ∑ d : Fin 1024, a (ix2 r d) * w (ix2 d e) := rfl

/-- The same plus a bias row added to every row: entry (r, e) is `(∑ d, a (r, d) * w (d, e)) + bias (0, e)`. -/
def rowsByColsBias {n : Nat} (a : (⟨2, ![n, 1024]⟩ : Shape).Idx → EReal) (w : (⟨2, ![1024, 1024]⟩ : Shape).Idx → EReal)
    (bias : (⟨2, ![1, 1024]⟩ : Shape).Idx → EReal) : (⟨2, ![n, 1024]⟩ : Shape).Idx → EReal :=
  fun i => (∑ d : Fin 1024, a (ix2 (i 0) d) * w (ix2 d (i 1))) + bias (ix2 0 (i 1))

theorem rowsByColsBias_apply {n : Nat} (a : (⟨2, ![n, 1024]⟩ : Shape).Idx → EReal) (w : (⟨2, ![1024, 1024]⟩ : Shape).Idx → EReal)
    (bias : (⟨2, ![1, 1024]⟩ : Shape).Idx → EReal) (r : Fin n) (e : Fin 1024) :
    rowsByColsBias a w bias (ix2 r e) = (∑ d : Fin 1024, a (ix2 r d) * w (ix2 d e)) + bias (ix2 0 e) := rfl

section Regions

variable (V : (c : Dev nD) → (b : Ref sig .tc) → Buf (Elt Ideal) ((c.tc : Thread nD τ).loc b))

/-- The zero offsets of a whole-buffer access, however they are spelt. -/
theorem zero_offsets : (![0, 0] : Fin 2 → Nat) = fun _ => 0 := funext fun a => by fin_cases a <;> rfl

/-! ### The key projection: 64 grid points, block `t` the rows `512 t .. 512 t + 511` -/

/-- The staging buffer after the body at an index: the sum of products of the two loaded blocks. -/
theorem out1_2_apply (x0 : Vec Ideal S512x1024 .f32) (x1 : Vec Ideal S1024x1024 .bf16) (r : Fin 512) (e : Fin 1024) :
    out1_2 (F := Ideal) x0 x1 (ix2 r e) = ∑ d : Fin 1024, x0 (ix2 r d) * x1 (ix2 d e) := by
  unfold out1_2
  rw [View.canon_unit_zero zero_offsets]
  simp only [View.ld_unit_zero (S := S512x1024) zero_offsets, View.ld_unit_zero (S := S1024x1024) zero_offsets]
  exact k1_pay1_apply x0 x1 r e

/-- The array the launch leaves: every row of the first array against every column of the weight matrix. -/
def G1 (c : Dev nD) : S32768x1024.Idx → Elt Ideal .bf16 := rowsByCols (V c main_v1) (V c main_v6)

/-- The printed index maps over the grid: the row window moves with the output window, the weight window stays at
    the whole matrix, and the output's block index stays below 64. -/
theorem index_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) < 64 :=
  (by decide +kernel : ∀ t : Fin grid1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) < 64)

/-- Every block of rows is some point's. -/
theorem index_onto1 : ∀ q : Fin 64, ∃ t : Fin cfg1.N, win1_2.index t = ![q.val, 0] :=
  (by decide +kernel : ∀ q : Fin 64, ∃ t : Fin grid1.N, win1_2.index t = ![q.val, 0])

/-- What point `t` writes back is block `t` of `G1`: the row block is read where the output's rows are, the weight
    block is the whole matrix. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  obtain ⟨e0, e1, e2, e3, e4, e5⟩ := index_facts1 t
  funext j
  obtain ⟨r, e, rfl⟩ : ∃ (r : Fin 512) (e : Fin 1024), j = ix2 r e := ⟨j 0, j 1, eq_ix2 j⟩
  show out1_2 (iblk1 V c 0 t) (iblk1 V c 1 t) (ix2 r e) = G1 V c (((cfg1.win 2).blk t).view.emb (ix2 r e))
  rw [out1_2_apply]
  unfold G1 rowsByCols
  show (∑ d : Fin 1024, _) = ∑ d : Fin 1024, _
  refine Finset.sum_congr rfl fun d _ => ?_
  have h0 : iblk1 V c 0 t (ix2 r d) = V c main_v1 (ix2 (((cfg1.win 2).blk t).view.emb (ix2 r e) 0) d) := by
    show V c main_v1 (((cfg1.win 0).blk t).view.emb (ix2 r d)) = _
    refine congrArg _ (funext fun a => Fin.ext ?_)
    match a with
    | ⟨0, _⟩ =>
      show win1_0.index t (0 : Fin 2) * 512 + 1 * r.val = win1_2.index t (0 : Fin 2) * 512 + 1 * r.val
      omega
    | ⟨1, _⟩ =>
      show win1_0.index t (1 : Fin 2) * 1024 + 1 * d.val = d.val
      omega
  have h1 : iblk1 V c 1 t (ix2 d e) = V c main_v6 (ix2 d (((cfg1.win 2).blk t).view.emb (ix2 r e) 1)) := by
    show V c main_v6 (((cfg1.win 1).blk t).view.emb (ix2 d e)) = _
    refine congrArg _ (funext fun a => Fin.ext ?_)
    match a with
    | ⟨0, _⟩ =>
      show win1_1.index t (0 : Fin 2) * 1024 + 1 * d.val = d.val
      omega
    | ⟨1, _⟩ =>
      show win1_1.index t (1 : Fin 2) * 1024 + 1 * e.val = win1_2.index t (1 : Fin 2) * 1024 + 1 * e.val
      omega
  rw [h0, h1]

/-- An index of the array is in point `t`'s block iff each coordinate is in the block's range on its axis. -/
theorem mem_blk1 (t : Fin cfg1.N) (i : S32768x1024.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v13).slice (win1_2.rect t)).set ↔ _
  rw [View.set_slice_whole, Rect.mem_set_unit]
  exact Iff.rfl

/-- Every index of the array is in the block of some point: row `r` in the block of index `r / 512`. -/
theorem cover1 (i : S32768x1024.Idx) :
    ∃ t : Fin cfg1.N, (cfg1.win 2).flush t = true ∧ i ∈ ((cfg1.win 2).blk t).view.set := by
  have hi0 : (i 0).val < 32768 := (i 0).isLt
  have hi1 : (i 1).val < 1024 := (i 1).isLt
  obtain ⟨t, ht⟩ := index_onto1 ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 1024 ≤ (i 1).val ∧ (i 1).val < win1_2.index t (1 : Fin 2) * 1024 + 1024
    omega

/-- The output array after all the grid points. -/
theorem final1 (c : Dev nD) : (dat1 V c).arrAt 2 cfg1.N = G1 V c :=
  (dat1 V c).arrAt_eq_of_cover 2 (G1 V c) (fun t _ => flushed1_eq V c t) cover1

/-- The same at an index. -/
theorem final1_apply (c : Dev nD) (r : Fin 32768) (e : Fin 1024) :
    (dat1 V c).arrAt 2 cfg1.N (ix2 r e) = rowsByCols (V c main_v1) (V c main_v6) (ix2 r e) := by
  rw [final1]; rfl

/-! ### The value projection: the same launch on the third array -/

/-- The staging buffer after the body at an index: the sum of products of the two loaded blocks. -/
theorem out2_2_apply (x0 : Vec Ideal S512x1024 .f32) (x1 : Vec Ideal S1024x1024 .bf16) (r : Fin 512) (e : Fin 1024) :
    out2_2 (F := Ideal) x0 x1 (ix2 r e) = ∑ d : Fin 1024, x0 (ix2 r d) * x1 (ix2 d e) := by
  unfold out2_2
  rw [View.canon_unit_zero zero_offsets]
  simp only [View.ld_unit_zero (S := S512x1024) zero_offsets, View.ld_unit_zero (S := S1024x1024) zero_offsets]
  exact k2_pay1_apply x0 x1 r e

/-- The array the launch leaves: every row of the first array against every column of the weight matrix. -/
def G2 (c : Dev nD) : S32768x1024.Idx → Elt Ideal .bf16 := rowsByCols (V c main_v2) (V c main_v8)

/-- The printed index maps over the grid: the row window moves with the output window, the weight window stays at
    the whole matrix, and the output's block index stays below 64. -/
theorem index_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) < 64 :=
  (by decide +kernel : ∀ t : Fin grid2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) < 64)

/-- Every block of rows is some point's. -/
theorem index_onto2 : ∀ q : Fin 64, ∃ t : Fin cfg2.N, win2_2.index t = ![q.val, 0] :=
  (by decide +kernel : ∀ q : Fin 64, ∃ t : Fin grid2.N, win2_2.index t = ![q.val, 0])

/-- What point `t` writes back is block `t` of `G2`: the row block is read where the output's rows are, the weight
    block is the whole matrix. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  obtain ⟨e0, e1, e2, e3, e4, e5⟩ := index_facts2 t
  funext j
  obtain ⟨r, e, rfl⟩ : ∃ (r : Fin 512) (e : Fin 1024), j = ix2 r e := ⟨j 0, j 1, eq_ix2 j⟩
  show out2_2 (iblk2 V c 0 t) (iblk2 V c 1 t) (ix2 r e) = G2 V c (((cfg2.win 2).blk t).view.emb (ix2 r e))
  rw [out2_2_apply]
  unfold G2 rowsByCols
  show (∑ d : Fin 1024, _) = ∑ d : Fin 1024, _
  refine Finset.sum_congr rfl fun d _ => ?_
  have h0 : iblk2 V c 0 t (ix2 r d) = V c main_v2 (ix2 (((cfg2.win 2).blk t).view.emb (ix2 r e) 0) d) := by
    show V c main_v2 (((cfg2.win 0).blk t).view.emb (ix2 r d)) = _
    refine congrArg _ (funext fun a => Fin.ext ?_)
    match a with
    | ⟨0, _⟩ =>
      show win2_0.index t (0 : Fin 2) * 512 + 1 * r.val = win2_2.index t (0 : Fin 2) * 512 + 1 * r.val
      omega
    | ⟨1, _⟩ =>
      show win2_0.index t (1 : Fin 2) * 1024 + 1 * d.val = d.val
      omega
  have h1 : iblk2 V c 1 t (ix2 d e) = V c main_v8 (ix2 d (((cfg2.win 2).blk t).view.emb (ix2 r e) 1)) := by
    show V c main_v8 (((cfg2.win 1).blk t).view.emb (ix2 d e)) = _
    refine congrArg _ (funext fun a => Fin.ext ?_)
    match a with
    | ⟨0, _⟩ =>
      show win2_1.index t (0 : Fin 2) * 1024 + 1 * d.val = d.val
      omega
    | ⟨1, _⟩ =>
      show win2_1.index t (1 : Fin 2) * 1024 + 1 * e.val = win2_2.index t (1 : Fin 2) * 1024 + 1 * e.val
      omega
  rw [h0, h1]

/-- An index of the array is in point `t`'s block iff each coordinate is in the block's range on its axis. -/
theorem mem_blk2 (t : Fin cfg2.N) (i : S32768x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v14).slice (win2_2.rect t)).set ↔ _
  rw [View.set_slice_whole, Rect.mem_set_unit]
  exact Iff.rfl

/-- Every index of the array is in the block of some point: row `r` in the block of index `r / 512`. -/
theorem cover2 (i : S32768x1024.Idx) :
    ∃ t : Fin cfg2.N, (cfg2.win 2).flush t = true ∧ i ∈ ((cfg2.win 2).blk t).view.set := by
  have hi0 : (i 0).val < 32768 := (i 0).isLt
  have hi1 : (i 1).val < 1024 := (i 1).isLt
  obtain ⟨t, ht⟩ := index_onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 1024 ≤ (i 1).val ∧ (i 1).val < win2_2.index t (1 : Fin 2) * 1024 + 1024
    omega

/-- The output array after all the grid points. -/
theorem final2 (c : Dev nD) : (dat2 V c).arrAt 2 cfg2.N = G2 V c :=
  (dat2 V c).arrAt_eq_of_cover 2 (G2 V c) (fun t _ => flushed2_eq V c t) cover2

/-- The same at an index. -/
theorem final2_apply (c : Dev nD) (r : Fin 32768) (e : Fin 1024) :
    (dat2 V c).arrAt 2 cfg2.N (ix2 r e) = rowsByCols (V c main_v2) (V c main_v8) (ix2 r e) := by
  rw [final2]; rfl

/-! ### The slot projection: one grid point, the block the whole array -/

/-- The staging buffer after the body at an index: the sum of products of the two loaded blocks. -/
theorem out0_2_apply (x0 : Vec Ideal S512x1024 .f32) (x1 : Vec Ideal S1024x1024 .bf16) (r : Fin 512) (e : Fin 1024) :
    out0_2 (F := Ideal) x0 x1 (ix2 r e) = ∑ d : Fin 1024, x0 (ix2 r d) * x1 (ix2 d e) := by
  unfold out0_2
  rw [View.canon_unit_zero zero_offsets]
  simp only [View.ld_unit_zero (S := S512x1024) zero_offsets, View.ld_unit_zero (S := S1024x1024) zero_offsets]
  exact k0_pay1_apply x0 x1 r e

/-- The array the launch leaves: every row of the first array against every column of the weight matrix. -/
def G0 (c : Dev nD) : S512x1024.Idx → Elt Ideal .bf16 := rowsByCols (V c main_v0) (V c main_v4)

/-- The printed index maps over the grid: the row window moves with the output window, the weight window stays at
    the whole matrix, and the output's block index stays below 1. -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) < 1 :=
  (by decide +kernel : ∀ t : Fin grid0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) < 1)

/-- Every block of rows is some point's. -/
theorem index_onto0 : ∀ q : Fin 1, ∃ t : Fin cfg0.N, win0_2.index t = ![q.val, 0] :=
  (by decide +kernel : ∀ q : Fin 1, ∃ t : Fin grid0.N, win0_2.index t = ![q.val, 0])

/-- What point `t` writes back is block `t` of `G0`: the row block is read where the output's rows are, the weight
    block is the whole matrix. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  obtain ⟨e0, e1, e2, e3, e4, e5⟩ := index_facts0 t
  funext j
  obtain ⟨r, e, rfl⟩ : ∃ (r : Fin 512) (e : Fin 1024), j = ix2 r e := ⟨j 0, j 1, eq_ix2 j⟩
  show out0_2 (iblk0 V c 0 t) (iblk0 V c 1 t) (ix2 r e) = G0 V c (((cfg0.win 2).blk t).view.emb (ix2 r e))
  rw [out0_2_apply]
  unfold G0 rowsByCols
  show (∑ d : Fin 1024, _) = ∑ d : Fin 1024, _
  refine Finset.sum_congr rfl fun d _ => ?_
  have h0 : iblk0 V c 0 t (ix2 r d) = V c main_v0 (ix2 (((cfg0.win 2).blk t).view.emb (ix2 r e) 0) d) := by
    show V c main_v0 (((cfg0.win 0).blk t).view.emb (ix2 r d)) = _
    refine congrArg _ (funext fun a => Fin.ext ?_)
    match a with
    | ⟨0, _⟩ =>
      show win0_0.index t (0 : Fin 2) * 512 + 1 * r.val = win0_2.index t (0 : Fin 2) * 512 + 1 * r.val
      omega
    | ⟨1, _⟩ =>
      show win0_0.index t (1 : Fin 2) * 1024 + 1 * d.val = d.val
      omega
  have h1 : iblk0 V c 1 t (ix2 d e) = V c main_v4 (ix2 d (((cfg0.win 2).blk t).view.emb (ix2 r e) 1)) := by
    show V c main_v4 (((cfg0.win 1).blk t).view.emb (ix2 d e)) = _
    refine congrArg _ (funext fun a => Fin.ext ?_)
    match a with
    | ⟨0, _⟩ =>
      show win0_1.index t (0 : Fin 2) * 1024 + 1 * d.val = d.val
      omega
    | ⟨1, _⟩ =>
      show win0_1.index t (1 : Fin 2) * 1024 + 1 * e.val = win0_2.index t (1 : Fin 2) * 1024 + 1 * e.val
      omega
  rw [h0, h1]

/-- An index of the array is in point `t`'s block iff each coordinate is in the block's range on its axis. -/
theorem mem_blk0 (t : Fin cfg0.N) (i : S512x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v12).slice (win0_2.rect t)).set ↔ _
  rw [View.set_slice_whole, Rect.mem_set_unit]
  exact Iff.rfl

/-- Every index of the array is in the block of some point: row `r` in the block of index `r / 512`. -/
theorem cover0 (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := index_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The output array after all the grid points. -/
theorem final0 (c : Dev nD) : (dat0 V c).arrAt 2 cfg0.N = G0 V c :=
  (dat0 V c).arrAt_eq_of_cover 2 (G0 V c) (fun t _ => flushed0_eq V c t) cover0

/-- The same at an index. -/
theorem final0_apply (c : Dev nD) (r : Fin 512) (e : Fin 1024) :
    (dat0 V c).arrAt 2 cfg0.N (ix2 r e) = rowsByCols (V c main_v0) (V c main_v4) (ix2 r e) := by
  rw [final0]; rfl

/-! ### The output projection with bias: one grid point, the block the whole array -/

/-- The staging buffer after the body with bias at an index: the sum of products plus the bias row's entry. -/
theorem out4_3_apply (x0 : Vec Ideal S512x1024 .bf16) (x1 : Vec Ideal S1024x1024 .bf16) (x2 : Vec Ideal S1x1024 .f32)
    (r : Fin 512) (e : Fin 1024) :
    out4_3 (F := Ideal) x0 x1 x2 (ix2 r e) = (∑ d : Fin 1024, x0 (ix2 r d) * x1 (ix2 d e)) + x2 (ix2 0 e) := by
  unfold out4_3
  rw [View.canon_unit_zero zero_offsets]
  simp only [View.ld_unit_zero (S := S512x1024) zero_offsets, View.ld_unit_zero (S := S1024x1024) zero_offsets,
    View.ld_unit_zero (S := S1x1024) zero_offsets]
  exact k4_pay1_apply x0 x1 x2 r e

/-- The array the launch leaves: every row of the context against every column of the weight matrix, plus the bias. -/
def G4 (c : Dev nD) : S512x1024.Idx → Elt Ideal .f32 := rowsByColsBias (V c main_v19) (V c main_v10) (V c main_v11)

/-- The printed index maps at the one grid point: every window's block index is zero. -/
theorem index_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0)

/-- What the point writes back is the one block of `G4`. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  obtain ⟨e0, e1, e2, e3, e4, e5, e6, e7⟩ := index_facts4 t
  funext j
  obtain ⟨r, e, rfl⟩ : ∃ (r : Fin 512) (e : Fin 1024), j = ix2 r e := ⟨j 0, j 1, eq_ix2 j⟩
  show out4_3 (iblk4 V c 0 t) (iblk4 V c 1 t) (iblk4 V c 2 t) (ix2 r e) = G4 V c (((cfg4.win 3).blk t).view.emb (ix2 r e))
  rw [out4_3_apply]
  unfold G4 rowsByColsBias
  show (∑ d : Fin 1024, _) + _ = (∑ d : Fin 1024, _) + _
  have h2 : iblk4 V c 2 t (ix2 0 e) = V c main_v11 (ix2 0 (((cfg4.win 3).blk t).view.emb (ix2 r e) 1)) := by
    show V c main_v11 (((cfg4.win 2).blk t).view.emb (ix2 0 e)) = _
    refine congrArg _ (funext fun a => Fin.ext ?_)
    match a with
    | ⟨0, _⟩ =>
      show win4_2.index t (0 : Fin 2) * 1 + 1 * 0 = 0
      omega
    | ⟨1, _⟩ =>
      show win4_2.index t (1 : Fin 2) * 1024 + 1 * e.val = win4_3.index t (1 : Fin 2) * 1024 + 1 * e.val
      omega
  rw [h2]
  refine congrArg (· + _) (Finset.sum_congr rfl fun d _ => ?_)
  have h0 : iblk4 V c 0 t (ix2 r d) = V c main_v19 (ix2 (((cfg4.win 3).blk t).view.emb (ix2 r e) 0) d) := by
    show V c main_v19 (((cfg4.win 0).blk t).view.emb (ix2 r d)) = _
    refine congrArg _ (funext fun a => Fin.ext ?_)
    match a with
    | ⟨0, _⟩ =>
      show win4_0.index t (0 : Fin 2) * 512 + 1 * r.val = win4_3.index t (0 : Fin 2) * 512 + 1 * r.val
      omega
    | ⟨1, _⟩ =>
      show win4_0.index t (1 : Fin 2) * 1024 + 1 * d.val = d.val
      omega
  have h1 : iblk4 V c 1 t (ix2 d e) = V c main_v10 (ix2 d (((cfg4.win 3).blk t).view.emb (ix2 r e) 1)) := by
    show V c main_v10 (((cfg4.win 1).blk t).view.emb (ix2 d e)) = _
    refine congrArg _ (funext fun a => Fin.ext ?_)
    match a with
    | ⟨0, _⟩ =>
      show win4_1.index t (0 : Fin 2) * 1024 + 1 * d.val = d.val
      omega
    | ⟨1, _⟩ =>
      show win4_1.index t (1 : Fin 2) * 1024 + 1 * e.val = win4_3.index t (1 : Fin 2) * 1024 + 1 * e.val
      omega
  rw [h0, h1]

/-- An index of the array is in the point's block iff each coordinate is in the block's range on its axis. -/
theorem mem_blk4 (t : Fin cfg4.N) (i : S512x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v20).slice (win4_3.rect t)).set ↔ _
  rw [View.set_slice_whole, Rect.mem_set_unit]
  exact Iff.rfl

/-- Every index of the array is in the one point's block. -/
theorem cover4 (i : S512x1024.Idx) :
    ∃ t : Fin cfg4.N, (cfg4.win 3).flush t = true ∧ i ∈ ((cfg4.win 3).blk t).view.set := by
  have hi0 : (i 0).val < 512 := (i 0).isLt
  have hi1 : (i 1).val < 1024 := (i 1).isLt
  obtain ⟨e0, e1, e2, e3, e4, e5, e6, e7⟩ := index_facts4 t4_0
  refine ⟨t4_0, flush4_3 t4_0, ?_⟩
  rw [mem_blk4]
  intro a
  match a with
  | ⟨0, _⟩ =>
    show win4_3.index t4_0 (0 : Fin 2) * 512 ≤ (i 0).val ∧ (i 0).val < win4_3.index t4_0 (0 : Fin 2) * 512 + 512
    omega
  | ⟨1, _⟩ =>
    show win4_3.index t4_0 (1 : Fin 2) * 1024 ≤ (i 1).val ∧ (i 1).val < win4_3.index t4_0 (1 : Fin 2) * 1024 + 1024
    omega

/-- The output array after the one grid point. -/
theorem final4 (c : Dev nD) : (dat4 V c).arrAt 3 cfg4.N = G4 V c :=
  (dat4 V c).arrAt_eq_of_cover 3 (G4 V c) (fun t _ => flushed4_eq V c t) cover4

/-- The same at an index. -/
theorem final4_apply (c : Dev nD) (r : Fin 512) (e : Fin 1024) :
    (dat4 V c).arrAt 3 cfg4.N (ix2 r e) = rowsByColsBias (V c main_v19) (V c main_v10) (V c main_v11) (ix2 r e) := by
  rw [final4]; rfl

end Regions

end Cert.SlotAttn.ProjRegions

end
-- ==== Proof.Fold.lean ====
/-
  What the idealized kernel's two result buffers hold at the end, as functions of the arguments.

  The final contents are a fold over the launch memory: a stretch of host operations, three projection launches, a stretch
  of reshapes, the attention launch, a reshape, the output launch, a reshape.  Read backwards at the two result buffers:

  * the attention weights come out of the attention launch and nothing after it writes them;
  * the output is the reshape of the last launch's array, which is the rows of the context against the transposed output
    weights plus the bias row; the context is the attention launch's other array, reshaped; the transposed weights and
    the bias row were written by the first stretch and no launch or later stretch writes them;
  * the attention launch finds the three projection launches' arrays, reshaped to [8, rows, 1024]; each of those is
    the rows of a reshaped argument against a transposed weight matrix, both written by the first stretch and left alone
    by the launches before the one that reads them.

  A reshape between [8, n, 1024] and [8 n, 1024] pairs (b, k, e) with (n b + k, e), and a transposed matrix at (d, e) is the
  matrix at (e, d), so a row sum `∑ d, x (n b + k, d) * wT (d, e)` is the linear layer `∑ d, x (b, k, d) * w (e, d)`.
  Hence the attention launch finds the three linear layers of the arguments, its two arrays are the specification's
  attention weights and context (quotient after the sum over the keys) of those, and the output is the last linear layer
  of that context plus the bias.
-/
import proofs.«139100_j42949672960449_2_alg».proof.Proof.Gen.KernelIdeal.Frame
import proofs.«139100_j42949672960449_2_alg».proof.Proof.Spec
import proofs.«139100_j42949672960449_2_alg».proof.Proof.HostReads
import proofs.«139100_j42949672960449_2_alg».proof.Proof.AttnRegion
import proofs.«139100_j42949672960449_2_alg».proof.Proof.ProjRegions
import Idealize.ShloMosaic.Lib.ValueIdx

set_option maxRecDepth 16384

noncomputable section

open Idealize.ShloMosaic Idealize.ShloMosaic.TcCoe Idealize.ShloMosaic.ValueIdx Idealize.SL.Sem Idealize.ShloMosaic.StableHlo
open Cert.KernelIdeal Cert.KernelIdeal.Gen
open scoped BigOperators

namespace Cert.SlotAttn.Fold

open Cert.SlotAttn Cert.SlotAttn.HostReads Cert.SlotAttn.AttnRegion Cert.SlotAttn.ProjRegions

variable (m : (ℓ : Loc nD τ sig) → Buf (Elt Ideal) ℓ) (ρ : Dev nD → PrngReg) (c : Dev nD)

/-- The eight argument arrays as launched. -/
abbrev a0 : S8x64x1024.Idx → EReal := m ((c : Thread nD τ).loc main_arg0)
abbrev a1 : S8x4096x1024.Idx → EReal := m ((c : Thread nD τ).loc main_arg1)
abbrev a2 : S8x4096x1024.Idx → EReal := m ((c : Thread nD τ).loc main_arg2)
abbrev a3 : S1024x1024.Idx → EReal := m ((c : Thread nD τ).loc main_arg3)
abbrev a4 : S1024x1024.Idx → EReal := m ((c : Thread nD τ).loc main_arg4)
abbrev a5 : S1024x1024.Idx → EReal := m ((c : Thread nD τ).loc main_arg5)
abbrev a6 : S1024x1024.Idx → EReal := m ((c : Thread nD τ).loc main_arg6)
abbrev a7 : S1024.Idx → EReal := m ((c : Thread nD τ).loc main_arg7)

/-! ## The first stretch of host operations, read at the launch memory -/

theorem W1_v0 (r : Fin 512) (b : Fin 8) (k : Fin 64) (e : Fin 1024) (hr : r.val = 64 * b.val + k.val) :
    (W1 m ρ c (Proc.devRef .tc main_v0) : S512x1024.Idx → EReal) (ix2 r e) = a0 m c (ix3 b k e) :=
  hostOps0_v0 (W0 m ρ c) r b k e hr

theorem W1_v1 (r : Fin 32768) (b : Fin 8) (l : Fin 4096) (e : Fin 1024) (hr : r.val = 4096 * b.val + l.val) :
    (W1 m ρ c (Proc.devRef .tc main_v1) : S32768x1024.Idx → EReal) (ix2 r e) = a1 m c (ix3 b l e) :=
  hostOps0_v1 (W0 m ρ c) r b l e hr

theorem W1_v2 (r : Fin 32768) (b : Fin 8) (l : Fin 4096) (e : Fin 1024) (hr : r.val = 4096 * b.val + l.val) :
    (W1 m ρ c (Proc.devRef .tc main_v2) : S32768x1024.Idx → EReal) (ix2 r e) = a2 m c (ix3 b l e) :=
  hostOps0_v2 (W0 m ρ c) r b l e hr

theorem W1_v4 (d e : Fin 1024) : (W1 m ρ c (Proc.devRef .tc main_v4) : S1024x1024.Idx → EReal) (ix2 d e) = a3 m c (ix2 e d) :=
  hostOps0_v4 (W0 m ρ c) d e
theorem W1_v6 (d e : Fin 1024) : (W1 m ρ c (Proc.devRef .tc main_v6) : S1024x1024.Idx → EReal) (ix2 d e) = a4 m c (ix2 e d) :=
  hostOps0_v6 (W0 m ρ c) d e
theorem W1_v8 (d e : Fin 1024) : (W1 m ρ c (Proc.devRef .tc main_v8) : S1024x1024.Idx → EReal) (ix2 d e) = a5 m c (ix2 e d) :=
  hostOps0_v8 (W0 m ρ c) d e
theorem W1_v10 (d e : Fin 1024) : (W1 m ρ c (Proc.devRef .tc main_v10) : S1024x1024.Idx → EReal) (ix2 d e) = a6 m c (ix2 e d) :=
  hostOps0_v10 (W0 m ρ c) d e
theorem W1_v11 (e : Fin 1024) : (W1 m ρ c (Proc.devRef .tc main_v11) : S1x1024.Idx → EReal) (ix2 (0 : Fin 1) e) = a7 m c (ix1 e) :=
  hostOps0_v11 (W0 m ρ c) 0 e

/-! ## The three projection launches -/

/-- After the first launch the projected queries' buffer holds the linear layer of the query rows. -/
theorem W2_v12 (r : Fin 512) (b : Fin 8) (k : Fin 64) (e : Fin 1024) (hr : r.val = 64 * b.val + k.val) :
    (W2 m ρ c (Proc.devRef .tc main_v12) : S512x1024.Idx → EReal) (ix2 r e) = linSlots (a0 m c) (a3 m c) b k e := by
  have h : (W2 m ρ c (Proc.devRef .tc main_v12) : S512x1024.Idx → EReal) = (dat0 (V1 m ρ) c).arrAt 2 cfg0.N := W2_arr m ρ c 2
  rw [h, final0_apply (V1 m ρ) c r e, rowsByCols_apply]
  unfold linSlots
  change (_ : EReal) = _
  refine Finset.sum_congr rfl fun d _ => ?_
  exact congrArg₂ (· * ·) (W1_v0 m ρ c r b k d hr) (W1_v4 m ρ c d e)

/-- After the second launch the projected keys' buffer holds the linear layer of the key rows. -/
theorem W3_v13 (r : Fin 32768) (b : Fin 8) (l : Fin 4096) (e : Fin 1024) (hr : r.val = 4096 * b.val + l.val) :
    (W3 m ρ c (Proc.devRef .tc main_v13) : S32768x1024.Idx → EReal) (ix2 r e) = linKeys (a1 m c) (a4 m c) b l e := by
  have h : (W3 m ρ c (Proc.devRef .tc main_v13) : S32768x1024.Idx → EReal) = (dat1 (V2 m ρ) c).arrAt 2 cfg1.N := W3_arr m ρ c 2
  have e1 : (W2 m ρ c (Proc.devRef .tc main_v1) : S32768x1024.Idx → EReal) = W1 m ρ c (Proc.devRef .tc main_v1) := W2_of_ne m ρ c main_v1 (by decide)
  have e6 : (W2 m ρ c (Proc.devRef .tc main_v6) : S1024x1024.Idx → EReal) = W1 m ρ c (Proc.devRef .tc main_v6) := W2_of_ne m ρ c main_v6 (by decide)
  rw [h, final1_apply (V2 m ρ) c r e, rowsByCols_apply]
  unfold linKeys
  change (_ : EReal) = _
  refine Finset.sum_congr rfl fun d _ => ?_
  exact congrArg₂ (· * ·) ((congrFun e1 _).trans (W1_v1 m ρ c r b l d hr)) ((congrFun e6 _).trans (W1_v6 m ρ c d e))

/-- After the third launch the projected values' buffer holds the linear layer of the value rows. -/
theorem W4_v14 (r : Fin 32768) (b : Fin 8) (l : Fin 4096) (e : Fin 1024) (hr : r.val = 4096 * b.val + l.val) :
    (W4 m ρ c (Proc.devRef .tc main_v14) : S32768x1024.Idx → EReal) (ix2 r e) = linKeys (a2 m c) (a5 m c) b l e := by
  have h : (W4 m ρ c (Proc.devRef .tc main_v14) : S32768x1024.Idx → EReal) = (dat2 (V3 m ρ) c).arrAt 2 cfg2.N := W4_arr m ρ c 2
  have e2 : (W3 m ρ c (Proc.devRef .tc main_v2) : S32768x1024.Idx → EReal) = W1 m ρ c (Proc.devRef .tc main_v2) :=
    (W3_of_ne m ρ c main_v2 (by decide)).trans (W2_of_ne m ρ c main_v2 (by decide))
  have e8 : (W3 m ρ c (Proc.devRef .tc main_v8) : S1024x1024.Idx → EReal) = W1 m ρ c (Proc.devRef .tc main_v8) :=
    (W3_of_ne m ρ c main_v8 (by decide)).trans (W2_of_ne m ρ c main_v8 (by decide))
  rw [h, final2_apply (V3 m ρ) c r e, rowsByCols_apply]
  unfold linKeys
  change (_ : EReal) = _
  refine Finset.sum_congr rfl fun d _ => ?_
  exact congrArg₂ (· * ·) ((congrFun e2 _).trans (W1_v2 m ρ c r b l d hr)) ((congrFun e8 _).trans (W1_v8 m ρ c d e))

/-! ## What the attention launch finds: the three projected arrays, reshaped to [8, rows, 1024] -/

theorem qp_found : qpOf (V5 m ρ) c = linSlots (a0 m c) (a3 m c) := by
  funext b k d
  have e12 : (W4 m ρ c (Proc.devRef .tc main_v12) : S512x1024.Idx → EReal) = W2 m ρ c (Proc.devRef .tc main_v12) :=
    (W4_of_ne m ρ c main_v12 (by decide)).trans (W3_of_ne m ρ c main_v12 (by decide))
  exact (hostOps3_v15 (W4 m ρ c) ⟨64 * b.val + k.val, by omega⟩ b k d rfl).trans
    ((congrFun e12 _).trans (W2_v12 m ρ c ⟨64 * b.val + k.val, by omega⟩ b k d rfl))

theorem kp_found : kpOf (V5 m ρ) c = linKeys (a1 m c) (a4 m c) := by
  funext b l d
  have e13 : (W4 m ρ c (Proc.devRef .tc main_v13) : S32768x1024.Idx → EReal) = W3 m ρ c (Proc.devRef .tc main_v13) :=
    W4_of_ne m ρ c main_v13 (by decide)
  exact (hostOps3_v16 (W4 m ρ c) ⟨4096 * b.val + l.val, by omega⟩ b l d rfl).trans
    ((congrFun e13 _).trans (W3_v13 m ρ c ⟨4096 * b.val + l.val, by omega⟩ b l d rfl))

theorem vp_found : vpOf (V5 m ρ) c = linKeys (a2 m c) (a5 m c) := by
  funext b l d
  exact (hostOps3_v17 (W4 m ρ c) ⟨4096 * b.val + l.val, by omega⟩ b l d rfl).trans
    (W4_v14 m ρ c ⟨4096 * b.val + l.val, by omega⟩ b l d rfl)

/-! ## The attention launch's two outputs -/

theorem W6_v18_0 : (W6 m ρ c (Proc.devRef .tc main_v18_0) : S8x64x1024.Idx → EReal) = ctxArr (V5 m ρ) c :=
  (W6_arr m ρ c 3).trans (final_ctx (V5 m ρ) c)

theorem W6_v18_1 : (W6 m ρ c (Proc.devRef .tc main_v18_1) : S8x16x64x4096.Idx → EReal) = wtsArr (V5 m ρ) c :=
  (W6_arr m ρ c 4).trans (final_wts (V5 m ρ) c)

/-! ## The output weights and the bias reach the last launch as the first stretch left them -/

theorem W7_v10 : (W7 m ρ c (Proc.devRef .tc main_v10) : S1024x1024.Idx → EReal) = W1 m ρ c (Proc.devRef .tc main_v10) :=
  (hostOps4_v10 (W6 m ρ c)).trans <| (W6_of_ne m ρ c main_v10 (by decide)).trans <| (hostOps3_v10 (W4 m ρ c)).trans <|
    (W4_of_ne m ρ c main_v10 (by decide)).trans <| (W3_of_ne m ρ c main_v10 (by decide)).trans (W2_of_ne m ρ c main_v10 (by decide))

theorem W7_v11 : (W7 m ρ c (Proc.devRef .tc main_v11) : S1x1024.Idx → EReal) = W1 m ρ c (Proc.devRef .tc main_v11) :=
  (hostOps4_v11 (W6 m ρ c)).trans <| (W6_of_ne m ρ c main_v11 (by decide)).trans <| (hostOps3_v11 (W4 m ρ c)).trans <|
    (W4_of_ne m ρ c main_v11 (by decide)).trans <| (W3_of_ne m ρ c main_v11 (by decide)).trans (W2_of_ne m ρ c main_v11 (by decide))

/-! ## The two results -/

/-- THE ATTENTION WEIGHTS the kernel returns are the specification's, of the arguments as launched. -/
theorem attn_result (b : Fin 8) (h : Fin 16) (k : Fin 64) (l : Fin 4096) :
    (W9 m ρ c (Proc.devRef .tc main_v18_1) : S8x16x64x4096.Idx → EReal) (ix4 b h k l)
      = attnOf (a0 m c) (a1 m c) (a3 m c) (a4 m c) b h k l := by
  have e : (W9 m ρ c (Proc.devRef .tc main_v18_1) : S8x16x64x4096.Idx → EReal) = wtsArr (V5 m ρ) c :=
    (hostOps5_v18_1 (W8 m ρ c)).trans <| (W8_of_ne m ρ c main_v18_1 (by decide)).trans <|
      (hostOps4_v18_1 (W6 m ρ c)).trans (W6_v18_1 m ρ c)
  rw [e, wtsArr_apply (V5 m ρ) c _ b h k l rfl rfl rfl rfl, qp_found, kp_found]
  rfl

/-- THE OUTPUT the kernel returns is the specification's, with the quotient by the row sum taken after the sum over the
    keys, of the arguments as launched. -/
theorem out_result (b : Fin 8) (k : Fin 64) (e : Fin 1024) :
    (W9 m ρ c (Proc.devRef .tc main_v21) : S8x64x1024.Idx → EReal) (ix3 b k e)
      = outAfter (a0 m c) (a1 m c) (a2 m c) (a3 m c) (a4 m c) (a5 m c) (a6 m c) (a7 m c) b k e := by
  have h20 : (W8 m ρ c (Proc.devRef .tc main_v20) : S512x1024.Idx → EReal) = (dat4 (V7 m ρ) c).arrAt 3 cfg4.N := W8_arr m ρ c 3
  refine (hostOps5_v21 (W8 m ρ c) ⟨64 * b.val + k.val, by omega⟩ b k e rfl).trans ?_
  rw [h20, final4_apply (V7 m ρ) c ⟨64 * b.val + k.val, by omega⟩ e, rowsByColsBias_apply]
  unfold outAfter outLayer
  change (_ : EReal) = _
  refine congrArg₂ (· + ·) (Finset.sum_congr rfl fun d _ => congrArg₂ (· * ·) ?_ ?_) ?_
  · refine (hostOps4_v19 (W6 m ρ c) ⟨64 * b.val + k.val, by omega⟩ b k d rfl).trans ?_
    rw [W6_v18_0, ctxArr_apply (V5 m ρ) c _ b k d rfl rfl rfl, qp_found, kp_found, vp_found]
  · exact (congrFun (W7_v10 m ρ c) _).trans (W1_v10 m ρ c d e)
  · exact (congrFun (W7_v11 m ρ c) _).trans (W1_v11 m ρ c e)

end Cert.SlotAttn.Fold

end
-- ==== Proof.RefValue.lean ====
/-
  The reference computation, read one entry at a time.

  Each stage of the reference is an array; here every stage is evaluated at a single index and identified with the
  coordinate formula of the specification.  The three linear layers are reshaped so that the model axis of length
  1024 becomes sixteen heads of 64: entry (b, h, r, c) of a head-split array is column 64 h + c of row (b, r) of the
  linear layer.  The score is the inner product over a head's 64 coordinates times one eighth.  The maximum over the
  slots is a fold of max from minus infinity over the 64 slot coordinates; taking the maximum with minus infinity once
  more does not change it, because a fold of max is never below the value it starts from.  The sums over the slots and
  over the keys start from zero, so they are plain sums.  Two quotients give the softmax over the slots and its
  renormalisation over the keys, which is the second result.  The context is the renormalised weights against the
  projected values; going back from heads to the flat model axis sends column d to coordinate d % 64 of head d / 64.
  The last linear layer plus the bias is the first result.
-/
import proofs.«139100_j42949672960449_2_alg».proof.Proof.Gen.ReferenceIdeal.Read
import proofs.«139100_j42949672960449_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx
open Cert.ReferenceIdeal Cert.ReferenceIdeal.Gen Cert.ReferenceIdeal.Read

namespace Cert.SlotAttn.RefValue

variable (x0 : (⟨S8x64x1024, .f32⟩ : BufTy).Contents (Elt Ideal)) (x1 x2 : (⟨S8x4096x1024, .f32⟩ : BufTy).Contents (Elt Ideal))
  (x3 x4 x5 x6 : (⟨S1024x1024, .f32⟩ : BufTy).Contents (Elt Ideal)) (x7 : (⟨S1024, .f32⟩ : BufTy).Contents (Elt Ideal))

/-- The slot projection split into heads: entry (b, h, k, c) is column 64 h + c of row (b, k). -/
theorem slots_heads (b : Fin 8) (h : Fin 16) (k : Fin 64) (c : Fin 64) :
    val_main_v2 (F := Ideal) x0 x3 (ix4 b h k c) = linSlots x0 x3 b k (headCol h c) := by
  rw [val_main_v2_apply, val_main_v1_apply, val_main_v0_apply]
  unfold linSlots
  refine Finset.sum_congr rfl fun d _ => ?_
  have hb := b.isLt; have hh := h.isLt; have hk := k.isLt; have hc := c.isLt
  have e1 : lidx_main_v0 (idx_main_v1 (idx_main_v2 (ix4 b h k c))) d = ix3 b k d := funext fun a => Fin.ext (by
    match a with
    | ⟨0, _⟩ => show (((b.val * 64 + k.val) * 16 + h.val) * 64 + c.val) / 65536 = b.val; omega
    | ⟨1, _⟩ => show (((b.val * 64 + k.val) * 16 + h.val) * 64 + c.val) / 1024 % 64 = k.val; omega
    | ⟨2, _⟩ => rfl)
  have e2 : ridx_main_v0 (idx_main_v1 (idx_main_v2 (ix4 b h k c))) d = ix2 (headCol h c) d := funext fun a => Fin.ext (by
    match a with
    | ⟨0, _⟩ => show (((b.val * 64 + k.val) * 16 + h.val) * 64 + c.val) % 1024 = 64 * h.val + c.val; omega
    | ⟨1, _⟩ => rfl)
  rw [e1, e2]

/-- A key-side projection split into heads: entry (b, h, l, c) is column 64 h + c of row (b, l). -/
theorem keys_heads (b : Fin 8) (h : Fin 16) (l : Fin 4096) (c : Fin 64) :
    val_main_v5 (F := Ideal) x1 x4 (ix4 b h l c) = linKeys x1 x4 b l (headCol h c) := by
  rw [val_main_v5_apply, val_main_v4_apply, val_main_v3_apply]
  unfold linKeys
  refine Finset.sum_congr rfl fun d _ => ?_
  have hb := b.isLt; have hh := h.isLt; have hl := l.isLt; have hc := c.isLt
  have e1 : lidx_main_v3 (idx_main_v4 (idx_main_v5 (ix4 b h l c))) d = ix3 b l d := funext fun a => Fin.ext (by
    match a with
    | ⟨0, _⟩ => show (((b.val * 4096 + l.val) * 16 + h.val) * 64 + c.val) / 4194304 = b.val; omega
    | ⟨1, _⟩ => show (((b.val * 4096 + l.val) * 16 + h.val) * 64 + c.val) / 1024 % 4096 = l.val; omega
    | ⟨2, _⟩ => rfl)
  have e2 : ridx_main_v3 (idx_main_v4 (idx_main_v5 (ix4 b h l c))) d = ix2 (headCol h c) d := funext fun a => Fin.ext (by
    match a with
    | ⟨0, _⟩ => show (((b.val * 4096 + l.val) * 16 + h.val) * 64 + c.val) % 1024 = 64 * h.val + c.val; omega
    | ⟨1, _⟩ => rfl)
  rw [e1, e2]

theorem vals_heads (b : Fin 8) (h : Fin 16) (l : Fin 4096) (c : Fin 64) :
    val_main_v8 (F := Ideal) x2 x5 (ix4 b h l c) = linKeys x2 x5 b l (headCol h c) := by
  rw [val_main_v8_apply, val_main_v7_apply, val_main_v6_apply]
  unfold linKeys
  refine Finset.sum_congr rfl fun d _ => ?_
  have hb := b.isLt; have hh := h.isLt; have hl := l.isLt; have hc := c.isLt
  have e1 : lidx_main_v6 (idx_main_v7 (idx_main_v8 (ix4 b h l c))) d = ix3 b l d := funext fun a => Fin.ext (by
    match a with
    | ⟨0, _⟩ => show (((b.val * 4096 + l.val) * 16 + h.val) * 64 + c.val) / 4194304 = b.val; omega
    | ⟨1, _⟩ => show (((b.val * 4096 + l.val) * 16 + h.val) * 64 + c.val) / 1024 % 4096 = l.val; omega
    | ⟨2, _⟩ => rfl)
  have e2 : ridx_main_v6 (idx_main_v7 (idx_main_v8 (ix4 b h l c))) d = ix2 (headCol h c) d := funext fun a => Fin.ext (by
    match a with
    | ⟨0, _⟩ => show (((b.val * 4096 + l.val) * 16 + h.val) * 64 + c.val) % 1024 = 64 * h.val + c.val; omega
    | ⟨1, _⟩ => rfl)
  rw [e1, e2]

/-- The scaled score: the inner product over a head's 64 coordinates, times one eighth. -/
theorem score_apply (b : Fin 8) (h : Fin 16) (k : Fin 64) (l : Fin 4096) :
    val_main_v11 (F := Ideal) x0 x1 x3 x4 (ix4 b h k l) = score (linSlots x0 x3) (linKeys x1 x4) b h k l := by
  rw [val_main_v11_apply, val_main_v9_apply, val_main_v10_apply, val_main_cst_apply]
  unfold score eighth
  rw [Ideal.mulf_def, Ideal.ofBits_def]
  congr 1
  refine Finset.sum_congr rfl fun c _ => ?_
  have e1 : lidx_main_v9 (ix4 b h k l) c = ix4 b h k c := funext fun a => Fin.ext (by
    match a with | ⟨0, _⟩ => rfl | ⟨1, _⟩ => rfl | ⟨2, _⟩ => rfl | ⟨3, _⟩ => rfl)
  have e2 : ridx_main_v9 (ix4 b h k l) c = ix4 b h l c := funext fun a => Fin.ext (by
    match a with | ⟨0, _⟩ => rfl | ⟨1, _⟩ => rfl | ⟨2, _⟩ => rfl | ⟨3, _⟩ => rfl)
  rw [e1, e2, slots_heads, keys_heads]

/-- The maximum over the slot axis, read at an index: the fold of max from the initial value over the 64 slots. -/
theorem max_reduce_apply (b : Fin 8) (h : Fin 16) (l : Fin 4096) :
    val_main_v12 (F := Ideal) x0 x1 x3 x4 (ix3 b h l) = colMax (linSlots x0 x3) (linKeys x1 x4) b h l := by
  unfold val_main_v12
  have hR : S8x16x64x4096.Reduces [2] S8x16x4096 := by decide
  rw [Host.reduce_eq_fold_single FloatOps.maximumf _ _ reducesTo_S8x16x64x4096_S8x16x4096_d2 hR h_S_ (ix3 b h l)]
  unfold colMax negInf
  show (Finset.univ : Finset (Fin 64)).fold max (Ideal.ofBits .f32 0xFF800000#32)
      (fun k : Fin 64 => val_main_v11 (F := Ideal) x0 x1 x3 x4 (hR.lift (ix3 b h l) k)) = _
  refine Finset.fold_congr fun k _ => ?_
  rw [← score_apply]
  exact congrArg _ (funext fun a => Fin.ext (by
    match a with | ⟨0, _⟩ => rfl | ⟨1, _⟩ => rfl | ⟨2, _⟩ => rfl | ⟨3, _⟩ => rfl))

/-- Taking the maximum once more with the fold's own initial value changes nothing. -/
theorem col_max_apply (b : Fin 8) (h : Fin 16) (l : Fin 4096) :
    val_main_v14 (F := Ideal) x0 x1 x3 x4 (ix3 b h l) = colMax (linSlots x0 x3) (linKeys x1 x4) b h l := by
  rw [val_main_v14_apply, val_main_v13_apply, val_main_cst_1_apply, max_reduce_apply, Ideal.maximumf_def, Ideal.ofBits_def]
  refine max_eq_right ?_
  unfold colMax negInf
  exact (Finset.le_fold_max _).2 (Or.inl le_rfl)

theorem expo_apply (b : Fin 8) (h : Fin 16) (k : Fin 64) (l : Fin 4096) :
    val_main_v18 (F := Ideal) x0 x1 x3 x4 (ix4 b h k l) = expo (linSlots x0 x3) (linKeys x1 x4) b h k l := by
  rw [val_main_v18_apply, val_main_v17_apply, val_main_v16_apply, val_main_v15_apply, score_apply]
  have e : idx_main_v15 (idx_main_v16 (ix4 b h k l)) = ix3 b h l := funext fun a => Fin.ext (by
    match a with | ⟨0, _⟩ => rfl | ⟨1, _⟩ => rfl | ⟨2, _⟩ => rfl)
  rw [e, col_max_apply, Ideal.hostUnary_exp_def, Ideal.subf_def]
  rfl

theorem col_sum_apply (b : Fin 8) (h : Fin 16) (l : Fin 4096) :
    val_main_v19 (F := Ideal) x0 x1 x3 x4 (ix3 b h l) = colSum (linSlots x0 x3) (linKeys x1 x4) b h l := by
  rw [val_main_v19_apply, val_main_cst_2_apply, Ideal.ofBits_def, Ideal.ofBits_zero_f32, zero_add]
  unfold colSum
  refine Finset.sum_congr rfl fun k _ => ?_
  rw [← expo_apply]
  exact congrArg _ (funext fun a => Fin.ext (by
    match a with | ⟨0, _⟩ => rfl | ⟨1, _⟩ => rfl | ⟨2, _⟩ => rfl | ⟨3, _⟩ => rfl))

theorem soft_apply (b : Fin 8) (h : Fin 16) (k : Fin 64) (l : Fin 4096) :
    val_main_v22 (F := Ideal) x0 x1 x3 x4 (ix4 b h k l) = soft (linSlots x0 x3) (linKeys x1 x4) b h k l := by
  rw [val_main_v22_apply, val_main_v21_apply, val_main_v20_apply, expo_apply]
  have e : idx_main_v20 (idx_main_v21 (ix4 b h k l)) = ix3 b h l := funext fun a => Fin.ext (by
    match a with | ⟨0, _⟩ => rfl | ⟨1, _⟩ => rfl | ⟨2, _⟩ => rfl)
  rw [e, col_sum_apply, Ideal.hostDivf_def]
  rfl

/-- A slot's sum of softmax weights over the keys, plus the small constant. -/
theorem row_sum_apply (b : Fin 8) (h : Fin 16) (k : Fin 64) (z : Fin 1) :
    val_main_v26 (F := Ideal) x0 x1 x3 x4 (ix4 b h k z) = rowSum (linSlots x0 x3) (linKeys x1 x4) b h k := by
  rw [val_main_v26_apply, val_main_v24_apply, val_main_v25_apply, val_main_cst_4_apply, val_main_v23_apply,
    val_main_cst_3_apply, Ideal.addf_def, Ideal.ofBits_def, Ideal.ofBits_def, Ideal.ofBits_zero_f32, zero_add]
  unfold rowSum tiny
  congr 1
  refine Finset.sum_congr rfl fun l _ => ?_
  rw [← soft_apply]
  exact congrArg _ (funext fun a => Fin.ext (by
    match a with | ⟨0, _⟩ => rfl | ⟨1, _⟩ => rfl | ⟨2, _⟩ => rfl | ⟨3, _⟩ => rfl))

/-- The second result read at an index: the attention weights. -/
theorem attn_apply (b : Fin 8) (h : Fin 16) (k : Fin 64) (l : Fin 4096) :
    val_main_v28 (F := Ideal) x0 x1 x3 x4 (ix4 b h k l) = attnOf x0 x1 x3 x4 b h k l := by
  rw [val_main_v28_apply, val_main_v27_apply, soft_apply]
  have e : idx_main_v27 (ix4 b h k l) = ix4 b h k (0 : Fin 1) := funext fun a => Fin.ext (by
    match a with | ⟨0, _⟩ => rfl | ⟨1, _⟩ => rfl | ⟨2, _⟩ => rfl | ⟨3, _⟩ => rfl)
  rw [e, row_sum_apply, Ideal.hostDivf_def]
  rfl

/-- The context inside a head: the weights against the projected values, summed over the keys. -/
theorem ctx_heads (b : Fin 8) (h : Fin 16) (k : Fin 64) (c : Fin 64) :
    val_main_v29 (F := Ideal) x0 x1 x2 x3 x4 x5 (ix4 b h k c)
      = ∑ l : Fin 4096, weights (linSlots x0 x3) (linKeys x1 x4) b h k l * linKeys x2 x5 b l (headCol h c) := by
  rw [val_main_v29_apply]
  refine Finset.sum_congr rfl fun l _ => ?_
  have e1 : lidx_main_v29 (ix4 b h k c) l = ix4 b h k l := funext fun a => Fin.ext (by
    match a with | ⟨0, _⟩ => rfl | ⟨1, _⟩ => rfl | ⟨2, _⟩ => rfl | ⟨3, _⟩ => rfl)
  have e2 : ridx_main_v29 (ix4 b h k c) l = ix4 b h l c := funext fun a => Fin.ext (by
    match a with | ⟨0, _⟩ => rfl | ⟨1, _⟩ => rfl | ⟨2, _⟩ => rfl | ⟨3, _⟩ => rfl)
  rw [e1, e2, attn_apply, vals_heads]
  rfl

/-- The context back on the flat model axis: column d is coordinate d % 64 of head d / 64. -/
theorem ctx_apply (b : Fin 8) (k : Fin 64) (d : Fin 1024) :
    val_main_v31 (F := Ideal) x0 x1 x2 x3 x4 x5 (ix3 b k d)
      = ctxBefore (linSlots x0 x3) (linKeys x1 x4) (linKeys x2 x5) b k d := by
  rw [val_main_v31_apply, val_main_v30_apply]
  have hb := b.isLt; have hk := k.isLt; have hd := d.isLt
  have e : idx_main_v30 (idx_main_v31 (ix3 b k d)) = ix4 b (colHead d) k (colCoord d) := funext fun a => Fin.ext (by
    match a with
    | ⟨0, _⟩ => show ((b.val * 64 + k.val) * 1024 + d.val) / 65536 = b.val; omega
    | ⟨1, _⟩ => show ((b.val * 64 + k.val) * 1024 + d.val) / 64 % 16 = d.val / 64; omega
    | ⟨2, _⟩ => show ((b.val * 64 + k.val) * 1024 + d.val) / 1024 % 64 = k.val; omega
    | ⟨3, _⟩ => show ((b.val * 64 + k.val) * 1024 + d.val) % 64 = d.val % 64; omega)
  rw [e, ctx_heads, headCol_colHead_colCoord]
  rfl

/-- The first result read at an index: the last linear layer of the context, plus the bias. -/
theorem out_apply (b : Fin 8) (k : Fin 64) (e : Fin 1024) :
    val_main_v35 (F := Ideal) x0 x1 x2 x3 x4 x5 x6 x7 (ix3 b k e) = outBefore x0 x1 x2 x3 x4 x5 x6 x7 b k e := by
  rw [val_main_v35_apply, val_main_v32_apply, val_main_v34_apply, val_main_v33_apply, Ideal.addf_def]
  unfold outBefore outLayer
  have eb : idx_main_v33 (idx_main_v34 (ix3 b k e)) = ix1 e := funext fun a => Fin.ext (by
    match a with | ⟨0, _⟩ => rfl)
  rw [eb]
  congr 1
  refine Finset.sum_congr rfl fun d _ => ?_
  have e1 : lidx_main_v32 (ix3 b k e) d = ix3 b k d := funext fun a => Fin.ext (by
    match a with | ⟨0, _⟩ => rfl | ⟨1, _⟩ => rfl | ⟨2, _⟩ => rfl)
  have e2 : ridx_main_v32 (ix3 b k e) d = ix2 e d := funext fun a => Fin.ext (by
    match a with | ⟨0, _⟩ => rfl | ⟨1, _⟩ => rfl)
  rw [e1, e2, ctx_apply]

end Cert.SlotAttn.RefValue

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.RealAlgebra.lean ====
/-
  The one algebraic law of slot attention over the extended reals.

  On the extended reals a quotient does not distribute over a sum in general: an infinite entry or a zero divisor
  breaks it. It does when every entry is the coercion of a real number and the divisor is a nonzero real. This module
  follows the computation by coordinates and shows that, for real queries, keys, values and projection matrices, every
  intermediate value is real: the projected rows, the scores, the column maxima; the exponentials and their column sums
  are positive reals; the softmax weights are nonnegative reals; the row sums (a nonnegative sum plus a positive
  constant) are positive reals, in particular nonzero. The two arrangements of the context, the quotient by the row sum
  taken after or before the sum over the keys, are then the same real number, and so are the two outputs.
-/
import proofs.«139100_j42949672960449_2_alg».proof.Proof.Spec
import proofs.«139100_j42949672960449_2_alg».proof.Proof.LibRealSums

noncomputable section

open scoped BigOperators
open Idealize.ShloMosaic Idealize.ShloMosaic.ValueIdx LibRealSums

namespace Cert.SlotAttn.RealAlgebra

/-! ## The three literals -/

/-- The word of minus infinity denotes `⊥`: sign set, exponent all ones, significand zero. -/
theorem negInf_eq : negInf = ⊥ := by
  simp [negInf, Ideal.ofBits, Ideal.ieee]

/-- The scale is the real number one eighth: exponent field 124, significand zero, `2 ^ (124 - 127) = 1 / 8`. -/
theorem eighth_eq : eighth = ((1 / 8 : ℝ) : EReal) := by
  simp [eighth, Ideal.ofBits, Ideal.ieee, -EReal.coe_mul]
  norm_num

theorem eighth_real : IsReal eighth := ⟨1 / 8, eighth_eq⟩

/-- The small constant is a positive real: a normal number with the sign clear, exponent field 100 and
    significand field 2870391, that is `(2 ^ 23 + 2870391) * 2 ^ (100 - 127 - 23)`. -/
theorem tiny_pos : ∃ t : ℝ, 0 < t ∧ tiny = (t : EReal) := by
  refine ⟨((2 ^ 23 + 2870391 : ℕ) : ℝ) * (2 : ℝ) ^ ((100 : ℤ) - 127 - 23), by positivity, ?_⟩
  simp [tiny, Ideal.ofBits, Ideal.ieee, -EReal.coe_mul]

/-! ## Positive and nonnegative reals inside the extended reals -/

/-- An extended real is *positive real* when it is the coercion of a real number greater than zero. -/
def IsPos (x : EReal) : Prop := ∃ r : ℝ, 0 < r ∧ x = (r : EReal)

/-- An extended real is *nonnegative real* when it is the coercion of a real number at least zero. -/
def IsNonneg (x : EReal) : Prop := ∃ r : ℝ, 0 ≤ r ∧ x = (r : EReal)

theorem IsPos.isReal {x : EReal} (h : IsPos x) : IsReal x := by
  obtain ⟨r, _, rfl⟩ := h; exact ⟨r, rfl⟩

theorem IsNonneg.isReal {x : EReal} (h : IsNonneg x) : IsReal x := by
  obtain ⟨r, _, rfl⟩ := h; exact ⟨r, rfl⟩

/-- A sum of positive reals over a nonempty index type is a positive real. -/
theorem isPos_sum {ι : Type*} [Fintype ι] [Nonempty ι] (f : ι → EReal) (h : ∀ i, IsPos (f i)) :
    IsPos (∑ i, f i) := by
  choose r hr he using h
  refine ⟨∑ i, r i, Finset.sum_pos (fun i _ => hr i) Finset.univ_nonempty, ?_⟩
  rw [coe_sum_univ]
  exact Finset.sum_congr rfl fun i _ => he i

/-- A sum of nonnegative reals is a nonnegative real. -/
theorem isNonneg_sum {ι : Type*} [Fintype ι] (f : ι → EReal) (h : ∀ i, IsNonneg (f i)) :
    IsNonneg (∑ i, f i) := by
  choose r hr he using h
  refine ⟨∑ i, r i, Finset.sum_nonneg (fun i _ => hr i), ?_⟩
  rw [coe_sum_univ]
  exact Finset.sum_congr rfl fun i _ => he i

/-- The fold of `max` from `⊥` over a nonempty finite family of reals is real: at every step the running value
    is either still `⊥` (only before the first element) or the maximum of two reals. -/
theorem isReal_fold_max {ι : Type*} [DecidableEq ι] (f : ι → EReal) (hf : ∀ i, IsReal (f i)) (s : Finset ι)
    (hs : s.Nonempty) : IsReal (s.fold max ⊥ f) := by
  induction s using Finset.induction_on with
  | empty => exact absurd hs Finset.not_nonempty_empty
  | insert a s ha ih =>
    rw [Finset.fold_insert ha]
    rcases s.eq_empty_or_nonempty with h0 | h1
    · subst h0
      rw [Finset.fold_empty, max_eq_left bot_le]
      exact hf a
    · exact (hf a).max (ih h1)

/-! ## The linear layers -/

/-- A linear layer of real rows with real weights has real entries. -/
theorem linSlots_real {x : (⟨3, ![8, 64, 1024]⟩ : Shape).Idx → EReal} {w : (⟨2, ![1024, 1024]⟩ : Shape).Idx → EReal}
    (hx : ∀ i, IsReal (x i)) (hw : ∀ i, IsReal (w i)) (b : Fin 8) (k : Fin 64) (e : Fin 1024) :
    IsReal (linSlots x w b k e) :=
  IsReal.sum_univ _ fun _ => (hx _).mul (hw _)

theorem linKeys_real {x : (⟨3, ![8, 4096, 1024]⟩ : Shape).Idx → EReal} {w : (⟨2, ![1024, 1024]⟩ : Shape).Idx → EReal}
    (hx : ∀ i, IsReal (x i)) (hw : ∀ i, IsReal (w i)) (b : Fin 8) (l : Fin 4096) (e : Fin 1024) :
    IsReal (linKeys x w b l e) :=
  IsReal.sum_univ _ fun _ => (hx _).mul (hw _)

/-! ## The scores, the softmax over the slots and the row sums, for real projected rows -/

section Scores

variable {qp : Fin 8 → Fin 64 → Fin 1024 → EReal} {kp vp : Fin 8 → Fin 4096 → Fin 1024 → EReal}
  (hqp : ∀ b k d, IsReal (qp b k d)) (hkp : ∀ b l d, IsReal (kp b l d))

include hqp hkp

/-- A score is real: a finite sum of products of reals, times a real. -/
theorem score_real (b : Fin 8) (h : Fin 16) (k : Fin 64) (l : Fin 4096) : IsReal (score qp kp b h k l) :=
  (IsReal.sum_univ _ fun _ => (hqp _ _ _).mul (hkp _ _ _)).mul eighth_real

/-- A column maximum is real: the maximum of 64 reals. -/
theorem colMax_real (b : Fin 8) (h : Fin 16) (l : Fin 4096) : IsReal (colMax qp kp b h l) := by
  unfold colMax
  rw [negInf_eq]
  exact isReal_fold_max _ (fun k => score_real hqp hkp b h k l) _ Finset.univ_nonempty

/-- An exponential of a real score less a real maximum is a positive real. -/
theorem expo_pos (b : Fin 8) (h : Fin 16) (k : Fin 64) (l : Fin 4096) : IsPos (expo qp kp b h k l) := by
  obtain ⟨a, ha⟩ := score_real hqp hkp b h k l
  obtain ⟨m, hm⟩ := colMax_real hqp hkp b h l
  refine ⟨Real.exp (a - m), Real.exp_pos _, ?_⟩
  unfold expo
  rw [ha, hm, ← EReal.coe_sub, Ideal.exp_coe]

/-- A column sum is a positive real: 64 positive terms. -/
theorem colSum_pos (b : Fin 8) (h : Fin 16) (l : Fin 4096) : IsPos (colSum qp kp b h l) :=
  isPos_sum _ fun k => expo_pos hqp hkp b h k l

/-- A softmax weight is a nonnegative real: a positive real over a positive real. -/
theorem soft_nonneg (b : Fin 8) (h : Fin 16) (k : Fin 64) (l : Fin 4096) : IsNonneg (soft qp kp b h k l) := by
  obtain ⟨x, hx, hxe⟩ := expo_pos hqp hkp b h k l
  obtain ⟨c, hc, hce⟩ := colSum_pos hqp hkp b h l
  refine ⟨x / c, (div_pos hx hc).le, ?_⟩
  unfold soft
  rw [hxe, hce, div_coe_coe _ hc.ne']

/-- A row sum is a positive real: a nonnegative sum plus a positive constant. -/
theorem rowSum_pos (b : Fin 8) (h : Fin 16) (k : Fin 64) : IsPos (rowSum qp kp b h k) := by
  obtain ⟨a, ha, hae⟩ := isNonneg_sum _ fun l => soft_nonneg hqp hkp b h k l
  obtain ⟨t, ht, hte⟩ := tiny_pos
  refine ⟨a + t, by positivity, ?_⟩
  unfold rowSum
  rw [hae, hte, EReal.coe_add]

/-- The two arrangements of the context agree for real entries: with `s` the (nonzero, real) row sum,
    `(∑ l, a l * v l) / s = ∑ l, (a l / s) * v l` in the reals. -/
theorem ctxAfter_eq_ctxBefore (hvp : ∀ b l d, IsReal (vp b l d)) (b : Fin 8) (k : Fin 64) (d : Fin 1024) :
    ctxAfter qp kp vp b k d = ctxBefore qp kp vp b k d := by
  obtain ⟨s, hs, hse⟩ := rowSum_pos hqp hkp b (colHead d) k
  choose a _ hae using fun l => soft_nonneg hqp hkp b (colHead d) k l
  choose v hve using fun l => hvp b l d
  unfold ctxAfter ctxBefore weights
  simp only [hse, hae, hve, ← EReal.coe_mul, ← coe_sum_univ, div_coe_coe _ hs.ne']
  rw [Finset.sum_div]
  exact congrArg _ (Finset.sum_congr rfl fun l _ => by ring)

end Scores

/-! ## The whole computation -/

/-- The output is the same function of the context in both arrangements, and the contexts agree when the
    queries, keys, values and the three projection matrices are real. -/
theorem outAfter_eq_outBefore
    {q : (⟨3, ![8, 64, 1024]⟩ : Shape).Idx → EReal} {ky va : (⟨3, ![8, 4096, 1024]⟩ : Shape).Idx → EReal}
    {wq wk wv wo : (⟨2, ![1024, 1024]⟩ : Shape).Idx → EReal} {bo : (⟨1, ![1024]⟩ : Shape).Idx → EReal}
    (hq : ∀ i, IsReal (q i)) (hk : ∀ i, IsReal (ky i)) (hv : ∀ i, IsReal (va i))
    (hwq : ∀ i, IsReal (wq i)) (hwk : ∀ i, IsReal (wk i)) (hwv : ∀ i, IsReal (wv i))
    (b : Fin 8) (k : Fin 64) (e : Fin 1024) :
    outAfter q ky va wq wk wv wo bo b k e = outBefore q ky va wq wk wv wo bo b k e := by
  unfold outAfter outBefore outLayer
  congr 1
  refine Finset.sum_congr rfl fun d _ => ?_
  rw [ctxAfter_eq_ctxBefore (linSlots_real hq hwq) (linKeys_real hk hwk) (linKeys_real hv hwv) b k d]

end Cert.SlotAttn.RealAlgebra

end
-- ==== Proof.FiniteInputs.lean ====
/-
  From the precondition to real-valued inputs.

  The precondition takes, for each of the eight float arguments x, the conjunction over all entries of the bit
  |x| < +∞, and then the conjunction of the eight results; the claim assumes that the outcome is the bit 1.
  A conjunction of bits is 1 only when each of them is 1, so each of the eight conjunctions over the entries is 1, and a
  conjunction over all entries that is 1 had the bit 1 at every entry. Over the extended reals |x| is max x (-x),
  which is +∞ at both infinities; so max x (-x) < +∞ excludes x = +∞ and x = -∞, and what is left is a real number.
-/
import proofs.«139100_j42949672960449_2_alg».proof.Pre_finite_inputs
import proofs.«139100_j42949672960449_2_alg».proof.Proof.LibRealSums
import Idealize.ShloMosaic.Lib.ReduceAll
import Idealize.ShloMosaic.Lib.ValueIdx

noncomputable section

namespace Cert.SlotAttn.FiniteInputs

open Idealize.ShloMosaic
open LibRealSums (IsReal)

/-- The f32 pattern 0x7F800000 denotes +∞. -/
theorem inf_pattern : Ideal.ofBits .f32 0x7F800000#32 = (⊤ : EReal) := by simp [Ideal.ofBits, Ideal.ieee]

/-- An extended real x with max x (-x) strictly below +∞ is a real number: at x = +∞ the maximum is +∞ through its
    first operand, at x = -∞ through its second (-(-∞) = +∞), and +∞ < +∞ is false. -/
theorem isReal_of_abs_lt_top (x : EReal)
    (h : Ideal.cmp .olt (max x (-x)) (Ideal.ofBits .f32 0x7F800000#32) = 1#1) : IsReal x := by
  rw [inf_pattern] at h
  induction x using EReal.rec with
  | bot => simp [Ideal.cmp] at h
  | coe r => exact ⟨r, rfl⟩
  | top => simp [Ideal.cmp] at h

/-- One argument, any shape: if the conjunction over all entries of the bit |a i| < +∞ (the bound broadcast from a
    scalar constant, the conjunction started from 1 and taken into the scalar shape) is 1, every entry of a is real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (j : Cert.Pre_finite_inputs.S_.Idx)
    (e : Host.reduce IntOp.andi
          (cmpf .olt (Host.absf a) (broadcastInDim s ![] hb (constant Cert.Pre_finite_inputs.S_ .f32 0x7F800000#32)))
          (constantI Cert.Pre_finite_inputs.S_ 1 1#1) hr hu j = 1#1) :
    ∀ i, IsReal (a i) := by
  intro i
  -- the scalar shape has no axes, so it has exactly one index: every entry of the operand is folded into it
  haveI : Subsingleton Cert.Pre_finite_inputs.S_.Idx := ⟨fun p q => funext fun d => d.elim0⟩
  -- the bit at entry i is 1; it is the comparison max (a i) (-(a i)) < (the pattern of +∞), by unfolding
  have hi := Host.reduce_andi_all _ _ hr hu j e i
  exact isReal_of_abs_lt_top (a i) hi

/-- The precondition gives: every entry of each of the eight arguments is a real number. -/
theorem real_of_pre [hP : Cert.Pre_finite_inputs.Facts]
    (a0 : FVec Ideal Cert.Pre_finite_inputs.S8x64x1024 .f32) (a1 a2 : FVec Ideal Cert.Pre_finite_inputs.S8x4096x1024 .f32)
    (a3 a4 a5 a6 : FVec Ideal Cert.Pre_finite_inputs.S1024x1024 .f32) (a7 : FVec Ideal Cert.Pre_finite_inputs.S1024 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i)) := by
  -- the result is one bit; read it at the scalar shape's index
  have e := congrFun h ValueIdx.ix0
  -- unfold the chain: a left-nested conjunction of eight bits, one per argument
  dsimp only [Cert.Pre_finite_inputs.fn, Cert.Pre_finite_inputs.fn_part1, Cert.Pre_finite_inputs.fn_part2, andi] at e
  -- a conjunction of two bits is 1 exactly when both are
  simp only [IntOp.andi_eq_one] at e
  obtain ⟨⟨⟨⟨⟨⟨⟨e0, e1⟩, e2⟩, e3⟩, e4⟩, e5⟩, e6⟩, e7⟩ := e
  exact ⟨all_real _ _ _ a0 _ e0, all_real _ _ _ a1 _ e1, all_real _ _ _ a2 _ e2, all_real _ _ _ a3 _ e3,
    all_real _ _ _ a4 _ e4, all_real _ _ _ a5 _ e5, all_real _ _ _ a6 _ e6, all_real _ _ _ a7 _ e7⟩

end Cert.SlotAttn.FiniteInputs

end
-- ==== Proof.lean ====
/-
  A slot-attention kernel and its jnp reference compute the same two arrays over the extended reals.

  Both programs take a query array [8, 64, 1024], key and value arrays [8, 4096, 1024], four weight matrices and a bias.
  Both project the three arrays by linear layers, split the 1024 columns into sixteen heads of 64, score every slot against
  every key (an eighth of the inner product within the head), normalise the scores over the SLOTS by a softmax, renormalise
  over the KEYS by the row sum plus a small constant, take the weighted sum of the projected values, and apply a last linear
  layer with its bias.  They return that output and the renormalised attention weights.

  The kernel does this in five launches among reshapes and transposes: three projections, the attention itself two heads at
  a time, and the output projection.  Read at the exact values (no rounding, a change of float format the identity) each
  launch's array is one function of what it finds, and the reshapes and transposes only re-index; so the kernel's two results
  are the specification's functions of its arguments (Proof/Fold.lean, over Proof/AttnRegion.lean, Proof/ProjRegions.lean,
  Proof/KernelPayloads.lean and Proof/HostReads.lean).  The reference's operations, read one at a time, give the same
  functions (Proof/RefValue.lean) except at one place: the kernel divides the weighted sum of the values by the row sum, the
  reference divides every weight by it first.  On the extended reals a quotient distributes over a sum only away from the
  infinities and from a zero divisor.  The precondition says every input is finite, so every entry met on the way is a real
  number: sums of products of reals, a maximum of finitely many reals, exponentials (positive), a sum of 64 positive numbers
  (positive, so the softmax is a real in [0, 1]), and the row sum, a sum of nonnegative reals plus a positive constant, is a
  positive real.  There the two arrangements agree (Proof/RealAlgebra.lean, with Proof/FiniteInputs.lean for the
  precondition), and so do the two programs.

  The three frame claims are the generated frame certificates of the kernel at both instances and the reference's generated
  run with its results dropped; the idealization rewrote no operation, so there is nothing to preserve.
-/
import proofs.«139100_j42949672960449_2_alg».proof.Defs
import proofs.«139100_j42949672960449_2_alg».proof.Proof.Gen.Kernel
import proofs.«139100_j42949672960449_2_alg».proof.Proof.Gen.Kernel.Skeleton
import proofs.«139100_j42949672960449_2_alg».proof.Proof.Gen.Kernel.Launch
import proofs.«139100_j42949672960449_2_alg».proof.Proof.Gen.Kernel.Points
import proofs.«139100_j42949672960449_2_alg».proof.Proof.Gen.Kernel.Frame
import proofs.«139100_j42949672960449_2_alg».proof.Proof.Gen.KernelIdeal
import proofs.«139100_j42949672960449_2_alg».proof.Proof.Gen.KernelIdeal.Skeleton
import proofs.«139100_j42949672960449_2_alg».proof.Proof.Gen.KernelIdeal.Launch
import proofs.«139100_j42949672960449_2_alg».proof.Proof.Gen.KernelIdeal.Points
import proofs.«139100_j42949672960449_2_alg».proof.Proof.Gen.KernelIdeal.Frame
import proofs.«139100_j42949672960449_2_alg».proof.Proof.Gen.ReferenceIdeal
import proofs.«139100_j42949672960449_2_alg».proof.Proof.Gen.ReferenceIdeal.Run
import proofs.«139100_j42949672960449_2_alg».proof.Proof.Gen.ReferenceIdeal.Read
import proofs.«139100_j42949672960449_2_alg».proof.Proof.Gen.Pre_finite_inputs
import proofs.«139100_j42949672960449_2_alg».proof.Proof.KernelRun
import proofs.«139100_j42949672960449_2_alg».proof.Proof.Fold
import proofs.«139100_j42949672960449_2_alg».proof.Proof.RefValue
import proofs.«139100_j42949672960449_2_alg».proof.Proof.RealAlgebra
import proofs.«139100_j42949672960449_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, finite ones, the two idealized programs end with the same output and the
    same attention weights: the kernel's are the specification's with the quotient by the row sum after the sum over the
    keys, the reference's the specification's with it before, and on real entries with a positive row sum these agree. -/
theorem algebraic : Cert.algebraic_KernelIdeal_ReferenceIdeal := by
  intro m ρ m' ρ' hpre hagree
  refine ⟨fun c => Cert.KernelIdeal.Gen.W9 m ρ c (Proc.devRef .tc Cert.KernelIdeal.main_v21),
    fun c => Cert.KernelIdeal.Gen.W9 m ρ c (Proc.devRef .tc Cert.KernelIdeal.main_v18_1),
    Cert.KernelIdeal.Results.run m ρ, ?_⟩
  refine (θ_run Cert.ReferenceIdeal.defs _ _).mono (fun r h c => ⟨?_, ?_, (h c).2.2⟩)
    (Cert.ReferenceIdeal.Value.run (F := Ideal) m' ρ')
  · obtain ⟨g0, g1, g2, g3, g4, g5, g6, g7⟩ := hagree c
    obtain ⟨r0, r1, r2, r3, r4, r5, -, -⟩ := Cert.SlotAttn.FiniteInputs.real_of_pre _ _ _ _ _ _ _ _ (hpre c)
    refine (h c).1.trans ?_
    rw [Cert.ReferenceIdeal.Read.val_main_v35_eq, g0, g1, g2, g3, g4, g5, g6, g7]
    funext i
    obtain ⟨b, k, e, rfl⟩ : ∃ (b : Fin 8) (k : Fin 64) (e : Fin 1024), i = ix3 b k e := ⟨i 0, i 1, i 2, eq_ix3 i⟩
    rw [Cert.SlotAttn.RefValue.out_apply]
    exact ((Cert.SlotAttn.Fold.out_result m ρ c b k e).trans
      (Cert.SlotAttn.RealAlgebra.outAfter_eq_outBefore r0 r1 r2 r3 r4 r5 b k e)).symm
  · obtain ⟨g0, g1, g2, g3, g4, g5, g6, g7⟩ := hagree c
    refine (h c).2.1.trans ?_
    rw [Cert.ReferenceIdeal.Read.val_main_v28_eq, g0, g1, g3, g4]
    funext i
    obtain ⟨b, hd, k, l, rfl⟩ : ∃ (b : Fin 8) (hd : Fin 16) (k : Fin 64) (l : Fin 4096), i = ix4 b hd k l :=
      ⟨i 0, i 1, i 2, i 3, eq_ix4 i⟩
    rw [Cert.SlotAttn.RefValue.attn_apply]
    exact (Cert.SlotAttn.Fold.attn_result m ρ c b hd k l).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
